-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S200x10000 : Shape := ⟨2, ![200, 10000]⟩
abbrev S200x128 : Shape := ⟨2, ![200, 128]⟩
abbrev S50x200x128 : Shape := ⟨3, ![50, 200, 128]⟩
abbrev S6x200x10000 : Shape := ⟨3, ![6, 200, 10000]⟩
abbrev S1x200x128 : Shape := ⟨3, ![1, 200, 128]⟩
abbrev S1x200x10000 : Shape := ⟨3, ![1, 200, 10000]⟩

abbrev nBuf : Space → Nat
  | .hbm => 14
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S200x128, .f32⟩
  | .local _ .vmem, ⟨11, _⟩ => ⟨S200x128, .f32⟩
  | .local _ .vmem, ⟨12, _⟩ => ⟨S10000x128, .bf16⟩
  | .local _ .vmem, ⟨13, _⟩ => ⟨S10000x128, .f32⟩
  | .local _ .vmem, ⟨14, _⟩ => ⟨S10000x128, .bf16⟩
  | .local _ .vmem, ⟨15, _⟩ => ⟨S50x200x128, .bf16⟩
  | .local _ .vmem, ⟨16, _⟩ => ⟨S6x200x10000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v32 : BitVec 32 := Scalar.muli arg0 c200_i32
  let v33 : Index := Scalar.indexCast v32
  let c0_17 : Index := 0#32
  ![v33.toNat, 0]
def k0_off2 (i : grid0.Coords) : Fin 3 → Nat :=
  let arg0 : BitVec 32 := BitVec.ofNat 32 (i 0).val
  let v45 : Index := Scalar.indexCast arg0
  let c0_23 : Index := 0#32
  let c0_24 : Index := 0#32
  ![v45.toNat, 0, 0]
def k0_cond3 (i : grid0.Coords) : BitVec 1 :=
  let arg0 : BitVec 32 := BitVec.ofNat 32 (i 0).val
  let c6_i32 : BitVec 32 := 6#32
  let v6 : BitVec 1 := Scalar.cmpi .slt arg0 c6_i32
  let v7 : BitVec 32 := Scalar.extui v6
  let c0_i32_2 : BitVec 32 := 0#32
  let v8 : BitVec 1 := Scalar.cmpi .ne v7 c0_i32_2
  v8

def k0_off3 (i : grid0.Coords) : Fin 3 → Nat :=
  let arg0 : BitVec 32 := BitVec.ofNat 32 (i 0).val
  let v22 : Index := Scalar.indexCast arg0
  let c0_9 : Index := 0#32
  let c0_10 : Index := 0#32
  ![v22.toNat, 0, 0]
def k0_cond5 (i : grid0.Coords) : BitVec 1 :=
  let arg0 : BitVec 32 := BitVec.ofNat 32 (i 0).val
  let c50_i32_4 : BitVec 32 := 50#32
  let v12 : BitVec 1 := Scalar.cmpi .sge arg0 c50_i32_4
  let c94_i32 : BitVec 32 := 94#32
  let v13 : BitVec 1 := Scalar.cmpi .slt arg0 c94_i32
  let v14 : BitVec 1 := Scalar.andi v12 v13
  let v15 : BitVec 32 := Scalar.extui v14
  let c0_i32_5 : BitVec 32 := 0#32
  let v16 : BitVec 1 := Scalar.cmpi .ne v15 c0_i32_5
  v16

def k0_off4 (i : grid0.Coords) : Fin 3 → Nat :=
  let c99_i32 : BitVec 32 := 99#32
  let arg0 : BitVec 32 := BitVec.ofNat 32 (i 0).val
  let v20 : BitVec 32 := Scalar.subi c99_i32 arg0
  let v34 : Index := Scalar.indexCast v20
  let c0_17 : Index := 0#32
  let c0_18 : Index := 0#32
  ![v34.toNat, 0, 0]
def k0_cond6 (i : grid0.Coords) : BitVec 1 :=
  let arg0 : BitVec 32 := BitVec.ofNat 32 (i 0).val
  let c94_i32_6 : BitVec 32 := 94#32
  let v17 : BitVec 1 := Scalar.cmpi .sge arg0 c94_i32_6
  let v18 : BitVec 32 := Scalar.extui v17
  let c0_i32_7 : BitVec 32 := 0#32
  let v19 : BitVec 1 := Scalar.cmpi .ne v18 c0_i32_7
  v19

def k0_off5 (i : grid0.Coords) : Fin 3 → Nat :=
  let arg0 : BitVec 32 := BitVec.ofNat 32 (i 0).val
  let c94_i32_8 : BitVec 32 := 94#32
  let v20 : BitVec 32 := Scalar.subi arg0 c94_i32_8
  let v21 : Index := Scalar.indexCast v20
  let c0 : Index := 0#32
  let c0_9 : Index := 0#32
  ![v21.toNat, 0, 0]
def k0_off6 (i : grid0.Coords) : Fin 3 → Nat :=
  let arg0 : BitVec 32 := BitVec.ofNat 32 (i 0).val
  let c94_i32_8 : BitVec 32 := 94#32
  let v20 : BitVec 32 := Scalar.subi arg0 c94_i32_8
  let v35 : Index := Scalar.indexCast v20
  let c0_18 : Index := 0#32
  let c0_19 : Index := 0#32
  ![v35.toNat, 0, 0]
def cc0_transform_0 (i : grid0.Coords) : Fin 2 → Nat :=
  let arg0 : BitVec 32 := BitVec.ofNat 32 (i 0).val
  let c50_i32 : BitVec 32 := 50#32
  let v0 : BitVec 32 := Scalar.subi arg0 c50_i32
  let c44_i32 : BitVec 32 := 44#32
  let v1 : BitVec 1 := Scalar.cmpi .slt v0 c44_i32
  let c49_i32 : BitVec 32 := 49#32
  let v2 : BitVec 32 := Scalar.subi c49_i32 v0
  let c6_i32 : BitVec 32 := 6#32
  let v3 : BitVec 32 := Scalar.select v1 v2 c6_i32
  let c50_i32_0 : BitVec 32 := 50#32
  let v4 : BitVec 1 := Scalar.cmpi .slt arg0 c50_i32_0
  let v5 : BitVec 32 := Scalar.select v4 arg0 v3
  let c0_i32 : BitVec 32 := 0#32
  let c0_i32_1 : BitVec 32 := 0#32
  ![v5.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c50_i32 : BitVec 32 := 50#32
  let v0 : BitVec 32 := Scalar.subi arg0 c50_i32
  let c44_i32 : BitVec 32 := 44#32
  let v1 : BitVec 1 := Scalar.cmpi .slt v0 c44_i32
  let c49_i32 : BitVec 32 := 49#32
  let v2 : BitVec 32 := Scalar.subi c49_i32 v0
  let c44_i32_0 : BitVec 32 := 44#32
  let v3 : BitVec 32 := Scalar.subi v0 c44_i32_0
  let v4 : BitVec 32 := Scalar.select v1 v2 v3
  let c50_i32_1 : BitVec 32 := 50#32
  let v5 : BitVec 1 := Scalar.cmpi .slt arg0 c50_i32_1
  let c49_i32_2 : BitVec 32 := 49#32
  let v6 : BitVec 32 := Scalar.select v5 c49_i32_2 v4
  let c0_i32 : BitVec 32 := 0#32
  let c0_i32_3 : BitVec 32 := 0#32
  ![v6.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S200x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  shapeCasts_S128x128_S128x128 : S128x128.ShapeCasts S128x128
  h_S1x200x128 : 0 < S1x200x128.numel
  shapeCasts_S1x200x128_S200x128 : S1x200x128.ShapeCasts S200x128
  shapeCasts_S200x128_S1x200x128 : S200x128.ShapeCasts S1x200x128
  h_S1x200x10000 : 0 < S1x200x10000.numel
  shapeCasts_S1x200x10000_S200x10000 : S1x200x10000.ShapeCasts S200x10000
  shapeCasts_S200x10000_S1x200x10000 : S200x10000.ShapeCasts S1x200x10000
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (k0_h2 : k0_cond2 i = 1#1), ∀ a, (k0_off1 i) a + S200x128.size a ≤ S10000x128.size a
  k0_off2_inb : ∀ i : grid0.Coords, ∀ (k0_h2 : k0_cond2 i = 1#1), ∀ a, (k0_off2 i) a + S1x200x128.size a ≤ S50x200x128.size a
  k0_off2_packedbf16 : ∀ i : grid0.Coords, ∀ (k0_h2 : k0_cond2 i = 1#1), (Rect.unit (s := S50x200x128) (k0_off2 i) S1x200x128.size (k0_off2_inb i k0_h2)).PackedRows (EltTy.packing .bf16)
  k0_off3_inb : ∀ i : grid0.Coords, ∀ (k0_h3 : k0_cond3 i = 1#1), ∀ a, (k0_off3 i) a + S1x200x10000.size a ≤ S6x200x10000.size a
  k0_off3_packedbf16 : ∀ i : grid0.Coords, ∀ (k0_h3 : k0_cond3 i = 1#1), (Rect.unit (s := S6x200x10000) (k0_off3 i) S1x200x10000.size (k0_off3_inb i k0_h3)).PackedRows (EltTy.packing .bf16)
  k0_off4_inb : ∀ i : grid0.Coords, ∀ (k0_h5 : k0_cond5 i = 1#1), ∀ a, (k0_off4 i) a + S1x200x128.size a ≤ S50x200x128.size a
  k0_off5_inb : ∀ i : grid0.Coords, ∀ (k0_h6 : k0_cond6 i = 1#1), ∀ a, (k0_off5 i) a + S1x200x10000.size a ≤ S6x200x10000.size a
  k0_off6_inb : ∀ i : grid0.Coords, ∀ (k0_h6 : k0_cond6 i = 1#1), ∀ a, (k0_off6 i) a + S1x200x128.size a ≤ S50x200x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x128.size a ≤ S10000x128.size a
  hwx0_9 : ∀ i : grid0.Coords, EltTy.bits .f32 = 32 ∨ (Rect.block (s := S10000x128) S200x128.size (cc0_transform_9 i) (hinb0_9 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S200x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond5 i == 1#1) && !(k0_cond6 i == 1#1) | ⟨_ + 10, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S10000x256 : Shape := ⟨2, ![10000, 256]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x256, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.K.Base.lean ====
/-
  The six branch conditions of the fused two-layer graph-convolution body as propositions over the grid
  coordinate, each decided over the 100 grid points: the body computes Y1 = feats·W1 at point 0, runs the first
  layer on row block i at points i < 50 (keeping the first six adjacency blocks), snapshots Z at point 49, and
  runs the second layer on row block 99 - i at points 50 ≤ i < 94 and on the kept block i - 94 at points i ≥ 94.
  Also: the point-dependent offsets of the scratch slices in closed form, the output window's schedule
  (idle and not written back during the first layer), and the scratch buffers as whole memrefs.
-/
import proofs.«159059_g88923002896512_cont_sun_m_248_23_alg».proof.Proof.Gen.Kernel.Frame
import proofs.«159059_g88923002896512_cont_sun_m_248_23_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- point 0: Y1 is computed -/
abbrev cond1 (i : grid0.Coords) : Prop := (Scalar.cmpi .ne (Scalar.extui (Scalar.cmpi .eq (BitVec.ofNat 32 (i 0).val) 0#32)) 0#32) = 1#1
/-- points below 50: the first layer -/
abbrev cond2 (i : grid0.Coords) : Prop := k0_cond2 i = 1#1
/-- points below 6: the adjacency block is kept -/
abbrev cond3 (i : grid0.Coords) : Prop := k0_cond3 i = 1#1
/-- point 49: Z is snapshotted -/
abbrev cond4 (i : grid0.Coords) : Prop := (Scalar.cmpi .ne (Scalar.extui (Scalar.cmpi .eq (BitVec.ofNat 32 (i 0).val) 49#32)) 0#32) = 1#1
/-- points 50 to 93: the second layer on a streamed block -/
abbrev cond5 (i : grid0.Coords) : Prop := k0_cond5 i = 1#1
/-- points from 94: the second layer on a kept block -/
abbrev cond6 (i : grid0.Coords) : Prop := k0_cond6 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 50 :=
  (by decide +kernel : ∀ t : Fin grid0.N, cond2 (grid0.coords t) ↔ t.val < 50)
theorem hcond3 : ∀ t : Fin cfg0.N, cond3 (grid0.coords t) ↔ t.val < 6 :=
  (by decide +kernel : ∀ t : Fin grid0.N, cond3 (grid0.coords t) ↔ t.val < 6)
theorem hcond4 : ∀ t : Fin cfg0.N, cond4 (grid0.coords t) ↔ t.val = 49 :=
  (by decide +kernel : ∀ t : Fin grid0.N, cond4 (grid0.coords t) ↔ t.val = 49)
theorem hcond5 : ∀ t : Fin cfg0.N, cond5 (grid0.coords t) ↔ (50 ≤ t.val ∧ t.val < 94) :=
  (by decide +kernel : ∀ t : Fin grid0.N, cond5 (grid0.coords t) ↔ (50 ≤ t.val ∧ t.val < 94))
theorem hcond6 : ∀ t : Fin cfg0.N, cond6 (grid0.coords t) ↔ 94 ≤ t.val :=
  (by decide +kernel : ∀ t : Fin grid0.N, cond6 (grid0.coords t) ↔ 94 ≤ t.val)

/-! ## The scratch slices' offsets in closed form -/

theorem off1_eq : ∀ t : Fin cfg0.N, t.val < 50 → k0_off1 (grid0.coords t) = ![200 * t.val, 0] :=
  (by decide +kernel : ∀ t : Fin grid0.N, t.val < 50 → k0_off1 (grid0.coords t) = ![200 * t.val, 0])
theorem off2_eq : ∀ t : Fin cfg0.N, t.val < 50 → k0_off2 (grid0.coords t) = ![t.val, 0, 0] :=
  (by decide +kernel : ∀ t : Fin grid0.N, t.val < 50 → k0_off2 (grid0.coords t) = ![t.val, 0, 0])
theorem off3_eq : ∀ t : Fin cfg0.N, t.val < 6 → k0_off3 (grid0.coords t) = ![t.val, 0, 0] :=
  (by decide +kernel : ∀ t : Fin grid0.N, t.val < 6 → k0_off3 (grid0.coords t) = ![t.val, 0, 0])
theorem off4_eq : ∀ t : Fin cfg0.N, 50 ≤ t.val → k0_off4 (grid0.coords t) = ![99 - t.val, 0, 0] :=
  (by decide +kernel : ∀ t : Fin grid0.N, 50 ≤ t.val → k0_off4 (grid0.coords t) = ![99 - t.val, 0, 0])
theorem off5_eq : ∀ t : Fin cfg0.N, 94 ≤ t.val → k0_off5 (grid0.coords t) = ![t.val - 94, 0, 0] :=
  (by decide +kernel : ∀ t : Fin grid0.N, 94 ≤ t.val → k0_off5 (grid0.coords t) = ![t.val - 94, 0, 0])
theorem off6_eq : ∀ t : Fin cfg0.N, 94 ≤ t.val → k0_off6 (grid0.coords t) = ![t.val - 94, 0, 0] :=
  (by decide +kernel : ∀ t : Fin grid0.N, 94 ≤ t.val → k0_off6 (grid0.coords t) = ![t.val - 94, 0, 0])

/-! ## Where the windows are idle -/

theorem liveAt_in : ∀ (w : Fin cfg0.W), w.val < 9 → ∀ t : Fin cfg0.N, cfg0.idle w (grid0.coords t) = false := by decide +kernel
theorem idleAt9 : ∀ t : Fin cfg0.N, t.val < 50 → cfg0.idle 9 (grid0.coords t) = true := by decide +kernel
theorem noFlush9 : ∀ t : Fin cfg0.N, t.val < 50 → (cfg0.win 9).flush t = false := by decide +kernel
theorem liveAt9 : ∀ t : Fin cfg0.N, 50 ≤ t.val → cfg0.idle 9 (grid0.coords t) = false := by decide +kernel
theorem flush9 : ∀ t : Fin cfg0.N, 50 ≤ t.val → (cfg0.win 9).flush t = true := by decide +kernel

/-! ## The memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S200x128 .f32 := win0_9.stage (cfg0.slots t 9)
abbrev hs9 (t : Fin cfg0.N) : (ms9 t).IsWhole := hstage0_9 ((cfg0.slots t 9).cast nbuf0_9)
/-- The five scratch operands: Y1, Z, the snapshot of Z, the first layer's share of the result, the kept adjacency blocks. -/
abbrev sc0 : Memref sig .tc .vmem S10000x128 .bf16 := Memref.whole cc0_scratch0
abbrev sc1 : Memref sig .tc .vmem S10000x128 .f32 := Memref.whole cc0_scratch1
abbrev sc2 : Memref sig .tc .vmem S10000x128 .bf16 := Memref.whole cc0_scratch2
abbrev sc3 : Memref sig .tc .vmem S50x200x128 .bf16 := Memref.whole cc0_scratch3
abbrev sc4 : Memref sig .tc .vmem S6x200x10000 .bf16 := Memref.whole cc0_scratch4

/-- The class invariant with the five scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.Kernel.Hand

end
-- ==== Proof.K.RunA.lean ====
/-
  The body's run in one control case (point 0: Y1, the first layer on block 0, the block kept): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- point 0: Y1, the first layer on block 0, the block kept -/
noncomputable def runA (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS0 : List (View.Piece (Elt F) S10000x128 .bf16)), Σ' (LS1 : List (View.Piece (Elt F) S10000x128 .f32)), Σ' (LS3 : List (View.Piece (Elt F) S50x200x128 .bf16)), { LS4 : List (View.Piece (Elt F) S6x200x10000 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (arg11.view.loc (c : Thread nD τ) ↦[arg11.view.set]{fullShare} arg11.view.writes (Elt F) (harg11.unread xs0) LS0) ∗ (arg12.view.loc (c : Thread nD τ) ↦[arg12.view.set]{fullShare} arg12.view.writes (Elt F) (harg12.unread xs1) LS1) ∗ owns (c : Thread nD τ) arg13 fullShare xs2 ∗ (arg14.view.loc (c : Thread nD τ) ↦[arg14.view.set]{fullShare} arg14.view.writes (Elt F) (harg14.unread xs3) LS3) ∗ (arg15.view.loc (c : Thread nD τ) ↦[arg15.view.set]{fullShare} arg15.view.writes (Elt F) (harg15.unread xs4) LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexact H12
    isplitl [H13]
    · iexists _; isplitr; · ipureintro; exact harg13.read_unread _
      iexact H13
    isplitl [H14]
    · iexact H14
    iexact H15

end Cert.Kernel.Hand

end
-- ==== Proof.K.RunB.lean ====
/-
  The body's run in one control case (points 1 to 5: the first layer on block i, the block kept): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- points 1 to 5: the first layer on block i, the block kept -/
noncomputable def runB (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS1 : List (View.Piece (Elt F) S10000x128 .f32)), Σ' (LS3 : List (View.Piece (Elt F) S50x200x128 .bf16)), { LS4 : List (View.Piece (Elt F) S6x200x10000 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1) ∗ owns (c : Thread nD τ) arg13 fullShare xs2 ∗ (arg14.view.loc (c : Thread nD τ) ↦[arg14.view.set]{fullShare} arg14.view.writes (Elt F) (harg14.unread xs3) LS3) ∗ (arg15.view.loc (c : Thread nD τ) ↦[arg15.view.set]{fullShare} arg15.view.writes (Elt F) (harg15.unread xs4) LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexists _; isplitr; · ipureintro; exact harg13.read_unread _
      iexact H13
    isplitl [H14]
    · iexact H14
    iexact H15

end Cert.Kernel.Hand

end
-- ==== Proof.K.RunC.lean ====
/-
  The body's run in one control case (points 6 to 48: the first layer on block i): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- points 6 to 48: the first layer on block i -/
noncomputable def runC (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : ¬cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS1 : List (View.Piece (Elt F) S10000x128 .f32)), { LS3 : List (View.Piece (Elt F) S50x200x128 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1) ∗ owns (c : Thread nD τ) arg13 fullShare xs2 ∗ (arg14.view.loc (c : Thread nD τ) ↦[arg14.view.set]{fullShare} arg14.view.writes (Elt F) (harg14.unread xs3) LS3) ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexists _; isplitr; · ipureintro; exact harg13.read_unread _
      iexact H13
    isplitl [H14]
    · iexact H14
    iexists _; isplitr; · ipureintro; exact harg15.read_unread _
    iexact H15

end Cert.Kernel.Hand

end
-- ==== Proof.K.RunD.lean ====
/-
  The body's run in one control case (point 49: the first layer on block 49, then the snapshot of Z): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- point 49: the first layer on block 49, then the snapshot of Z -/
noncomputable def runD (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS1 : List (View.Piece (Elt F) S10000x128 .f32)), Σ' (LS2 : List (View.Piece (Elt F) S10000x128 .bf16)), { LS3 : List (View.Piece (Elt F) S50x200x128 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1) ∗ (arg13.view.loc (c : Thread nD τ) ↦[arg13.view.set]{fullShare} arg13.view.writes (Elt F) (harg13.unread xs2) LS2) ∗ (arg14.view.loc (c : Thread nD τ) ↦[arg14.view.set]{fullShare} arg14.view.writes (Elt F) (harg14.unread xs3) LS3) ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexact H13
    isplitl [H14]
    · iexact H14
    iexists _; isplitr; · ipureintro; exact harg15.read_unread _
    iexact H15

end Cert.Kernel.Hand

end
-- ==== Proof.K.RunE.lean ====
/-
  The body's run in one control case (points 50 to 93: the second layer on the streamed block 99 - i): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.K.RunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- points 50 to 93: the second layer on the streamed block 99 - i -/
noncomputable def runE (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    { L9 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [HO]
    · iexists _; iexact HO
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.Kernel.Hand

end
-- ==== Proof.K.RunF.lean ====
/-
  The body's run in one control case (points from 94: the second layer on the kept block i - 94): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.K.RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- points from 94: the second layer on the kept block i - 94 -/
noncomputable def runF (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : ¬cond5 i) (hc6 : cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    { L9 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [HO]
    · iexists _; iexact HO
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.Kernel.Hand

end
-- ==== Proof.K.Writes.lean ====
/-
  Reading a buffer after ONE store over what it held: an index under the stored rectangle reads the payload at its
  position inside the rectangle, any other index reads the old contents. Stated for the three rectangle forms the
  body uses: a band of whole rows of a rank-2 buffer, one leading index of a rank-3 buffer, and the whole buffer.
-/
import proofs.«159059_g88923002896512_cont_sun_m_248_23_alg».proof.Proof.K.Base
import Idealize.ShloMosaic.Lib.WritesUnit
import Idealize.ShloMosaic.Lib.Pipeline.Value
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section OnePiece

variable {s : Shape} {e : EltTy} (arg : Memref sig .tc .vmem s e) (h : arg.IsWhole) (xs : Vec F s e)

/-- nothing stored: the old contents -/
theorem read_nil : arg.view.read (Elt F) (arg.view.writes (Elt F) (h.unread xs) []) = xs := by
  rw [View.writes_nil]; exact h.read_unread xs

/-- an index at position x of the stored rectangle reads the payload at x -/
theorem read_one_mem {off off' size : Fin s.rank → ℕ} (inb : ∀ a, off a + size a ≤ s.size a)
    (w : (Rect.unit off size inb).shape.Idx → Elt F e) (f : arg.view.ty.Contents (Elt F)) (y : s.Idx)
    (x : (Rect.unit off size inb).shape.Idx) (heq : off = off') (hx : ∀ a, (y a).val = off' a + (x a).val) :
    arg.view.read (Elt F) (arg.view.writes (Elt F) f [(⟨Rect.unit off size inb, w⟩ : View.Piece (Elt F) s e)]) y = w x :=
  View.read_writes_cons_unit_of_mem arg.view f inb w [] y x heq hx

/-- an index that misses the stored rectangle on axis a reads the old contents -/
theorem read_one_not_mem {off off' size : Fin s.rank → ℕ} (inb : ∀ a, off a + size a ≤ s.size a)
    (w : (Rect.unit off size inb).shape.Idx → Elt F e) (y : s.Idx) (heq : off = off')
    (a : Fin s.rank) (ha : (y a).val < off' a ∨ off' a + size a ≤ (y a).val) :
    arg.view.read (Elt F) (arg.view.writes (Elt F) (h.unread xs) [(⟨Rect.unit off size inb, w⟩ : View.Piece (Elt F) s e)]) y = xs y := by
  rw [View.read_writes_cons_unit_of_not_mem arg.view (h.unread xs) inb w [] y heq a ha, View.writes_nil]
  exact congrFun (h.read_unread xs) y

/-- a store through the whole buffer leaves its payload, whatever the buffer held -/
theorem read_one_whole {off : Fin s.rank → ℕ} (hz : off = fun _ => 0) (inb : ∀ a, off a + s.size a ≤ s.size a)
    (w : (Rect.unit off s.size inb).shape.Idx → Elt F e) (f : arg.view.ty.Contents (Elt F)) :
    arg.view.read (Elt F) (arg.view.writes (Elt F) f [(⟨Rect.unit off s.size inb, w⟩ : View.Piece (Elt F) s e)]) = w := by
  funext y
  exact View.read_writes_cons_unit_of_mem arg.view f inb w [] y y hz (fun a => by simp)

/-- a load through the whole buffer reads the contents -/
theorem load_whole {off : Fin s.rank → ℕ} (hz : off = fun _ => 0) (inb : ∀ a, off a + s.size a ≤ s.size a) :
    View.readAt (Elt F) arg.view (Rect.unit off s.size inb).toLoadRect (h.unread xs) = xs := by
  rw [View.readAt_eq_ld, h.read_unread, View.ld_unit_zero hz]

/-- a load of a rectangle at an index reads the contents at the rectangle's offsets plus the index -/
theorem load_apply {off size : Fin s.rank → ℕ} (inb : ∀ a, off a + size a ≤ s.size a)
    (x : (Rect.unit off size inb).shape.Idx) :
    View.readAt (Elt F) arg.view (Rect.unit off size inb).toLoadRect (h.unread xs) x = xs ((Rect.unit off size inb).emb x) :=
  h.readAt_unread xs _ x

end OnePiece

theorem z2 : (![0, 0] : Fin 2 → ℕ) = fun _ => 0 := by funext a; fin_cases a <;> rfl
theorem z3 : (![0, 0, 0] : Fin 3 → ℕ) = fun _ => 0 := by funext a; fin_cases a <;> rfl

end Cert.Kernel.Hand

end
-- ==== Proof.K.Pieces.lean ====
/-
  The stores each control case of the body makes, with every whole-buffer load replaced by the contents it reads:
  each stored rectangle with its payload as the skeleton's pure term of the input blocks and the scratch contents.
  At point 0 the first layer reads back the Y1 the same point stored; at point 49 the snapshot reads Z with the
  point's own band of rows already written.
-/
import proofs.«159059_g88923002896512_cont_sun_m_248_23_alg».proof.Proof.K.RunF
import proofs.«159059_g88923002896512_cont_sun_m_248_23_alg».proof.Proof.K.Writes

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem runA_y1 (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) ![0, 0] S10000x128.size inb_S10000x128_S10000x128_0_0, k0_pay1 x1 x2⟩ : View.Piece (Elt F) S10000x128 .bf16)] := by
  unfold runA; dsimp only; unfold runA.sl.H11_1
  rw [load_whole arg2 harg2 x1 z2, load_whole arg3 harg3 x2 z2]

theorem runA_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S10000x128) (k0_off1 i) S200x128.size (k0_off1_inb i hc2), k0_pay3 x0 (k0_pay1 x1 x2) x3 x4⟩ : View.Piece (Elt F) S10000x128 .f32)] := by
  unfold runA; dsimp only; unfold runA.sl.v22 runA.sl.H11_1
  rw [load_whole arg2 harg2 x1 z2, load_whole arg3 harg3 x2 z2, View.readCov_unit_zero arg11.view z2, load_whole arg1 harg1 x0 z2, load_whole arg4 harg4 x3 z2, load_whole arg5 harg5 x4 z2]

theorem runA_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.1 = [(⟨Rect.unit (s := S50x200x128) (k0_off2 i) S1x200x128.size (k0_off2_inb i hc2), k0_pay4 x0 (k0_pay1 x1 x2) x3 x6 x8⟩ : View.Piece (Elt F) S50x200x128 .bf16)] := by
  unfold runA; dsimp only; unfold runA.sl.v22 runA.sl.H11_1
  rw [load_whole arg2 harg2 x1 z2, load_whole arg3 harg3 x2 z2, View.readCov_unit_zero arg11.view z2, load_whole arg1 harg1 x0 z2, load_whole arg4 harg4 x3 z2, load_whole arg7 harg7 x6 z2, load_whole arg9 harg9 x8 z2]

theorem runA_cache (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.2.1 = [(⟨Rect.unit (s := S6x200x10000) (k0_off3 i) S1x200x10000.size (k0_off3_inb i hc3), k0_pay5 x0⟩ : View.Piece (Elt F) S6x200x10000 .bf16)] := by
  unfold runA; dsimp only
  rw [load_whole arg1 harg1 x0 z2]

theorem runB_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) (k0_off1 i) S200x128.size (k0_off1_inb i hc2), k0_pay3 x0 xs0 x3 x4⟩ : View.Piece (Elt F) S10000x128 .f32)] := by
  unfold runB; dsimp only
  rw [load_whole arg1 harg1 x0 z2, load_whole arg11 harg11 xs0 z2, load_whole arg4 harg4 x3 z2, load_whole arg5 harg5 x4 z2]

theorem runB_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S50x200x128) (k0_off2 i) S1x200x128.size (k0_off2_inb i hc2), k0_pay4 x0 xs0 x3 x6 x8⟩ : View.Piece (Elt F) S50x200x128 .bf16)] := by
  unfold runB; dsimp only
  rw [load_whole arg1 harg1 x0 z2, load_whole arg11 harg11 xs0 z2, load_whole arg4 harg4 x3 z2, load_whole arg7 harg7 x6 z2, load_whole arg9 harg9 x8 z2]

theorem runB_cache (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.1 = [(⟨Rect.unit (s := S6x200x10000) (k0_off3 i) S1x200x10000.size (k0_off3_inb i hc3), k0_pay5 x0⟩ : View.Piece (Elt F) S6x200x10000 .bf16)] := by
  unfold runB; dsimp only
  rw [load_whole arg1 harg1 x0 z2]

theorem runC_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) (k0_off1 i) S200x128.size (k0_off1_inb i hc2), k0_pay3 x0 xs0 x3 x4⟩ : View.Piece (Elt F) S10000x128 .f32)] := by
  unfold runC; dsimp only
  rw [load_whole arg1 harg1 x0 z2, load_whole arg11 harg11 xs0 z2, load_whole arg4 harg4 x3 z2, load_whole arg5 harg5 x4 z2]

theorem runC_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S50x200x128) (k0_off2 i) S1x200x128.size (k0_off2_inb i hc2), k0_pay4 x0 xs0 x3 x6 x8⟩ : View.Piece (Elt F) S50x200x128 .bf16)] := by
  unfold runC; dsimp only
  rw [load_whole arg1 harg1 x0 z2, load_whole arg11 harg11 xs0 z2, load_whole arg4 harg4 x3 z2, load_whole arg7 harg7 x6 z2, load_whole arg9 harg9 x8 z2]

theorem runD_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) (k0_off1 i) S200x128.size (k0_off1_inb i hc2), k0_pay3 x0 xs0 x3 x4⟩ : View.Piece (Elt F) S10000x128 .f32)] := by
  unfold runD; dsimp only; unfold runD.sl.H12_1
  rw [load_whole arg1 harg1 x0 z2, load_whole arg11 harg11 xs0 z2, load_whole arg4 harg4 x3 z2, load_whole arg5 harg5 x4 z2]

theorem runD_zbf (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S10000x128) ![0, 0] S10000x128.size inb_S10000x128_S10000x128_0_0, k0_pay6 (arg12.view.read (Elt F) (arg12.view.writes (Elt F) (harg12.unread xs1) [(⟨Rect.unit (s := S10000x128) (k0_off1 i) S200x128.size (k0_off1_inb i hc2), k0_pay3 x0 xs0 x3 x4⟩ : View.Piece (Elt F) S10000x128 .f32)]))⟩ : View.Piece (Elt F) S10000x128 .bf16)] := by
  unfold runD; dsimp only; unfold runD.sl.v20 runD.sl.H12_1
  rw [View.readAt_eq_ld, View.ld_unit_zero z2, load_whole arg1 harg1 x0 z2, load_whole arg11 harg11 xs0 z2, load_whole arg4 harg4 x3 z2, load_whole arg5 harg5 x4 z2]

theorem runD_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.1 = [(⟨Rect.unit (s := S50x200x128) (k0_off2 i) S1x200x128.size (k0_off2_inb i hc2), k0_pay4 x0 xs0 x3 x6 x8⟩ : View.Piece (Elt F) S50x200x128 .bf16)] := by
  unfold runD; dsimp only
  rw [load_whole arg1 harg1 x0 z2, load_whole arg11 harg11 xs0 z2, load_whole arg4 harg4 x3 z2, load_whole arg7 harg7 x6 z2, load_whole arg9 harg9 x8 z2]

theorem runE_out (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S200x128) ![0, 0] S200x128.size inb_S200x128_S200x128_0_0, k0_pay7 x0 xs2 x5 x7 (View.readAt (Elt F) arg14.view (Rect.unit (s := S50x200x128) (k0_off4 i) S1x200x128.size (k0_off4_inb i hc5)).toLoadRect (harg14.unread xs3))⟩ : View.Piece (Elt F) S200x128 .f32)] := by
  unfold runE; dsimp only
  rw [load_whole arg1 harg1 x0 z2, load_whole arg13 harg13 xs2 z2, load_whole arg6 harg6 x5 z2, load_whole arg8 harg8 x7 z2]

theorem runF_out (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : ¬cond5 i) (hc6 : cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runF c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S200x128) ![0, 0] S200x128.size inb_S200x128_S200x128_0_0, k0_pay8 (View.readAt (Elt F) arg15.view (Rect.unit (s := S6x200x10000) (k0_off5 i) S1x200x10000.size (k0_off5_inb i hc6)).toLoadRect (harg15.unread xs4)) xs2 x5 x7 (View.readAt (Elt F) arg14.view (Rect.unit (s := S50x200x128) (k0_off6 i) S1x200x128.size (k0_off6_inb i hc6)).toLoadRect (harg14.unread xs3))⟩ : View.Piece (Elt F) S200x128 .f32)] := by
  unfold runF; dsimp only
  rw [load_whole arg13 harg13 xs2 z2, load_whole arg6 harg6 x5 z2, load_whole arg8 harg8 x7 z2]

end Cert.Kernel.Hand

end
-- ==== Proof.K.Inv.lean ====
/-
  What the five scratch buffers hold after n grid points, through the skeleton's pure payloads of the input blocks:
  after point 0 the first holds Y1 = feats·W1; after point j < 50 the band of rows 200 j .. 200 j + 199 of the second
  holds Z's block j (the first layer's output block times W2), slot j of the fourth holds the first layer's share
  of the result for block j, and for j < 6 slot j of the fifth holds adjacency block j; after point 49 the third
  holds the snapshot of the whole Z. Each control case of the body takes the invariant after n points to the
  invariant after n + 1, and at the points of the second layer the stored output block is the payload of the
  point's inputs, the snapshot, and slot 99 - t (or t - 94) of the fourth (and fifth) buffer.
-/
import proofs.«159059_g88923002896512_cont_sun_m_248_23_alg».proof.Proof.K.Pieces
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (c : Dev nD)

theorem lt100 (t : Fin cfg0.N) : t.val < 100 := lt_of_lt_of_eq t.isLt N_0
/-- grid point n -/
def pt (n : ℕ) (h : n < 100) : Fin cfg0.N := ⟨n, lt_of_lt_of_eq h N_0.symm⟩
@[simp] theorem pt_val (n : ℕ) (h : n < 100) : (pt n h).val = n := rfl

/-- the first grid point -/
def p0 : Fin cfg0.N := pt 0 (by omega)
@[simp] theorem p0_val : (p0).val = 0 := rfl

/-- Y1 = feats · W1, as point 0 computes it -/
def Y1 : Vec F S10000x128 .bf16 := k0_pay1 (iblk m c 1 p0) (iblk m c 2 p0)
/-- block j of Z = H1 · W2, as point j computes it -/
def Zb (j : Fin cfg0.N) : Vec F S200x128 .f32 := k0_pay3 (iblk m c 0 j) (Y1 m c) (iblk m c 3 j) (iblk m c 4 j)
/-- block j of H1 · Wout[:128] + bout, as point j computes it -/
def Ab (j : Fin cfg0.N) : Vec F S1x200x128 .bf16 := k0_pay4 (iblk m c 0 j) (Y1 m c) (iblk m c 3 j) (iblk m c 6 j) (iblk m c 8 j)
/-- adjacency block j as point j keeps it -/
def Cb (j : Fin cfg0.N) : Vec F S1x200x10000 .bf16 := k0_pay5 (iblk m c 0 j)
/-- the whole Z, row r from block r / 200 -/
def Zfull : Vec F S10000x128 .f32 := fun y =>
  Zb m c (pt ((y 0).val / 200) (by have := ValueIdx.idx2_lt0 y; omega))
    (ValueIdx.ix2 (⟨(y 0).val % 200, Nat.mod_lt _ (by omega)⟩ : Fin 200) (⟨(y 1).val, ValueIdx.idx2_lt1 y⟩ : Fin 128))
/-- the snapshot of Z -/
def ZBF : Vec F S10000x128 .bf16 := k0_pay6 (Zfull m c)
/-- the output block the second layer stores at point t -/
def outAt (t : Fin cfg0.N) : Vec F S200x128 .f32 :=
  if h : 94 ≤ t.val then
    k0_pay8 (Cb m c (pt (t.val - 94) (by have := lt100 t; omega))) (ZBF m c) (iblk m c 5 t) (iblk m c 7 t) (Ab m c (pt (t.val - 94) (by have := lt100 t; omega)))
  else
    k0_pay7 (iblk m c 0 t) (ZBF m c) (iblk m c 5 t) (iblk m c 7 t) (Ab m c (pt (99 - t.val) (by omega)))

/-- the scratch contents after n points -/
structure Inv (n : ℕ) (xs0 : Vec F S10000x128 .bf16) (xs1 : Vec F S10000x128 .f32) (xs2 : Vec F S10000x128 .bf16) (xs3 : Vec F S50x200x128 .bf16) (xs4 : Vec F S6x200x10000 .bf16) : Prop where
  hy : 1 ≤ n → xs0 = Y1 m c
  hz : ∀ j : Fin cfg0.N, j.val < n → j.val < 50 → ∀ (y : S10000x128.Idx) (x : S200x128.Idx),
    (y 0).val = 200 * j.val + (x 0).val → (y 1).val = (x 1).val → xs1 y = Zb m c j x
  hzb : 50 ≤ n → xs2 = k0_pay6 xs1
  ha : ∀ j : Fin cfg0.N, j.val < n → j.val < 50 → ∀ (y : S50x200x128.Idx) (x : S1x200x128.Idx),
    (y 0).val = j.val → (y 1).val = (x 1).val → (y 2).val = (x 2).val → xs3 y = Ab m c j x
  hc : ∀ j : Fin cfg0.N, j.val < n → j.val < 6 → ∀ (y : S6x200x10000.Idx) (x : S1x200x10000.Idx),
    (y 0).val = j.val → (y 1).val = (x 1).val → (y 2).val = (x 2).val → xs4 y = Cb m c j x

theorem Inv.zero (xs0 : Vec F S10000x128 .bf16) (xs1 : Vec F S10000x128 .f32) (xs2 : Vec F S10000x128 .bf16) (xs3 : Vec F S50x200x128 .bf16) (xs4 : Vec F S6x200x10000 .bf16) : Inv m c 0 xs0 xs1 xs2 xs3 xs4 :=
  ⟨fun h => absurd h (by omega), fun _ h => absurd h (by omega), fun h => absurd h (by omega),
   fun _ h => absurd h (by omega), fun _ h => absurd h (by omega)⟩

/-- from point 50 on nothing in the scratch changes -/
theorem Inv.succ_of_ge {n : ℕ} (hn : 50 ≤ n) (xs0 : Vec F S10000x128 .bf16) (xs1 : Vec F S10000x128 .f32) (xs2 : Vec F S10000x128 .bf16) (xs3 : Vec F S50x200x128 .bf16) (xs4 : Vec F S6x200x10000 .bf16) (h : Inv m c n xs0 xs1 xs2 xs3 xs4) :
    Inv m c (n + 1) xs0 xs1 xs2 xs3 xs4 :=
  ⟨fun _ => h.hy (by omega), fun j _ hj => h.hz j (by omega) hj, fun _ => h.hzb hn,
   fun j _ hj => h.ha j (by omega) hj, fun j _ hj => h.hc j (by omega) hj⟩

/-- once all 50 bands are written the second buffer is the whole Z -/
theorem Inv.z_full {n : ℕ} (hn : 50 ≤ n) (xs0 : Vec F S10000x128 .bf16) (xs1 : Vec F S10000x128 .f32) (xs2 : Vec F S10000x128 .bf16) (xs3 : Vec F S50x200x128 .bf16) (xs4 : Vec F S6x200x10000 .bf16) (h : Inv m c n xs0 xs1 xs2 xs3 xs4) : xs1 = Zfull m c :=
  funext fun y => h.hz (pt ((y 0).val / 200) (by have := ValueIdx.idx2_lt0 y; omega))
    (by have := ValueIdx.idx2_lt0 y; simp only [pt_val]; omega) (by have := ValueIdx.idx2_lt0 y; simp only [pt_val]; omega) y
    (ValueIdx.ix2 (⟨(y 0).val % 200, Nat.mod_lt _ (by omega)⟩ : Fin 200) (⟨(y 1).val, ValueIdx.idx2_lt1 y⟩ : Fin 128))
    (by show (y 0).val = 200 * ((y 0).val / 200) + (y 0).val % 200; omega) rfl

theorem Inv.zbf_eq {n : ℕ} (hn : 50 ≤ n) (xs0 : Vec F S10000x128 .bf16) (xs1 : Vec F S10000x128 .f32) (xs2 : Vec F S10000x128 .bf16) (xs3 : Vec F S50x200x128 .bf16) (xs4 : Vec F S6x200x10000 .bf16) (h : Inv m c n xs0 xs1 xs2 xs3 xs4) : xs2 = ZBF m c :=
  (h.hzb hn).trans (congrArg k0_pay6 (h.z_full m c hn))

/-! ## One band, one slot -/

theorem z_step (t : Fin cfg0.N) (ht : t.val < 50) (arg12 : Memref sig .tc .vmem S10000x128 .f32) (harg12 : arg12.IsWhole)
    (z : Vec F S10000x128 .f32) (inb : ∀ a, k0_off1 (grid0.coords t) a + S200x128.size a ≤ S10000x128.size a)
    (hold : ∀ j : Fin cfg0.N, j.val < t.val → j.val < 50 → ∀ (y : S10000x128.Idx) (x : S200x128.Idx),
      (y 0).val = 200 * j.val + (x 0).val → (y 1).val = (x 1).val → z y = Zb m c j x) :
    ∀ j : Fin cfg0.N, j.val < t.val + 1 → j.val < 50 → ∀ (y : S10000x128.Idx) (x : S200x128.Idx),
      (y 0).val = 200 * j.val + (x 0).val → (y 1).val = (x 1).val →
      arg12.view.read (Elt F) (arg12.view.writes (Elt F) (harg12.unread z)
        [(⟨Rect.unit (s := S10000x128) (k0_off1 (grid0.coords t)) S200x128.size inb, Zb m c t⟩ : View.Piece (Elt F) S10000x128 .f32)]) y
        = Zb m c j x := by
  intro j hj hj50 y x h0 h1
  by_cases hjt : j.val = t.val
  · obtain rfl : j = t := Fin.ext hjt
    exact read_one_mem arg12 inb (Zb m c j) _ y x (off1_eq j ht)
      (fun a => match a with
        | ⟨0, _⟩ => h0
        | ⟨1, _⟩ => by show (y 1).val = 0 + (x 1).val; omega)
  · have hx := ValueIdx.idx2_lt0 x
    rw [read_one_not_mem arg12 harg12 z inb (Zb m c t) y (off1_eq t ht) 0
      (Or.inl (by show (y 0).val < 200 * t.val; omega))]
    exact hold j (by omega) hj50 y x h0 h1

theorem acc_step (t : Fin cfg0.N) (ht : t.val < 50) (arg14 : Memref sig .tc .vmem S50x200x128 .bf16) (harg14 : arg14.IsWhole)
    (acc : Vec F S50x200x128 .bf16) (inb : ∀ a, k0_off2 (grid0.coords t) a + S1x200x128.size a ≤ S50x200x128.size a)
    (hold : ∀ j : Fin cfg0.N, j.val < t.val → j.val < 50 → ∀ (y : S50x200x128.Idx) (x : S1x200x128.Idx),
      (y 0).val = j.val → (y 1).val = (x 1).val → (y 2).val = (x 2).val → acc y = Ab m c j x) :
    ∀ j : Fin cfg0.N, j.val < t.val + 1 → j.val < 50 → ∀ (y : S50x200x128.Idx) (x : S1x200x128.Idx),
      (y 0).val = j.val → (y 1).val = (x 1).val → (y 2).val = (x 2).val →
      arg14.view.read (Elt F) (arg14.view.writes (Elt F) (harg14.unread acc)
        [(⟨Rect.unit (s := S50x200x128) (k0_off2 (grid0.coords t)) S1x200x128.size inb, Ab m c t⟩ : View.Piece (Elt F) S50x200x128 .bf16)]) y
        = Ab m c j x := by
  intro j hj hj50 y x h0 h1 h2
  by_cases hjt : j.val = t.val
  · obtain rfl : j = t := Fin.ext hjt
    have hx0 : (x 0).val < 1 := (x 0).isLt
    exact read_one_mem arg14 inb (Ab m c j) _ y x (off2_eq j ht)
      (fun a => match a with
        | ⟨0, _⟩ => by show (y 0).val = j.val + (x 0).val; omega
        | ⟨1, _⟩ => by show (y 1).val = 0 + (x 1).val; omega
        | ⟨2, _⟩ => by show (y 2).val = 0 + (x 2).val; omega)
  · rw [read_one_not_mem arg14 harg14 acc inb (Ab m c t) y (off2_eq t ht) 0
      (by show (y 0).val < t.val ∨ t.val + 1 ≤ (y 0).val; omega)]
    exact hold j (by omega) hj50 y x h0 h1 h2

theorem cache_step (t : Fin cfg0.N) (ht : t.val < 6) (arg15 : Memref sig .tc .vmem S6x200x10000 .bf16) (harg15 : arg15.IsWhole)
    (cache : Vec F S6x200x10000 .bf16) (inb : ∀ a, k0_off3 (grid0.coords t) a + S1x200x10000.size a ≤ S6x200x10000.size a)
    (hold : ∀ j : Fin cfg0.N, j.val < t.val → j.val < 6 → ∀ (y : S6x200x10000.Idx) (x : S1x200x10000.Idx),
      (y 0).val = j.val → (y 1).val = (x 1).val → (y 2).val = (x 2).val → cache y = Cb m c j x) :
    ∀ j : Fin cfg0.N, j.val < t.val + 1 → j.val < 6 → ∀ (y : S6x200x10000.Idx) (x : S1x200x10000.Idx),
      (y 0).val = j.val → (y 1).val = (x 1).val → (y 2).val = (x 2).val →
      arg15.view.read (Elt F) (arg15.view.writes (Elt F) (harg15.unread cache)
        [(⟨Rect.unit (s := S6x200x10000) (k0_off3 (grid0.coords t)) S1x200x10000.size inb, Cb m c t⟩ : View.Piece (Elt F) S6x200x10000 .bf16)]) y
        = Cb m c j x := by
  intro j hj hj6 y x h0 h1 h2
  by_cases hjt : j.val = t.val
  · obtain rfl : j = t := Fin.ext hjt
    have hx0 : (x 0).val < 1 := (x 0).isLt
    exact read_one_mem arg15 inb (Cb m c j) _ y x (off3_eq j ht)
      (fun a => match a with
        | ⟨0, _⟩ => by show (y 0).val = j.val + (x 0).val; omega
        | ⟨1, _⟩ => by show (y 1).val = 0 + (x 1).val; omega
        | ⟨2, _⟩ => by show (y 2).val = 0 + (x 2).val; omega)
  · rw [read_one_not_mem arg15 harg15 cache inb (Cb m c t) y (off3_eq t ht) 0
      (by show (y 0).val < t.val ∨ t.val + 1 ≤ (y 0).val; omega)]
    exact hold j (by omega) hj6 y x h0 h1 h2

end Cert.Kernel.Hand

end
-- ==== Proof.K.Steps.lean ====
/-
  Each control case of the body takes the scratch contents after t points to the scratch contents after t + 1
  points: point 0 stores Y1 and its own band, slot and kept block; points 1 to 5 a band, a slot and a kept block;
  points 6 to 48 a band and a slot; point 49 a band, a slot and the snapshot of the now complete Z. From point 50
  on the scratch is only read, and the output block stored at point t is the second layer's payload of the point's
  adjacency block (streamed, or kept slot t - 94), the snapshot, and slot 99 - t (or t - 94) of the first layer's
  share of the result.
-/
import proofs.«159059_g88923002896512_cont_sun_m_248_23_alg».proof.Proof.K.Inv

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (c : Dev nD)

theorem stepA (t : Fin cfg0.N) (h0 : t.val = 0) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 (grid0.coords t)) (hc2 : cond2 (grid0.coords t)) (hc3 : cond3 (grid0.coords t)) (hc4 : ¬cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) (arg11.view.read (Elt F) (arg11.view.writes (Elt F) (harg11.unread xs0) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) (arg12.view.read (Elt F) (arg12.view.writes (Elt F) (harg12.unread xs1) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) xs2 (arg14.view.read (Elt F) (arg14.view.writes (Elt F) (harg14.unread xs3) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.1)) (arg15.view.read (Elt F) (arg15.view.writes (Elt F) (harg15.unread xs4) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.2.1)) := by
  obtain rfl : t = p0 := Fin.ext h0
  have key : ∀ (L0 : List (View.Piece (Elt F) S10000x128 .bf16)) (L1 : List (View.Piece (Elt F) S10000x128 .f32)) (L3 : List (View.Piece (Elt F) S50x200x128 .bf16)) (L4 : List (View.Piece (Elt F) S6x200x10000 .bf16)),
      L0 = [(⟨Rect.unit (s := S10000x128) ![0, 0] S10000x128.size inb_S10000x128_S10000x128_0_0, k0_pay1 (iblk m c 1 p0) (iblk m c 2 p0)⟩ : View.Piece (Elt F) S10000x128 .bf16)] → L1 = [(⟨Rect.unit (s := S10000x128) (k0_off1 (grid0.coords p0)) S200x128.size (k0_off1_inb (grid0.coords p0) hc2), k0_pay3 (iblk m c 0 p0) (k0_pay1 (iblk m c 1 p0) (iblk m c 2 p0)) (iblk m c 3 p0) (iblk m c 4 p0)⟩ : View.Piece (Elt F) S10000x128 .f32)] → L3 = [(⟨Rect.unit (s := S50x200x128) (k0_off2 (grid0.coords p0)) S1x200x128.size (k0_off2_inb (grid0.coords p0) hc2), k0_pay4 (iblk m c 0 p0) (k0_pay1 (iblk m c 1 p0) (iblk m c 2 p0)) (iblk m c 3 p0) (iblk m c 6 p0) (iblk m c 8 p0)⟩ : View.Piece (Elt F) S50x200x128 .bf16)] → L4 = [(⟨Rect.unit (s := S6x200x10000) (k0_off3 (grid0.coords p0)) S1x200x10000.size (k0_off3_inb (grid0.coords p0) hc3), k0_pay5 (iblk m c 0 p0)⟩ : View.Piece (Elt F) S6x200x10000 .bf16)] →
      Inv m c (p0.val + 1) (arg11.view.read (Elt F) (arg11.view.writes (Elt F) (harg11.unread xs0) L0)) (arg12.view.read (Elt F) (arg12.view.writes (Elt F) (harg12.unread xs1) L1)) xs2 (arg14.view.read (Elt F) (arg14.view.writes (Elt F) (harg14.unread xs3) L3)) (arg15.view.read (Elt F) (arg15.view.writes (Elt F) (harg15.unread xs4) L4)) := by
    intro L0 L1 L3 L4 e0 e1 e3 e4; subst e0 e1 e3 e4
    rw [read_one_whole arg11 z2]
    exact ⟨fun _ => rfl,
      z_step m c p0 (by simp) arg12 harg12 xs1 _ (fun j hj => absurd hj (Nat.not_lt_zero _)),
      fun h => absurd h (by simp),
      acc_step m c p0 (by simp) arg14 harg14 xs3 _ (fun j hj => absurd hj (Nat.not_lt_zero _)),
      cache_step m c p0 (by simp) arg15 harg15 xs4 _ (fun j hj => absurd hj (Nat.not_lt_zero _))⟩
  exact key _ _ _ _ (runA_y1 c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4) (runA_z c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4) (runA_acc c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4) (runA_cache c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4)

theorem stepB (t : Fin cfg0.N) (h1 : 1 ≤ t.val) (h6 : t.val < 6) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : cond2 (grid0.coords t)) (hc3 : cond3 (grid0.coords t)) (hc4 : ¬cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) xs0 (arg12.view.read (Elt F) (arg12.view.writes (Elt F) (harg12.unread xs1) (runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) xs2 (arg14.view.read (Elt F) (arg14.view.writes (Elt F) (harg14.unread xs3) (runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) (arg15.view.read (Elt F) (arg15.view.writes (Elt F) (harg15.unread xs4) (runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.1)) := by
  have e0 : xs0 = Y1 m c := hI.hy h1
  subst e0
  have key : ∀ (L1 : List (View.Piece (Elt F) S10000x128 .f32)) (L3 : List (View.Piece (Elt F) S50x200x128 .bf16)) (L4 : List (View.Piece (Elt F) S6x200x10000 .bf16)),
      L1 = [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)] → L3 = [(⟨Rect.unit (s := S50x200x128) (k0_off2 (grid0.coords t)) S1x200x128.size (k0_off2_inb (grid0.coords t) hc2), k0_pay4 (iblk m c 0 t) (Y1 m c) (iblk m c 3 t) (iblk m c 6 t) (iblk m c 8 t)⟩ : View.Piece (Elt F) S50x200x128 .bf16)] → L4 = [(⟨Rect.unit (s := S6x200x10000) (k0_off3 (grid0.coords t)) S1x200x10000.size (k0_off3_inb (grid0.coords t) hc3), k0_pay5 (iblk m c 0 t)⟩ : View.Piece (Elt F) S6x200x10000 .bf16)] →
      Inv m c (t.val + 1) (Y1 m c) (arg12.view.read (Elt F) (arg12.view.writes (Elt F) (harg12.unread xs1) L1)) xs2 (arg14.view.read (Elt F) (arg14.view.writes (Elt F) (harg14.unread xs3) L3)) (arg15.view.read (Elt F) (arg15.view.writes (Elt F) (harg15.unread xs4) L4)) := by
    intro L1 L3 L4 e1 e3 e4; subst e1 e3 e4
    exact ⟨fun _ => rfl,
      z_step m c t (by omega) arg12 harg12 xs1 _ hI.hz,
      fun h => absurd h (by omega),
      acc_step m c t (by omega) arg14 harg14 xs3 _ hI.ha,
      cache_step m c t h6 arg15 harg15 xs4 _ hI.hc⟩
  exact key _ _ _ (runB_z c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runB_acc c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runB_cache c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4)

theorem stepC (t : Fin cfg0.N) (h6 : 6 ≤ t.val) (h49 : t.val < 49) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : cond2 (grid0.coords t)) (hc3 : ¬cond3 (grid0.coords t)) (hc4 : ¬cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) xs0 (arg12.view.read (Elt F) (arg12.view.writes (Elt F) (harg12.unread xs1) (runC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) xs2 (arg14.view.read (Elt F) (arg14.view.writes (Elt F) (harg14.unread xs3) (runC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) xs4 := by
  have e0 : xs0 = Y1 m c := hI.hy (by omega)
  subst e0
  have key : ∀ (L1 : List (View.Piece (Elt F) S10000x128 .f32)) (L3 : List (View.Piece (Elt F) S50x200x128 .bf16)),
      L1 = [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)] → L3 = [(⟨Rect.unit (s := S50x200x128) (k0_off2 (grid0.coords t)) S1x200x128.size (k0_off2_inb (grid0.coords t) hc2), k0_pay4 (iblk m c 0 t) (Y1 m c) (iblk m c 3 t) (iblk m c 6 t) (iblk m c 8 t)⟩ : View.Piece (Elt F) S50x200x128 .bf16)] →
      Inv m c (t.val + 1) (Y1 m c) (arg12.view.read (Elt F) (arg12.view.writes (Elt F) (harg12.unread xs1) L1)) xs2 (arg14.view.read (Elt F) (arg14.view.writes (Elt F) (harg14.unread xs3) L3)) xs4 := by
    intro L1 L3 e1 e3; subst e1 e3
    exact ⟨fun _ => rfl,
      z_step m c t (by omega) arg12 harg12 xs1 _ hI.hz,
      fun h => absurd h (by omega),
      acc_step m c t (by omega) arg14 harg14 xs3 _ hI.ha,
      fun j _ hj6 => hI.hc j (by omega) hj6⟩
  exact key _ _ (runC_z c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runC_acc c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4)

theorem stepD (t : Fin cfg0.N) (h49 : t.val = 49) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : cond2 (grid0.coords t)) (hc3 : ¬cond3 (grid0.coords t)) (hc4 : cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) xs0 (arg12.view.read (Elt F) (arg12.view.writes (Elt F) (harg12.unread xs1) (runD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) (arg13.view.read (Elt F) (arg13.view.writes (Elt F) (harg13.unread xs2) (runD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) (arg14.view.read (Elt F) (arg14.view.writes (Elt F) (harg14.unread xs3) (runD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.1)) xs4 := by
  have e0 : xs0 = Y1 m c := hI.hy (by omega)
  subst e0
  have key : ∀ (L1 : List (View.Piece (Elt F) S10000x128 .f32)) (L2 : List (View.Piece (Elt F) S10000x128 .bf16)) (L3 : List (View.Piece (Elt F) S50x200x128 .bf16)),
      L1 = [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)] → L2 = [(⟨Rect.unit (s := S10000x128) ![0, 0] S10000x128.size inb_S10000x128_S10000x128_0_0, k0_pay6 (arg12.view.read (Elt F) (arg12.view.writes (Elt F) (harg12.unread xs1) [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)]))⟩ : View.Piece (Elt F) S10000x128 .bf16)] → L3 = [(⟨Rect.unit (s := S50x200x128) (k0_off2 (grid0.coords t)) S1x200x128.size (k0_off2_inb (grid0.coords t) hc2), k0_pay4 (iblk m c 0 t) (Y1 m c) (iblk m c 3 t) (iblk m c 6 t) (iblk m c 8 t)⟩ : View.Piece (Elt F) S50x200x128 .bf16)] →
      Inv m c (t.val + 1) (Y1 m c) (arg12.view.read (Elt F) (arg12.view.writes (Elt F) (harg12.unread xs1) L1)) (arg13.view.read (Elt F) (arg13.view.writes (Elt F) (harg13.unread xs2) L2)) (arg14.view.read (Elt F) (arg14.view.writes (Elt F) (harg14.unread xs3) L3)) xs4 := by
    intro L1 L2 L3 e1 e2 e3; subst e1 e2 e3
    rw [read_one_whole arg13 z2]
    exact ⟨fun _ => rfl,
      z_step m c t (by omega) arg12 harg12 xs1 _ hI.hz,
      fun _ => rfl,
      acc_step m c t (by omega) arg14 harg14 xs3 _ hI.ha,
      fun j _ hj6 => hI.hc j (by omega) hj6⟩
  exact key _ _ _ (runD_z c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runD_zbf c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runD_acc c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4)

theorem outE (t : Fin cfg0.N) (h50 : 50 ≤ t.val) (h94 : t.val < 94) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : ¬cond2 (grid0.coords t)) (hc3 : ¬cond3 (grid0.coords t)) (hc4 : ¬cond4 (grid0.coords t)) (hc5 : cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) (f : arg10.view.ty.Contents (Elt F)) :
    arg10.view.read (Elt F) (arg10.view.writes (Elt F) f (runE c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1) = outAt m c t := by
  rw [runE_out c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4, read_one_whole arg10 z2]
  unfold outAt; rw [dif_neg (by omega)]
  have e2 := hI.zbf_eq m c h50
  have e3 : View.readAt (Elt F) arg14.view (Rect.unit (s := S50x200x128) (k0_off4 (grid0.coords t)) S1x200x128.size (k0_off4_inb (grid0.coords t) hc5)).toLoadRect (harg14.unread xs3)
      = Ab m c (pt (99 - t.val) (by omega)) := by
    funext x
    rw [load_apply arg14 harg14 xs3]
    have hx0 : (x 0).val < 1 := (x 0).isLt
    have ho := off4_eq t h50
    have q0 : k0_off4 (grid0.coords t) 0 = 99 - t.val := congrFun ho 0
    have q1 : k0_off4 (grid0.coords t) 1 = 0 := congrFun ho 1
    have q2 : k0_off4 (grid0.coords t) 2 = 0 := congrFun ho 2
    exact hI.ha (pt (99 - t.val) (by omega)) (by simp only [pt_val]; omega) (by simp only [pt_val]; omega) _ x
      (by show k0_off4 (grid0.coords t) 0 + 1 * (x 0).val = 99 - t.val; omega)
      (by show k0_off4 (grid0.coords t) 1 + 1 * (x 1).val = (x 1).val; omega)
      (by show k0_off4 (grid0.coords t) 2 + 1 * (x 2).val = (x 2).val; omega)
  rw [e2, e3]

theorem outF (t : Fin cfg0.N) (h94 : 94 ≤ t.val) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : ¬cond2 (grid0.coords t)) (hc3 : ¬cond3 (grid0.coords t)) (hc4 : ¬cond4 (grid0.coords t)) (hc5 : ¬cond5 (grid0.coords t)) (hc6 : cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) (f : arg10.view.ty.Contents (Elt F)) :
    arg10.view.read (Elt F) (arg10.view.writes (Elt F) f (runF c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1) = outAt m c t := by
  rw [runF_out c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4, read_one_whole arg10 z2]
  unfold outAt; rw [dif_pos h94]
  have ht := lt100 t
  have e2 := hI.zbf_eq m c (by omega : 50 ≤ t.val)
  have e3 : View.readAt (Elt F) arg14.view (Rect.unit (s := S50x200x128) (k0_off6 (grid0.coords t)) S1x200x128.size (k0_off6_inb (grid0.coords t) hc6)).toLoadRect (harg14.unread xs3)
      = Ab m c (pt (t.val - 94) (by omega)) := by
    funext x
    rw [load_apply arg14 harg14 xs3]
    have hx0 : (x 0).val < 1 := (x 0).isLt
    have ho := off6_eq t h94
    have q0 : k0_off6 (grid0.coords t) 0 = t.val - 94 := congrFun ho 0
    have q1 : k0_off6 (grid0.coords t) 1 = 0 := congrFun ho 1
    have q2 : k0_off6 (grid0.coords t) 2 = 0 := congrFun ho 2
    exact hI.ha (pt (t.val - 94) (by omega)) (by simp only [pt_val]; omega) (by simp only [pt_val]; omega) _ x
      (by show k0_off6 (grid0.coords t) 0 + 1 * (x 0).val = t.val - 94; omega)
      (by show k0_off6 (grid0.coords t) 1 + 1 * (x 1).val = (x 1).val; omega)
      (by show k0_off6 (grid0.coords t) 2 + 1 * (x 2).val = (x 2).val; omega)
  have e4 : View.readAt (Elt F) arg15.view (Rect.unit (s := S6x200x10000) (k0_off5 (grid0.coords t)) S1x200x10000.size (k0_off5_inb (grid0.coords t) hc6)).toLoadRect (harg15.unread xs4)
      = Cb m c (pt (t.val - 94) (by omega)) := by
    funext x
    rw [load_apply arg15 harg15 xs4]
    have hx0 : (x 0).val < 1 := (x 0).isLt
    have ho := off5_eq t h94
    have q0 : k0_off5 (grid0.coords t) 0 = t.val - 94 := congrFun ho 0
    have q1 : k0_off5 (grid0.coords t) 1 = 0 := congrFun ho 1
    have q2 : k0_off5 (grid0.coords t) 2 = 0 := congrFun ho 2
    exact hI.hc (pt (t.val - 94) (by omega)) (by simp only [pt_val]; omega) (by simp only [pt_val]; omega) _ x
      (by show k0_off5 (grid0.coords t) 0 + 1 * (x 0).val = t.val - 94; omega)
      (by show k0_off5 (grid0.coords t) 1 + 1 * (x 1).val = (x 1).val; omega)
      (by show k0_off5 (grid0.coords t) 2 + 1 * (x 2).val = (x 2).val; omega)
  rw [e2, e3, e4]

end Cert.Kernel.Hand

end
-- ==== Proof.K.Dat.lean ====
/-
  The proof data of the one pipeline: the arrays as the region finds them; after the body at point t each input's
  staging buffer at its block and, at the points of the second layer, the output's at the block the point stores;
  the invariant before point n the five scratch buffers at some contents that satisfy the scratch invariant after
  n points, and the generator register at some state. The body at every point, by cases on the point: the case's
  run applies, the invariant hands it the scratch contents and takes back the contents the case leaves. During the
  first layer the output window is idle and not written back, so its buffer is handed back as found.
-/
import proofs.«159059_g88923002896512_cont_sun_m_248_23_alg».proof.Proof.K.Steps

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the region invariant before point n -/
def PhiS (c : Dev nD) (n : ℕ) : sProp 𝕄 :=
  iprop(iprop(∃ xs0 : Vec F S10000x128 .bf16, ∃ xs1 : Vec F S10000x128 .f32, ∃ xs2 : Vec F S10000x128 .bf16,
      ∃ xs3 : Vec F S50x200x128 .bf16, ∃ xs4 : Vec F S6x200x10000 .bf16,
      ⌜Inv m c n xs0 xs1 xs2 xs3 xs4⌝ ∗ owns (c : Thread nD τ) sc0 fullShare xs0 ∗ owns (c : Thread nD τ) sc1 fullShare xs1
        ∗ owns (c : Thread nD τ) sc2 fullShare xs2 ∗ owns (c : Thread nD τ) sc3 fullShare xs3 ∗ owns (c : Thread nD τ) sc4 fullShare xs4)
    ∗ (∃ r, prngReg c r))

/-- the proof data -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- what the body is called with at point t -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- the body at any point -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from by
      unfold Dat.leavesExact; rw [liveAt_in 0 (by decide) t], after_0]
  rw [show (dats m 0 c).leavesExact 1 t = owns (c : Thread nD τ) (ms1 t) fullShare ((dats m 0 c).after 1 t) from by
      unfold Dat.leavesExact; rw [liveAt_in 1 (by decide) t], after_1]
  rw [show (dats m 0 c).leavesExact 2 t = owns (c : Thread nD τ) (ms2 t) fullShare ((dats m 0 c).after 2 t) from by
      unfold Dat.leavesExact; rw [liveAt_in 2 (by decide) t], after_2]
  rw [show (dats m 0 c).leavesExact 3 t = owns (c : Thread nD τ) (ms3 t) fullShare ((dats m 0 c).after 3 t) from by
      unfold Dat.leavesExact; rw [liveAt_in 3 (by decide) t], after_3]
  rw [show (dats m 0 c).leavesExact 4 t = owns (c : Thread nD τ) (ms4 t) fullShare ((dats m 0 c).after 4 t) from by
      unfold Dat.leavesExact; rw [liveAt_in 4 (by decide) t], after_4]
  rw [show (dats m 0 c).leavesExact 5 t = owns (c : Thread nD τ) (ms5 t) fullShare ((dats m 0 c).after 5 t) from by
      unfold Dat.leavesExact; rw [liveAt_in 5 (by decide) t], after_5]
  rw [show (dats m 0 c).leavesExact 6 t = owns (c : Thread nD τ) (ms6 t) fullShare ((dats m 0 c).after 6 t) from by
      unfold Dat.leavesExact; rw [liveAt_in 6 (by decide) t], after_6]
  rw [show (dats m 0 c).leavesExact 7 t = owns (c : Thread nD τ) (ms7 t) fullShare ((dats m 0 c).after 7 t) from by
      unfold Dat.leavesExact; rw [liveAt_in 7 (by decide) t], after_7]
  rw [show (dats m 0 c).leavesExact 8 t = owns (c : Thread nD τ) (ms8 t) fullShare ((dats m 0 c).after 8 t) from by
      unfold Dat.leavesExact; rw [liveAt_in 8 (by decide) t], after_8]
  have hN := lt100 t
  unfold PhiS
  by_cases h0 : t.val = 0
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) ((hcond1 t).mpr (by omega)) ((hcond2 t).mpr (by omega)) ((hcond3 t).mpr (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepA m c t (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) ((hcond1 t).mpr (by omega)) ((hcond2 t).mpr (by omega)) ((hcond3 t).mpr (by omega)) (fun h => absurd ((hcond4 t).mp h) (by omega)) (fun h => absurd ((hcond5 t).mp h) (by omega)) (fun h => absurd ((hcond6 t).mp h) (by omega)) xs0 xs1 xs2 xs3 xs4 hI
        isplitl [HS0]
        · unfold owns; iexists _; isplitr
          swap; · iexact HS0
          ipureintro; rfl
        isplitl [HS1]
        · unfold owns; iexists _; isplitr
          swap; · iexact HS1
          ipureintro; rfl
        isplitl [HS2]
        · iexact HS2
        isplitl [HS3]
        · unfold owns; iexists _; isplitr
          swap; · iexact HS3
          ipureintro; rfl
        unfold owns; iexists _; isplitr
        swap; · iexact HS4
        ipureintro; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h6 : t.val < 6
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) ((hcond3 t).mpr (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepB m c t (by omega) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) ((hcond3 t).mpr (by omega)) (fun h => absurd ((hcond4 t).mp h) (by omega)) (fun h => absurd ((hcond5 t).mp h) (by omega)) (fun h => absurd ((hcond6 t).mp h) (by omega)) xs0 xs1 xs2 xs3 xs4 hI
        isplitl [HS0]
        · iexact HS0
        isplitl [HS1]
        · unfold owns; iexists _; isplitr
          swap; · iexact HS1
          ipureintro; rfl
        isplitl [HS2]
        · iexact HS2
        isplitl [HS3]
        · unfold owns; iexists _; isplitr
          swap; · iexact HS3
          ipureintro; rfl
        unfold owns; iexists _; isplitr
        swap; · iexact HS4
        ipureintro; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h49 : t.val < 49
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepC m c t (by omega) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) (fun h => absurd ((hcond4 t).mp h) (by omega)) (fun h => absurd ((hcond5 t).mp h) (by omega)) (fun h => absurd ((hcond6 t).mp h) (by omega)) xs0 xs1 xs2 xs3 xs4 hI
        isplitl [HS0]
        · iexact HS0
        isplitl [HS1]
        · unfold owns; iexists _; isplitr
          swap; · iexact HS1
          ipureintro; rfl
        isplitl [HS2]
        · iexact HS2
        isplitl [HS3]
        · unfold owns; iexists _; isplitr
          swap; · iexact HS3
          ipureintro; rfl
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h49e : t.val = 49
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) ((hcond4 t).mpr (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepD m c t (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) ((hcond4 t).mpr (by omega)) (fun h => absurd ((hcond5 t).mp h) (by omega)) (fun h => absurd ((hcond6 t).mp h) (by omega)) xs0 xs1 xs2 xs3 xs4 hI
        isplitl [HS0]
        · iexact HS0
        isplitl [HS1]
        · unfold owns; iexists _; isplitr
          swap; · iexact HS1
          ipureintro; rfl
        isplitl [HS2]
        · unfold owns; iexists _; isplitr
          swap; · iexact HS2
          ipureintro; rfl
        isplitl [HS3]
        · unfold owns; iexists _; isplitr
          swap; · iexact HS3
          ipureintro; rfl
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h94 : t.val < 94
  · rw [show (dats m 0 c).leavesExact 9 t = owns (c : Thread nD τ) (ms9 t) fullShare ((dats m 0 c).after 9 t) from by
          unfold Dat.leavesExact; rw [liveAt9 t (by omega)], after_9]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) ((hcond5 t).mpr (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, ⟨%f9, H9⟩, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact hI.succ_of_ge m c (by omega)
        isplitl [HS0]
        · iexact HS0
        isplitl [HS1]
        · iexact HS1
        isplitl [HS2]
        · iexact HS2
        isplitl [HS3]
        · iexact HS3
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact outE m c t (by omega) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) ((hcond5 t).mpr (by omega)) (fun h => absurd ((hcond6 t).mp h) (by omega)) xs0 xs1 xs2 xs3 xs4 hI f9
  · rw [show (dats m 0 c).leavesExact 9 t = owns (c : Thread nD τ) (ms9 t) fullShare ((dats m 0 c).after 9 t) from by
          unfold Dat.leavesExact; rw [liveAt9 t (by omega)], after_9]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) (fun h => absurd ((hcond5 t).mp h) (by omega)) ((hcond6 t).mpr (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, ⟨%f9, H9⟩, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact hI.succ_of_ge m c (by omega)
        isplitl [HS0]
        · iexact HS0
        isplitl [HS1]
        · iexact HS1
        isplitl [HS2]
        · iexact HS2
        isplitl [HS3]
        · iexact HS3
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact outF m c t (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) (fun h => absurd ((hcond5 t).mp h) (by omega)) ((hcond6 t).mpr (by omega)) xs0 xs1 xs2 xs3 xs4 hI f9

/-- the library's body obligation, at every point -/
theorem body_obligation (c : Dev nD) : BodyObligation (dats (F := F) m 0 c) (defs₀ (F := F)) Variants.none () Set.univ := fun t => by
  rw [bigSep_W0, bigSep_W0]
  exact sound_body m c t

/-- what the launch hands the region is the invariant before the first point: any scratch contents satisfy the invariant after no point -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d0, HS0⟩, ⟨%d1, HS1⟩, ⟨%d2, HS2⟩, ⟨%d3, HS3⟩, ⟨%d4, HS4⟩⟩, Hg⟩
  isplitr [Hg]
  · iexists d0; iexists d1; iexists d2; iexists d3; iexists d4
    isplitr [HS0 HS1 HS2 HS3 HS4]
    · ipureintro; exact Inv.zero m c d0 d1 d2 d3 d4
    isplitl [HS0]; · iexact HS0
    isplitl [HS1]; · iexact HS1
    isplitl [HS2]; · iexact HS2
    isplitl [HS3]; · iexact HS3
    iexact HS4
  · iexact Hg

/-- after the last point the invariant gives the class invariant back: the scratch contents are forgotten -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%xs0, %xs1, %xs2, %xs3, %xs4, %hI, HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

set_option backward.isDefEq.respectTransparency.types false in
/-- every weakly fair execution of @main terminates, and every final state has every array of the pipeline at what the
    library computes from the proof data and every other unscoped buffer as the region found it -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- the frame: the program runs to the end, nothing faults, and its argument arrays end unchanged -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KI.Base.lean ====
/-
  The six branch conditions of the fused two-layer graph-convolution body as propositions over the grid
  coordinate, each decided over the 100 grid points: the body computes Y1 = feats·W1 at point 0, runs the first
  layer on row block i at points i < 50 (keeping the first six adjacency blocks), snapshots Z at point 49, and
  runs the second layer on row block 99 - i at points 50 ≤ i < 94 and on the kept block i - 94 at points i ≥ 94.
  Also: the point-dependent offsets of the scratch slices in closed form, the output window's schedule
  (idle and not written back during the first layer), and the scratch buffers as whole memrefs.
-/
import proofs.«159059_g88923002896512_cont_sun_m_248_23_alg».proof.Proof.Gen.KernelIdeal.Frame
import proofs.«159059_g88923002896512_cont_sun_m_248_23_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- point 0: Y1 is computed -/
abbrev cond1 (i : grid0.Coords) : Prop := (Scalar.cmpi .ne (Scalar.extui (Scalar.cmpi .eq (BitVec.ofNat 32 (i 0).val) 0#32)) 0#32) = 1#1
/-- points below 50: the first layer -/
abbrev cond2 (i : grid0.Coords) : Prop := k0_cond2 i = 1#1
/-- points below 6: the adjacency block is kept -/
abbrev cond3 (i : grid0.Coords) : Prop := k0_cond3 i = 1#1
/-- point 49: Z is snapshotted -/
abbrev cond4 (i : grid0.Coords) : Prop := (Scalar.cmpi .ne (Scalar.extui (Scalar.cmpi .eq (BitVec.ofNat 32 (i 0).val) 49#32)) 0#32) = 1#1
/-- points 50 to 93: the second layer on a streamed block -/
abbrev cond5 (i : grid0.Coords) : Prop := k0_cond5 i = 1#1
/-- points from 94: the second layer on a kept block -/
abbrev cond6 (i : grid0.Coords) : Prop := k0_cond6 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 50 :=
  (by decide +kernel : ∀ t : Fin grid0.N, cond2 (grid0.coords t) ↔ t.val < 50)
theorem hcond3 : ∀ t : Fin cfg0.N, cond3 (grid0.coords t) ↔ t.val < 6 :=
  (by decide +kernel : ∀ t : Fin grid0.N, cond3 (grid0.coords t) ↔ t.val < 6)
theorem hcond4 : ∀ t : Fin cfg0.N, cond4 (grid0.coords t) ↔ t.val = 49 :=
  (by decide +kernel : ∀ t : Fin grid0.N, cond4 (grid0.coords t) ↔ t.val = 49)
theorem hcond5 : ∀ t : Fin cfg0.N, cond5 (grid0.coords t) ↔ (50 ≤ t.val ∧ t.val < 94) :=
  (by decide +kernel : ∀ t : Fin grid0.N, cond5 (grid0.coords t) ↔ (50 ≤ t.val ∧ t.val < 94))
theorem hcond6 : ∀ t : Fin cfg0.N, cond6 (grid0.coords t) ↔ 94 ≤ t.val :=
  (by decide +kernel : ∀ t : Fin grid0.N, cond6 (grid0.coords t) ↔ 94 ≤ t.val)

/-! ## The scratch slices' offsets in closed form -/

theorem off1_eq : ∀ t : Fin cfg0.N, t.val < 50 → k0_off1 (grid0.coords t) = ![200 * t.val, 0] :=
  (by decide +kernel : ∀ t : Fin grid0.N, t.val < 50 → k0_off1 (grid0.coords t) = ![200 * t.val, 0])
theorem off2_eq : ∀ t : Fin cfg0.N, t.val < 50 → k0_off2 (grid0.coords t) = ![t.val, 0, 0] :=
  (by decide +kernel : ∀ t : Fin grid0.N, t.val < 50 → k0_off2 (grid0.coords t) = ![t.val, 0, 0])
theorem off3_eq : ∀ t : Fin cfg0.N, t.val < 6 → k0_off3 (grid0.coords t) = ![t.val, 0, 0] :=
  (by decide +kernel : ∀ t : Fin grid0.N, t.val < 6 → k0_off3 (grid0.coords t) = ![t.val, 0, 0])
theorem off4_eq : ∀ t : Fin cfg0.N, 50 ≤ t.val → k0_off4 (grid0.coords t) = ![99 - t.val, 0, 0] :=
  (by decide +kernel : ∀ t : Fin grid0.N, 50 ≤ t.val → k0_off4 (grid0.coords t) = ![99 - t.val, 0, 0])
theorem off5_eq : ∀ t : Fin cfg0.N, 94 ≤ t.val → k0_off5 (grid0.coords t) = ![t.val - 94, 0, 0] :=
  (by decide +kernel : ∀ t : Fin grid0.N, 94 ≤ t.val → k0_off5 (grid0.coords t) = ![t.val - 94, 0, 0])
theorem off6_eq : ∀ t : Fin cfg0.N, 94 ≤ t.val → k0_off6 (grid0.coords t) = ![t.val - 94, 0, 0] :=
  (by decide +kernel : ∀ t : Fin grid0.N, 94 ≤ t.val → k0_off6 (grid0.coords t) = ![t.val - 94, 0, 0])

/-! ## Where the windows are idle -/

theorem liveAt_in : ∀ (w : Fin cfg0.W), w.val < 9 → ∀ t : Fin cfg0.N, cfg0.idle w (grid0.coords t) = false := by decide +kernel
theorem idleAt9 : ∀ t : Fin cfg0.N, t.val < 50 → cfg0.idle 9 (grid0.coords t) = true := by decide +kernel
theorem noFlush9 : ∀ t : Fin cfg0.N, t.val < 50 → (cfg0.win 9).flush t = false := by decide +kernel
theorem liveAt9 : ∀ t : Fin cfg0.N, 50 ≤ t.val → cfg0.idle 9 (grid0.coords t) = false := by decide +kernel
theorem flush9 : ∀ t : Fin cfg0.N, 50 ≤ t.val → (cfg0.win 9).flush t = true := by decide +kernel

/-! ## The memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S200x128 .f32 := win0_9.stage (cfg0.slots t 9)
abbrev hs9 (t : Fin cfg0.N) : (ms9 t).IsWhole := hstage0_9 ((cfg0.slots t 9).cast nbuf0_9)
/-- The five scratch operands: Y1, Z, the snapshot of Z, the first layer's share of the result, the kept adjacency blocks. -/
abbrev sc0 : Memref sig .tc .vmem S10000x128 .bf16 := Memref.whole cc0_scratch0
abbrev sc1 : Memref sig .tc .vmem S10000x128 .f32 := Memref.whole cc0_scratch1
abbrev sc2 : Memref sig .tc .vmem S10000x128 .bf16 := Memref.whole cc0_scratch2
abbrev sc3 : Memref sig .tc .vmem S50x200x128 .bf16 := Memref.whole cc0_scratch3
abbrev sc4 : Memref sig .tc .vmem S6x200x10000 .bf16 := Memref.whole cc0_scratch4

/-- The class invariant with the five scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Hand

end
-- ==== Proof.KI.RunA.lean ====
/-
  The body's run in one control case (point 0: Y1, the first layer on block 0, the block kept): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- point 0: Y1, the first layer on block 0, the block kept -/
noncomputable def runA (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS0 : List (View.Piece (Elt F) S10000x128 .bf16)), Σ' (LS1 : List (View.Piece (Elt F) S10000x128 .f32)), Σ' (LS3 : List (View.Piece (Elt F) S50x200x128 .bf16)), { LS4 : List (View.Piece (Elt F) S6x200x10000 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (arg11.view.loc (c : Thread nD τ) ↦[arg11.view.set]{fullShare} arg11.view.writes (Elt F) (harg11.unread xs0) LS0) ∗ (arg12.view.loc (c : Thread nD τ) ↦[arg12.view.set]{fullShare} arg12.view.writes (Elt F) (harg12.unread xs1) LS1) ∗ owns (c : Thread nD τ) arg13 fullShare xs2 ∗ (arg14.view.loc (c : Thread nD τ) ↦[arg14.view.set]{fullShare} arg14.view.writes (Elt F) (harg14.unread xs3) LS3) ∗ (arg15.view.loc (c : Thread nD τ) ↦[arg15.view.set]{fullShare} arg15.view.writes (Elt F) (harg15.unread xs4) LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    isplitl [H12]
    · iexact H12
    isplitl [H13]
    · iexists _; isplitr; · ipureintro; exact harg13.read_unread _
      iexact H13
    isplitl [H14]
    · iexact H14
    iexact H15

end Cert.KernelIdeal.Hand

end
-- ==== Proof.KI.RunB.lean ====
/-
  The body's run in one control case (points 1 to 5: the first layer on block i, the block kept): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- points 1 to 5: the first layer on block i, the block kept -/
noncomputable def runB (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS1 : List (View.Piece (Elt F) S10000x128 .f32)), Σ' (LS3 : List (View.Piece (Elt F) S50x200x128 .bf16)), { LS4 : List (View.Piece (Elt F) S6x200x10000 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1) ∗ owns (c : Thread nD τ) arg13 fullShare xs2 ∗ (arg14.view.loc (c : Thread nD τ) ↦[arg14.view.set]{fullShare} arg14.view.writes (Elt F) (harg14.unread xs3) LS3) ∗ (arg15.view.loc (c : Thread nD τ) ↦[arg15.view.set]{fullShare} arg15.view.writes (Elt F) (harg15.unread xs4) LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexists _; isplitr; · ipureintro; exact harg13.read_unread _
      iexact H13
    isplitl [H14]
    · iexact H14
    iexact H15

end Cert.KernelIdeal.Hand

end
-- ==== Proof.KI.RunC.lean ====
/-
  The body's run in one control case (points 6 to 48: the first layer on block i): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- points 6 to 48: the first layer on block i -/
noncomputable def runC (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : ¬cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS1 : List (View.Piece (Elt F) S10000x128 .f32)), { LS3 : List (View.Piece (Elt F) S50x200x128 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1) ∗ owns (c : Thread nD τ) arg13 fullShare xs2 ∗ (arg14.view.loc (c : Thread nD τ) ↦[arg14.view.set]{fullShare} arg14.view.writes (Elt F) (harg14.unread xs3) LS3) ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexists _; isplitr; · ipureintro; exact harg13.read_unread _
      iexact H13
    isplitl [H14]
    · iexact H14
    iexists _; isplitr; · ipureintro; exact harg15.read_unread _
    iexact H15

end Cert.KernelIdeal.Hand

end
-- ==== Proof.KI.RunD.lean ====
/-
  The body's run in one control case (point 49: the first layer on block 49, then the snapshot of Z): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- point 49: the first layer on block 49, then the snapshot of Z -/
noncomputable def runD (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    Σ' (LS1 : List (View.Piece (Elt F) S10000x128 .f32)), Σ' (LS2 : List (View.Piece (Elt F) S10000x128 .bf16)), { LS3 : List (View.Piece (Elt F) S50x200x128 .bf16) //
      ∀ (xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1) ∗ (arg13.view.loc (c : Thread nD τ) ↦[arg13.view.set]{fullShare} arg13.view.writes (Elt F) (harg13.unread xs2) LS2) ∗ (arg14.view.loc (c : Thread nD τ) ↦[arg14.view.set]{fullShare} arg14.view.writes (Elt F) (harg14.unread xs3) LS3) ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi9 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    isplitl [H13]
    · iexact H13
    isplitl [H14]
    · iexact H14
    iexists _; isplitr; · ipureintro; exact harg15.read_unread _
    iexact H15

end Cert.KernelIdeal.Hand

end
-- ==== Proof.KI.RunE.lean ====
/-
  The body's run in one control case (points 50 to 93: the second layer on the streamed block 99 - i): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.KI.RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- points 50 to 93: the second layer on the streamed block 99 - i -/
noncomputable def runE (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : cond5 i) (hc6 : ¬cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    { L9 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [HO]
    · iexists _; iexact HO
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.KernelIdeal.Hand

end
-- ==== Proof.KI.RunF.lean ====
/-
  The body's run in one control case (points from 94: the second layer on the kept block i - 94): on whole memrefs holding the input blocks and the scratch
  contents, every weakly fair run of the body reaches its end holding the inputs as they were, the buffers the
  case does not store into as they were, and each buffer it stores into with the case's stores written over
  what it held. The list of stores is found by the run.
-/
import proofs.«159059_g88923002896512_cont_sun_m_248_23_alg».proof.Proof.KI.RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- points from 94: the second layer on the kept block i - 94 -/
noncomputable def runF (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : ¬cond5 i) (hc6 : cond6 i)
    (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    { L9 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15
    sl_exec (disch := first | exact hc1 | exact hc2 | exact hc3 | exact hc4 | exact hc5 | exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [HO]
    · iexists _; iexact HO
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexists _; isplitr; · ipureintro; exact harg15.read_unread _
    iexact H15

end Cert.KernelIdeal.Hand

end
-- ==== Proof.KI.Writes.lean ====
/-
  Reading a buffer after ONE store over what it held: an index under the stored rectangle reads the payload at its
  position inside the rectangle, any other index reads the old contents. Stated for the three rectangle forms the
  body uses: a band of whole rows of a rank-2 buffer, one leading index of a rank-3 buffer, and the whole buffer.
-/
import proofs.«159059_g88923002896512_cont_sun_m_248_23_alg».proof.Proof.KI.Base
import Idealize.ShloMosaic.Lib.WritesUnit
import Idealize.ShloMosaic.Lib.Pipeline.Value
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section OnePiece

variable {s : Shape} {e : EltTy} (arg : Memref sig .tc .vmem s e) (h : arg.IsWhole) (xs : Vec F s e)

/-- nothing stored: the old contents -/
theorem read_nil : arg.view.read (Elt F) (arg.view.writes (Elt F) (h.unread xs) []) = xs := by
  rw [View.writes_nil]; exact h.read_unread xs

/-- an index at position x of the stored rectangle reads the payload at x -/
theorem read_one_mem {off off' size : Fin s.rank → ℕ} (inb : ∀ a, off a + size a ≤ s.size a)
    (w : (Rect.unit off size inb).shape.Idx → Elt F e) (f : arg.view.ty.Contents (Elt F)) (y : s.Idx)
    (x : (Rect.unit off size inb).shape.Idx) (heq : off = off') (hx : ∀ a, (y a).val = off' a + (x a).val) :
    arg.view.read (Elt F) (arg.view.writes (Elt F) f [(⟨Rect.unit off size inb, w⟩ : View.Piece (Elt F) s e)]) y = w x :=
  View.read_writes_cons_unit_of_mem arg.view f inb w [] y x heq hx

/-- an index that misses the stored rectangle on axis a reads the old contents -/
theorem read_one_not_mem {off off' size : Fin s.rank → ℕ} (inb : ∀ a, off a + size a ≤ s.size a)
    (w : (Rect.unit off size inb).shape.Idx → Elt F e) (y : s.Idx) (heq : off = off')
    (a : Fin s.rank) (ha : (y a).val < off' a ∨ off' a + size a ≤ (y a).val) :
    arg.view.read (Elt F) (arg.view.writes (Elt F) (h.unread xs) [(⟨Rect.unit off size inb, w⟩ : View.Piece (Elt F) s e)]) y = xs y := by
  rw [View.read_writes_cons_unit_of_not_mem arg.view (h.unread xs) inb w [] y heq a ha, View.writes_nil]
  exact congrFun (h.read_unread xs) y

/-- a store through the whole buffer leaves its payload, whatever the buffer held -/
theorem read_one_whole {off : Fin s.rank → ℕ} (hz : off = fun _ => 0) (inb : ∀ a, off a + s.size a ≤ s.size a)
    (w : (Rect.unit off s.size inb).shape.Idx → Elt F e) (f : arg.view.ty.Contents (Elt F)) :
    arg.view.read (Elt F) (arg.view.writes (Elt F) f [(⟨Rect.unit off s.size inb, w⟩ : View.Piece (Elt F) s e)]) = w := by
  funext y
  exact View.read_writes_cons_unit_of_mem arg.view f inb w [] y y hz (fun a => by simp)

/-- a load through the whole buffer reads the contents -/
theorem load_whole {off : Fin s.rank → ℕ} (hz : off = fun _ => 0) (inb : ∀ a, off a + s.size a ≤ s.size a) :
    View.readAt (Elt F) arg.view (Rect.unit off s.size inb).toLoadRect (h.unread xs) = xs := by
  rw [View.readAt_eq_ld, h.read_unread, View.ld_unit_zero hz]

/-- a load of a rectangle at an index reads the contents at the rectangle's offsets plus the index -/
theorem load_apply {off size : Fin s.rank → ℕ} (inb : ∀ a, off a + size a ≤ s.size a)
    (x : (Rect.unit off size inb).shape.Idx) :
    View.readAt (Elt F) arg.view (Rect.unit off size inb).toLoadRect (h.unread xs) x = xs ((Rect.unit off size inb).emb x) :=
  h.readAt_unread xs _ x

end OnePiece

theorem z2 : (![0, 0] : Fin 2 → ℕ) = fun _ => 0 := by funext a; fin_cases a <;> rfl
theorem z3 : (![0, 0, 0] : Fin 3 → ℕ) = fun _ => 0 := by funext a; fin_cases a <;> rfl

end Cert.KernelIdeal.Hand

end
-- ==== Proof.KI.Pieces.lean ====
/-
  The stores each control case of the body makes, with every whole-buffer load replaced by the contents it reads:
  each stored rectangle with its payload as the skeleton's pure term of the input blocks and the scratch contents.
  At point 0 the first layer reads back the Y1 the same point stored; at point 49 the snapshot reads Z with the
  point's own band of rows already written.
-/
import proofs.«159059_g88923002896512_cont_sun_m_248_23_alg».proof.Proof.KI.RunF
import proofs.«159059_g88923002896512_cont_sun_m_248_23_alg».proof.Proof.KI.Writes

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem runA_y1 (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) ![0, 0] S10000x128.size inb_S10000x128_S10000x128_0_0, k0_pay1 x1 x2⟩ : View.Piece (Elt F) S10000x128 .bf16)] := by
  unfold runA; dsimp only; unfold runA.sl.H11_1
  rw [load_whole arg2 harg2 x1 z2, load_whole arg3 harg3 x2 z2]

theorem runA_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S10000x128) (k0_off1 i) S200x128.size (k0_off1_inb i hc2), k0_pay3 x0 (k0_pay1 x1 x2) x3 x4⟩ : View.Piece (Elt F) S10000x128 .f32)] := by
  unfold runA; dsimp only; unfold runA.sl.v22 runA.sl.H11_1
  rw [load_whole arg2 harg2 x1 z2, load_whole arg3 harg3 x2 z2, View.readCov_unit_zero arg11.view z2, load_whole arg1 harg1 x0 z2, load_whole arg4 harg4 x3 z2, load_whole arg5 harg5 x4 z2]

theorem runA_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.1 = [(⟨Rect.unit (s := S50x200x128) (k0_off2 i) S1x200x128.size (k0_off2_inb i hc2), k0_pay4 x0 (k0_pay1 x1 x2) x3 x6 x8⟩ : View.Piece (Elt F) S50x200x128 .bf16)] := by
  unfold runA; dsimp only; unfold runA.sl.v22 runA.sl.H11_1
  rw [load_whole arg2 harg2 x1 z2, load_whole arg3 harg3 x2 z2, View.readCov_unit_zero arg11.view z2, load_whole arg1 harg1 x0 z2, load_whole arg4 harg4 x3 z2, load_whole arg7 harg7 x6 z2, load_whole arg9 harg9 x8 z2]

theorem runA_cache (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.2.1 = [(⟨Rect.unit (s := S6x200x10000) (k0_off3 i) S1x200x10000.size (k0_off3_inb i hc3), k0_pay5 x0⟩ : View.Piece (Elt F) S6x200x10000 .bf16)] := by
  unfold runA; dsimp only
  rw [load_whole arg1 harg1 x0 z2]

theorem runB_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) (k0_off1 i) S200x128.size (k0_off1_inb i hc2), k0_pay3 x0 xs0 x3 x4⟩ : View.Piece (Elt F) S10000x128 .f32)] := by
  unfold runB; dsimp only
  rw [load_whole arg1 harg1 x0 z2, load_whole arg11 harg11 xs0 z2, load_whole arg4 harg4 x3 z2, load_whole arg5 harg5 x4 z2]

theorem runB_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S50x200x128) (k0_off2 i) S1x200x128.size (k0_off2_inb i hc2), k0_pay4 x0 xs0 x3 x6 x8⟩ : View.Piece (Elt F) S50x200x128 .bf16)] := by
  unfold runB; dsimp only
  rw [load_whole arg1 harg1 x0 z2, load_whole arg11 harg11 xs0 z2, load_whole arg4 harg4 x3 z2, load_whole arg7 harg7 x6 z2, load_whole arg9 harg9 x8 z2]

theorem runB_cache (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.1 = [(⟨Rect.unit (s := S6x200x10000) (k0_off3 i) S1x200x10000.size (k0_off3_inb i hc3), k0_pay5 x0⟩ : View.Piece (Elt F) S6x200x10000 .bf16)] := by
  unfold runB; dsimp only
  rw [load_whole arg1 harg1 x0 z2]

theorem runC_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) (k0_off1 i) S200x128.size (k0_off1_inb i hc2), k0_pay3 x0 xs0 x3 x4⟩ : View.Piece (Elt F) S10000x128 .f32)] := by
  unfold runC; dsimp only
  rw [load_whole arg1 harg1 x0 z2, load_whole arg11 harg11 xs0 z2, load_whole arg4 harg4 x3 z2, load_whole arg5 harg5 x4 z2]

theorem runC_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : ¬cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S50x200x128) (k0_off2 i) S1x200x128.size (k0_off2_inb i hc2), k0_pay4 x0 xs0 x3 x6 x8⟩ : View.Piece (Elt F) S50x200x128 .bf16)] := by
  unfold runC; dsimp only
  rw [load_whole arg1 harg1 x0 z2, load_whole arg11 harg11 xs0 z2, load_whole arg4 harg4 x3 z2, load_whole arg7 harg7 x6 z2, load_whole arg9 harg9 x8 z2]

theorem runD_z (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S10000x128) (k0_off1 i) S200x128.size (k0_off1_inb i hc2), k0_pay3 x0 xs0 x3 x4⟩ : View.Piece (Elt F) S10000x128 .f32)] := by
  unfold runD; dsimp only; unfold runD.sl.H12_1
  rw [load_whole arg1 harg1 x0 z2, load_whole arg11 harg11 xs0 z2, load_whole arg4 harg4 x3 z2, load_whole arg5 harg5 x4 z2]

theorem runD_zbf (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.1 = [(⟨Rect.unit (s := S10000x128) ![0, 0] S10000x128.size inb_S10000x128_S10000x128_0_0, k0_pay6 (arg12.view.read (Elt F) (arg12.view.writes (Elt F) (harg12.unread xs1) [(⟨Rect.unit (s := S10000x128) (k0_off1 i) S200x128.size (k0_off1_inb i hc2), k0_pay3 x0 xs0 x3 x4⟩ : View.Piece (Elt F) S10000x128 .f32)]))⟩ : View.Piece (Elt F) S10000x128 .bf16)] := by
  unfold runD; dsimp only; unfold runD.sl.v20 runD.sl.H12_1
  rw [View.readAt_eq_ld, View.ld_unit_zero z2, load_whole arg1 harg1 x0 z2, load_whole arg11 harg11 xs0 z2, load_whole arg4 harg4 x3 z2, load_whole arg5 harg5 x4 z2]

theorem runD_acc (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : cond2 i) (hc3 : ¬cond3 i) (hc4 : cond4 i) (hc5 : ¬cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).2.2.1 = [(⟨Rect.unit (s := S50x200x128) (k0_off2 i) S1x200x128.size (k0_off2_inb i hc2), k0_pay4 x0 xs0 x3 x6 x8⟩ : View.Piece (Elt F) S50x200x128 .bf16)] := by
  unfold runD; dsimp only
  rw [load_whole arg1 harg1 x0 z2, load_whole arg11 harg11 xs0 z2, load_whole arg4 harg4 x3 z2, load_whole arg7 harg7 x6 z2, load_whole arg9 harg9 x8 z2]

theorem runE_out (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : cond5 i) (hc6 : ¬cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S200x128) ![0, 0] S200x128.size inb_S200x128_S200x128_0_0, k0_pay7 x0 xs2 x5 x7 (View.readAt (Elt F) arg14.view (Rect.unit (s := S50x200x128) (k0_off4 i) S1x200x128.size (k0_off4_inb i hc5)).toLoadRect (harg14.unread xs3))⟩ : View.Piece (Elt F) S200x128 .f32)] := by
  unfold runE; dsimp only
  rw [load_whole arg1 harg1 x0 z2, load_whole arg13 harg13 xs2 z2, load_whole arg6 harg6 x5 z2, load_whole arg8 harg8 x7 z2]

theorem runF_out (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 i) (hc2 : ¬cond2 i) (hc3 : ¬cond3 i) (hc4 : ¬cond4 i) (hc5 : ¬cond5 i) (hc6 : cond6 i) (x0 : Vec F S200x10000 .f32) (x1 : Vec F S10000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S10000x128 .bf16) (xs1 : Vec F S10000x128 .f32) (xs2 : Vec F S10000x128 .bf16) (xs3 : Vec F S50x200x128 .bf16) (xs4 : Vec F S6x200x10000 .bf16) :
    (runF c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x0 x1 x2 x3 x4 x5 x6 x7 x8 xs0 xs1 xs2 xs3 xs4).1 = [(⟨Rect.unit (s := S200x128) ![0, 0] S200x128.size inb_S200x128_S200x128_0_0, k0_pay8 (View.readAt (Elt F) arg15.view (Rect.unit (s := S6x200x10000) (k0_off5 i) S1x200x10000.size (k0_off5_inb i hc6)).toLoadRect (harg15.unread xs4)) xs2 x5 x7 (View.readAt (Elt F) arg14.view (Rect.unit (s := S50x200x128) (k0_off6 i) S1x200x128.size (k0_off6_inb i hc6)).toLoadRect (harg14.unread xs3))⟩ : View.Piece (Elt F) S200x128 .f32)] := by
  unfold runF; dsimp only
  rw [load_whole arg13 harg13 xs2 z2, load_whole arg6 harg6 x5 z2, load_whole arg8 harg8 x7 z2]

end Cert.KernelIdeal.Hand

end
-- ==== Proof.KI.Inv.lean ====
/-
  What the five scratch buffers hold after n grid points, through the skeleton's pure payloads of the input blocks:
  after point 0 the first holds Y1 = feats·W1; after point j < 50 the band of rows 200 j .. 200 j + 199 of the second
  holds Z's block j (the first layer's output block times W2), slot j of the fourth holds the first layer's share
  of the result for block j, and for j < 6 slot j of the fifth holds adjacency block j; after point 49 the third
  holds the snapshot of the whole Z. Each control case of the body takes the invariant after n points to the
  invariant after n + 1, and at the points of the second layer the stored output block is the payload of the
  point's inputs, the snapshot, and slot 99 - t (or t - 94) of the fourth (and fifth) buffer.
-/
import proofs.«159059_g88923002896512_cont_sun_m_248_23_alg».proof.Proof.KI.Pieces
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

theorem lt100 (t : Fin cfg0.N) : t.val < 100 := lt_of_lt_of_eq t.isLt N_0
/-- grid point n -/
def pt (n : ℕ) (h : n < 100) : Fin cfg0.N := ⟨n, lt_of_lt_of_eq h N_0.symm⟩
@[simp] theorem pt_val (n : ℕ) (h : n < 100) : (pt n h).val = n := rfl

/-- the first grid point -/
def p0 : Fin cfg0.N := pt 0 (by omega)
@[simp] theorem p0_val : (p0).val = 0 := rfl

/-- Y1 = feats · W1, as point 0 computes it -/
def Y1 : Vec F S10000x128 .bf16 := k0_pay1 (iblk m c 1 p0) (iblk m c 2 p0)
/-- block j of Z = H1 · W2, as point j computes it -/
def Zb (j : Fin cfg0.N) : Vec F S200x128 .f32 := k0_pay3 (iblk m c 0 j) (Y1 m c) (iblk m c 3 j) (iblk m c 4 j)
/-- block j of H1 · Wout[:128] + bout, as point j computes it -/
def Ab (j : Fin cfg0.N) : Vec F S1x200x128 .bf16 := k0_pay4 (iblk m c 0 j) (Y1 m c) (iblk m c 3 j) (iblk m c 6 j) (iblk m c 8 j)
/-- adjacency block j as point j keeps it -/
def Cb (j : Fin cfg0.N) : Vec F S1x200x10000 .bf16 := k0_pay5 (iblk m c 0 j)
/-- the whole Z, row r from block r / 200 -/
def Zfull : Vec F S10000x128 .f32 := fun y =>
  Zb m c (pt ((y 0).val / 200) (by have := ValueIdx.idx2_lt0 y; omega))
    (ValueIdx.ix2 (⟨(y 0).val % 200, Nat.mod_lt _ (by omega)⟩ : Fin 200) (⟨(y 1).val, ValueIdx.idx2_lt1 y⟩ : Fin 128))
/-- the snapshot of Z -/
def ZBF : Vec F S10000x128 .bf16 := k0_pay6 (Zfull m c)
/-- the output block the second layer stores at point t -/
def outAt (t : Fin cfg0.N) : Vec F S200x128 .f32 :=
  if h : 94 ≤ t.val then
    k0_pay8 (Cb m c (pt (t.val - 94) (by have := lt100 t; omega))) (ZBF m c) (iblk m c 5 t) (iblk m c 7 t) (Ab m c (pt (t.val - 94) (by have := lt100 t; omega)))
  else
    k0_pay7 (iblk m c 0 t) (ZBF m c) (iblk m c 5 t) (iblk m c 7 t) (Ab m c (pt (99 - t.val) (by omega)))

/-- the scratch contents after n points -/
structure Inv (n : ℕ) (xs0 : Vec F S10000x128 .bf16) (xs1 : Vec F S10000x128 .f32) (xs2 : Vec F S10000x128 .bf16) (xs3 : Vec F S50x200x128 .bf16) (xs4 : Vec F S6x200x10000 .bf16) : Prop where
  hy : 1 ≤ n → xs0 = Y1 m c
  hz : ∀ j : Fin cfg0.N, j.val < n → j.val < 50 → ∀ (y : S10000x128.Idx) (x : S200x128.Idx),
    (y 0).val = 200 * j.val + (x 0).val → (y 1).val = (x 1).val → xs1 y = Zb m c j x
  hzb : 50 ≤ n → xs2 = k0_pay6 xs1
  ha : ∀ j : Fin cfg0.N, j.val < n → j.val < 50 → ∀ (y : S50x200x128.Idx) (x : S1x200x128.Idx),
    (y 0).val = j.val → (y 1).val = (x 1).val → (y 2).val = (x 2).val → xs3 y = Ab m c j x
  hc : ∀ j : Fin cfg0.N, j.val < n → j.val < 6 → ∀ (y : S6x200x10000.Idx) (x : S1x200x10000.Idx),
    (y 0).val = j.val → (y 1).val = (x 1).val → (y 2).val = (x 2).val → xs4 y = Cb m c j x

theorem Inv.zero (xs0 : Vec F S10000x128 .bf16) (xs1 : Vec F S10000x128 .f32) (xs2 : Vec F S10000x128 .bf16) (xs3 : Vec F S50x200x128 .bf16) (xs4 : Vec F S6x200x10000 .bf16) : Inv m c 0 xs0 xs1 xs2 xs3 xs4 :=
  ⟨fun h => absurd h (by omega), fun _ h => absurd h (by omega), fun h => absurd h (by omega),
   fun _ h => absurd h (by omega), fun _ h => absurd h (by omega)⟩

/-- from point 50 on nothing in the scratch changes -/
theorem Inv.succ_of_ge {n : ℕ} (hn : 50 ≤ n) (xs0 : Vec F S10000x128 .bf16) (xs1 : Vec F S10000x128 .f32) (xs2 : Vec F S10000x128 .bf16) (xs3 : Vec F S50x200x128 .bf16) (xs4 : Vec F S6x200x10000 .bf16) (h : Inv m c n xs0 xs1 xs2 xs3 xs4) :
    Inv m c (n + 1) xs0 xs1 xs2 xs3 xs4 :=
  ⟨fun _ => h.hy (by omega), fun j _ hj => h.hz j (by omega) hj, fun _ => h.hzb hn,
   fun j _ hj => h.ha j (by omega) hj, fun j _ hj => h.hc j (by omega) hj⟩

/-- once all 50 bands are written the second buffer is the whole Z -/
theorem Inv.z_full {n : ℕ} (hn : 50 ≤ n) (xs0 : Vec F S10000x128 .bf16) (xs1 : Vec F S10000x128 .f32) (xs2 : Vec F S10000x128 .bf16) (xs3 : Vec F S50x200x128 .bf16) (xs4 : Vec F S6x200x10000 .bf16) (h : Inv m c n xs0 xs1 xs2 xs3 xs4) : xs1 = Zfull m c :=
  funext fun y => h.hz (pt ((y 0).val / 200) (by have := ValueIdx.idx2_lt0 y; omega))
    (by have := ValueIdx.idx2_lt0 y; simp only [pt_val]; omega) (by have := ValueIdx.idx2_lt0 y; simp only [pt_val]; omega) y
    (ValueIdx.ix2 (⟨(y 0).val % 200, Nat.mod_lt _ (by omega)⟩ : Fin 200) (⟨(y 1).val, ValueIdx.idx2_lt1 y⟩ : Fin 128))
    (by show (y 0).val = 200 * ((y 0).val / 200) + (y 0).val % 200; omega) rfl

theorem Inv.zbf_eq {n : ℕ} (hn : 50 ≤ n) (xs0 : Vec F S10000x128 .bf16) (xs1 : Vec F S10000x128 .f32) (xs2 : Vec F S10000x128 .bf16) (xs3 : Vec F S50x200x128 .bf16) (xs4 : Vec F S6x200x10000 .bf16) (h : Inv m c n xs0 xs1 xs2 xs3 xs4) : xs2 = ZBF m c :=
  (h.hzb hn).trans (congrArg k0_pay6 (h.z_full m c hn))

/-! ## One band, one slot -/

theorem z_step (t : Fin cfg0.N) (ht : t.val < 50) (arg12 : Memref sig .tc .vmem S10000x128 .f32) (harg12 : arg12.IsWhole)
    (z : Vec F S10000x128 .f32) (inb : ∀ a, k0_off1 (grid0.coords t) a + S200x128.size a ≤ S10000x128.size a)
    (hold : ∀ j : Fin cfg0.N, j.val < t.val → j.val < 50 → ∀ (y : S10000x128.Idx) (x : S200x128.Idx),
      (y 0).val = 200 * j.val + (x 0).val → (y 1).val = (x 1).val → z y = Zb m c j x) :
    ∀ j : Fin cfg0.N, j.val < t.val + 1 → j.val < 50 → ∀ (y : S10000x128.Idx) (x : S200x128.Idx),
      (y 0).val = 200 * j.val + (x 0).val → (y 1).val = (x 1).val →
      arg12.view.read (Elt F) (arg12.view.writes (Elt F) (harg12.unread z)
        [(⟨Rect.unit (s := S10000x128) (k0_off1 (grid0.coords t)) S200x128.size inb, Zb m c t⟩ : View.Piece (Elt F) S10000x128 .f32)]) y
        = Zb m c j x := by
  intro j hj hj50 y x h0 h1
  by_cases hjt : j.val = t.val
  · obtain rfl : j = t := Fin.ext hjt
    exact read_one_mem arg12 inb (Zb m c j) _ y x (off1_eq j ht)
      (fun a => match a with
        | ⟨0, _⟩ => h0
        | ⟨1, _⟩ => by show (y 1).val = 0 + (x 1).val; omega)
  · have hx := ValueIdx.idx2_lt0 x
    rw [read_one_not_mem arg12 harg12 z inb (Zb m c t) y (off1_eq t ht) 0
      (Or.inl (by show (y 0).val < 200 * t.val; omega))]
    exact hold j (by omega) hj50 y x h0 h1

theorem acc_step (t : Fin cfg0.N) (ht : t.val < 50) (arg14 : Memref sig .tc .vmem S50x200x128 .bf16) (harg14 : arg14.IsWhole)
    (acc : Vec F S50x200x128 .bf16) (inb : ∀ a, k0_off2 (grid0.coords t) a + S1x200x128.size a ≤ S50x200x128.size a)
    (hold : ∀ j : Fin cfg0.N, j.val < t.val → j.val < 50 → ∀ (y : S50x200x128.Idx) (x : S1x200x128.Idx),
      (y 0).val = j.val → (y 1).val = (x 1).val → (y 2).val = (x 2).val → acc y = Ab m c j x) :
    ∀ j : Fin cfg0.N, j.val < t.val + 1 → j.val < 50 → ∀ (y : S50x200x128.Idx) (x : S1x200x128.Idx),
      (y 0).val = j.val → (y 1).val = (x 1).val → (y 2).val = (x 2).val →
      arg14.view.read (Elt F) (arg14.view.writes (Elt F) (harg14.unread acc)
        [(⟨Rect.unit (s := S50x200x128) (k0_off2 (grid0.coords t)) S1x200x128.size inb, Ab m c t⟩ : View.Piece (Elt F) S50x200x128 .bf16)]) y
        = Ab m c j x := by
  intro j hj hj50 y x h0 h1 h2
  by_cases hjt : j.val = t.val
  · obtain rfl : j = t := Fin.ext hjt
    have hx0 : (x 0).val < 1 := (x 0).isLt
    exact read_one_mem arg14 inb (Ab m c j) _ y x (off2_eq j ht)
      (fun a => match a with
        | ⟨0, _⟩ => by show (y 0).val = j.val + (x 0).val; omega
        | ⟨1, _⟩ => by show (y 1).val = 0 + (x 1).val; omega
        | ⟨2, _⟩ => by show (y 2).val = 0 + (x 2).val; omega)
  · rw [read_one_not_mem arg14 harg14 acc inb (Ab m c t) y (off2_eq t ht) 0
      (by show (y 0).val < t.val ∨ t.val + 1 ≤ (y 0).val; omega)]
    exact hold j (by omega) hj50 y x h0 h1 h2

theorem cache_step (t : Fin cfg0.N) (ht : t.val < 6) (arg15 : Memref sig .tc .vmem S6x200x10000 .bf16) (harg15 : arg15.IsWhole)
    (cache : Vec F S6x200x10000 .bf16) (inb : ∀ a, k0_off3 (grid0.coords t) a + S1x200x10000.size a ≤ S6x200x10000.size a)
    (hold : ∀ j : Fin cfg0.N, j.val < t.val → j.val < 6 → ∀ (y : S6x200x10000.Idx) (x : S1x200x10000.Idx),
      (y 0).val = j.val → (y 1).val = (x 1).val → (y 2).val = (x 2).val → cache y = Cb m c j x) :
    ∀ j : Fin cfg0.N, j.val < t.val + 1 → j.val < 6 → ∀ (y : S6x200x10000.Idx) (x : S1x200x10000.Idx),
      (y 0).val = j.val → (y 1).val = (x 1).val → (y 2).val = (x 2).val →
      arg15.view.read (Elt F) (arg15.view.writes (Elt F) (harg15.unread cache)
        [(⟨Rect.unit (s := S6x200x10000) (k0_off3 (grid0.coords t)) S1x200x10000.size inb, Cb m c t⟩ : View.Piece (Elt F) S6x200x10000 .bf16)]) y
        = Cb m c j x := by
  intro j hj hj6 y x h0 h1 h2
  by_cases hjt : j.val = t.val
  · obtain rfl : j = t := Fin.ext hjt
    have hx0 : (x 0).val < 1 := (x 0).isLt
    exact read_one_mem arg15 inb (Cb m c j) _ y x (off3_eq j ht)
      (fun a => match a with
        | ⟨0, _⟩ => by show (y 0).val = j.val + (x 0).val; omega
        | ⟨1, _⟩ => by show (y 1).val = 0 + (x 1).val; omega
        | ⟨2, _⟩ => by show (y 2).val = 0 + (x 2).val; omega)
  · rw [read_one_not_mem arg15 harg15 cache inb (Cb m c t) y (off3_eq t ht) 0
      (by show (y 0).val < t.val ∨ t.val + 1 ≤ (y 0).val; omega)]
    exact hold j (by omega) hj6 y x h0 h1 h2

end Cert.KernelIdeal.Hand

end
-- ==== Proof.KI.Steps.lean ====
/-
  Each control case of the body takes the scratch contents after t points to the scratch contents after t + 1
  points: point 0 stores Y1 and its own band, slot and kept block; points 1 to 5 a band, a slot and a kept block;
  points 6 to 48 a band and a slot; point 49 a band, a slot and the snapshot of the now complete Z. From point 50
  on the scratch is only read, and the output block stored at point t is the second layer's payload of the point's
  adjacency block (streamed, or kept slot t - 94), the snapshot, and slot 99 - t (or t - 94) of the first layer's
  share of the result.
-/
import proofs.«159059_g88923002896512_cont_sun_m_248_23_alg».proof.Proof.KI.Inv

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

theorem stepA (t : Fin cfg0.N) (h0 : t.val = 0) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : cond1 (grid0.coords t)) (hc2 : cond2 (grid0.coords t)) (hc3 : cond3 (grid0.coords t)) (hc4 : ¬cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) (arg11.view.read (Elt F) (arg11.view.writes (Elt F) (harg11.unread xs0) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) (arg12.view.read (Elt F) (arg12.view.writes (Elt F) (harg12.unread xs1) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) xs2 (arg14.view.read (Elt F) (arg14.view.writes (Elt F) (harg14.unread xs3) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.1)) (arg15.view.read (Elt F) (arg15.view.writes (Elt F) (harg15.unread xs4) (runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.2.1)) := by
  obtain rfl : t = p0 := Fin.ext h0
  have key : ∀ (L0 : List (View.Piece (Elt F) S10000x128 .bf16)) (L1 : List (View.Piece (Elt F) S10000x128 .f32)) (L3 : List (View.Piece (Elt F) S50x200x128 .bf16)) (L4 : List (View.Piece (Elt F) S6x200x10000 .bf16)),
      L0 = [(⟨Rect.unit (s := S10000x128) ![0, 0] S10000x128.size inb_S10000x128_S10000x128_0_0, k0_pay1 (iblk m c 1 p0) (iblk m c 2 p0)⟩ : View.Piece (Elt F) S10000x128 .bf16)] → L1 = [(⟨Rect.unit (s := S10000x128) (k0_off1 (grid0.coords p0)) S200x128.size (k0_off1_inb (grid0.coords p0) hc2), k0_pay3 (iblk m c 0 p0) (k0_pay1 (iblk m c 1 p0) (iblk m c 2 p0)) (iblk m c 3 p0) (iblk m c 4 p0)⟩ : View.Piece (Elt F) S10000x128 .f32)] → L3 = [(⟨Rect.unit (s := S50x200x128) (k0_off2 (grid0.coords p0)) S1x200x128.size (k0_off2_inb (grid0.coords p0) hc2), k0_pay4 (iblk m c 0 p0) (k0_pay1 (iblk m c 1 p0) (iblk m c 2 p0)) (iblk m c 3 p0) (iblk m c 6 p0) (iblk m c 8 p0)⟩ : View.Piece (Elt F) S50x200x128 .bf16)] → L4 = [(⟨Rect.unit (s := S6x200x10000) (k0_off3 (grid0.coords p0)) S1x200x10000.size (k0_off3_inb (grid0.coords p0) hc3), k0_pay5 (iblk m c 0 p0)⟩ : View.Piece (Elt F) S6x200x10000 .bf16)] →
      Inv m c (p0.val + 1) (arg11.view.read (Elt F) (arg11.view.writes (Elt F) (harg11.unread xs0) L0)) (arg12.view.read (Elt F) (arg12.view.writes (Elt F) (harg12.unread xs1) L1)) xs2 (arg14.view.read (Elt F) (arg14.view.writes (Elt F) (harg14.unread xs3) L3)) (arg15.view.read (Elt F) (arg15.view.writes (Elt F) (harg15.unread xs4) L4)) := by
    intro L0 L1 L3 L4 e0 e1 e3 e4; subst e0 e1 e3 e4
    rw [read_one_whole arg11 z2]
    exact ⟨fun _ => rfl,
      z_step m c p0 (by simp) arg12 harg12 xs1 _ (fun j hj => absurd hj (Nat.not_lt_zero _)),
      fun h => absurd h (by simp),
      acc_step m c p0 (by simp) arg14 harg14 xs3 _ (fun j hj => absurd hj (Nat.not_lt_zero _)),
      cache_step m c p0 (by simp) arg15 harg15 xs4 _ (fun j hj => absurd hj (Nat.not_lt_zero _))⟩
  exact key _ _ _ _ (runA_y1 c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4) (runA_z c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4) (runA_acc c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4) (runA_cache c (grid0.coords p0) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 p0) (iblk m c 1 p0) (iblk m c 2 p0) (iblk m c 3 p0) (iblk m c 4 p0) (iblk m c 5 p0) (iblk m c 6 p0) (iblk m c 7 p0) (iblk m c 8 p0) xs0 xs1 xs2 xs3 xs4)

theorem stepB (t : Fin cfg0.N) (h1 : 1 ≤ t.val) (h6 : t.val < 6) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : cond2 (grid0.coords t)) (hc3 : cond3 (grid0.coords t)) (hc4 : ¬cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) xs0 (arg12.view.read (Elt F) (arg12.view.writes (Elt F) (harg12.unread xs1) (runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) xs2 (arg14.view.read (Elt F) (arg14.view.writes (Elt F) (harg14.unread xs3) (runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) (arg15.view.read (Elt F) (arg15.view.writes (Elt F) (harg15.unread xs4) (runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.1)) := by
  have e0 : xs0 = Y1 m c := hI.hy h1
  subst e0
  have key : ∀ (L1 : List (View.Piece (Elt F) S10000x128 .f32)) (L3 : List (View.Piece (Elt F) S50x200x128 .bf16)) (L4 : List (View.Piece (Elt F) S6x200x10000 .bf16)),
      L1 = [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)] → L3 = [(⟨Rect.unit (s := S50x200x128) (k0_off2 (grid0.coords t)) S1x200x128.size (k0_off2_inb (grid0.coords t) hc2), k0_pay4 (iblk m c 0 t) (Y1 m c) (iblk m c 3 t) (iblk m c 6 t) (iblk m c 8 t)⟩ : View.Piece (Elt F) S50x200x128 .bf16)] → L4 = [(⟨Rect.unit (s := S6x200x10000) (k0_off3 (grid0.coords t)) S1x200x10000.size (k0_off3_inb (grid0.coords t) hc3), k0_pay5 (iblk m c 0 t)⟩ : View.Piece (Elt F) S6x200x10000 .bf16)] →
      Inv m c (t.val + 1) (Y1 m c) (arg12.view.read (Elt F) (arg12.view.writes (Elt F) (harg12.unread xs1) L1)) xs2 (arg14.view.read (Elt F) (arg14.view.writes (Elt F) (harg14.unread xs3) L3)) (arg15.view.read (Elt F) (arg15.view.writes (Elt F) (harg15.unread xs4) L4)) := by
    intro L1 L3 L4 e1 e3 e4; subst e1 e3 e4
    exact ⟨fun _ => rfl,
      z_step m c t (by omega) arg12 harg12 xs1 _ hI.hz,
      fun h => absurd h (by omega),
      acc_step m c t (by omega) arg14 harg14 xs3 _ hI.ha,
      cache_step m c t h6 arg15 harg15 xs4 _ hI.hc⟩
  exact key _ _ _ (runB_z c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runB_acc c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runB_cache c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4)

theorem stepC (t : Fin cfg0.N) (h6 : 6 ≤ t.val) (h49 : t.val < 49) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : cond2 (grid0.coords t)) (hc3 : ¬cond3 (grid0.coords t)) (hc4 : ¬cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) xs0 (arg12.view.read (Elt F) (arg12.view.writes (Elt F) (harg12.unread xs1) (runC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) xs2 (arg14.view.read (Elt F) (arg14.view.writes (Elt F) (harg14.unread xs3) (runC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) xs4 := by
  have e0 : xs0 = Y1 m c := hI.hy (by omega)
  subst e0
  have key : ∀ (L1 : List (View.Piece (Elt F) S10000x128 .f32)) (L3 : List (View.Piece (Elt F) S50x200x128 .bf16)),
      L1 = [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)] → L3 = [(⟨Rect.unit (s := S50x200x128) (k0_off2 (grid0.coords t)) S1x200x128.size (k0_off2_inb (grid0.coords t) hc2), k0_pay4 (iblk m c 0 t) (Y1 m c) (iblk m c 3 t) (iblk m c 6 t) (iblk m c 8 t)⟩ : View.Piece (Elt F) S50x200x128 .bf16)] →
      Inv m c (t.val + 1) (Y1 m c) (arg12.view.read (Elt F) (arg12.view.writes (Elt F) (harg12.unread xs1) L1)) xs2 (arg14.view.read (Elt F) (arg14.view.writes (Elt F) (harg14.unread xs3) L3)) xs4 := by
    intro L1 L3 e1 e3; subst e1 e3
    exact ⟨fun _ => rfl,
      z_step m c t (by omega) arg12 harg12 xs1 _ hI.hz,
      fun h => absurd h (by omega),
      acc_step m c t (by omega) arg14 harg14 xs3 _ hI.ha,
      fun j _ hj6 => hI.hc j (by omega) hj6⟩
  exact key _ _ (runC_z c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runC_acc c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4)

theorem stepD (t : Fin cfg0.N) (h49 : t.val = 49) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : cond2 (grid0.coords t)) (hc3 : ¬cond3 (grid0.coords t)) (hc4 : cond4 (grid0.coords t)) (hc5 : ¬cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) :
    Inv m c (t.val + 1) xs0 (arg12.view.read (Elt F) (arg12.view.writes (Elt F) (harg12.unread xs1) (runD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1)) (arg13.view.read (Elt F) (arg13.view.writes (Elt F) (harg13.unread xs2) (runD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.1)) (arg14.view.read (Elt F) (arg14.view.writes (Elt F) (harg14.unread xs3) (runD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).2.2.1)) xs4 := by
  have e0 : xs0 = Y1 m c := hI.hy (by omega)
  subst e0
  have key : ∀ (L1 : List (View.Piece (Elt F) S10000x128 .f32)) (L2 : List (View.Piece (Elt F) S10000x128 .bf16)) (L3 : List (View.Piece (Elt F) S50x200x128 .bf16)),
      L1 = [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)] → L2 = [(⟨Rect.unit (s := S10000x128) ![0, 0] S10000x128.size inb_S10000x128_S10000x128_0_0, k0_pay6 (arg12.view.read (Elt F) (arg12.view.writes (Elt F) (harg12.unread xs1) [(⟨Rect.unit (s := S10000x128) (k0_off1 (grid0.coords t)) S200x128.size (k0_off1_inb (grid0.coords t) hc2), k0_pay3 (iblk m c 0 t) (Y1 m c) (iblk m c 3 t) (iblk m c 4 t)⟩ : View.Piece (Elt F) S10000x128 .f32)]))⟩ : View.Piece (Elt F) S10000x128 .bf16)] → L3 = [(⟨Rect.unit (s := S50x200x128) (k0_off2 (grid0.coords t)) S1x200x128.size (k0_off2_inb (grid0.coords t) hc2), k0_pay4 (iblk m c 0 t) (Y1 m c) (iblk m c 3 t) (iblk m c 6 t) (iblk m c 8 t)⟩ : View.Piece (Elt F) S50x200x128 .bf16)] →
      Inv m c (t.val + 1) (Y1 m c) (arg12.view.read (Elt F) (arg12.view.writes (Elt F) (harg12.unread xs1) L1)) (arg13.view.read (Elt F) (arg13.view.writes (Elt F) (harg13.unread xs2) L2)) (arg14.view.read (Elt F) (arg14.view.writes (Elt F) (harg14.unread xs3) L3)) xs4 := by
    intro L1 L2 L3 e1 e2 e3; subst e1 e2 e3
    rw [read_one_whole arg13 z2]
    exact ⟨fun _ => rfl,
      z_step m c t (by omega) arg12 harg12 xs1 _ hI.hz,
      fun _ => rfl,
      acc_step m c t (by omega) arg14 harg14 xs3 _ hI.ha,
      fun j _ hj6 => hI.hc j (by omega) hj6⟩
  exact key _ _ _ (runD_z c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runD_zbf c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4) (runD_acc c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) (Y1 m c) xs1 xs2 xs3 xs4)

theorem outE (t : Fin cfg0.N) (h50 : 50 ≤ t.val) (h94 : t.val < 94) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : ¬cond2 (grid0.coords t)) (hc3 : ¬cond3 (grid0.coords t)) (hc4 : ¬cond4 (grid0.coords t)) (hc5 : cond5 (grid0.coords t)) (hc6 : ¬cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) (f : arg10.view.ty.Contents (Elt F)) :
    arg10.view.read (Elt F) (arg10.view.writes (Elt F) f (runE c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1) = outAt m c t := by
  rw [runE_out c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4, read_one_whole arg10 z2]
  unfold outAt; rw [dif_neg (by omega)]
  have e2 := hI.zbf_eq m c h50
  have e3 : View.readAt (Elt F) arg14.view (Rect.unit (s := S50x200x128) (k0_off4 (grid0.coords t)) S1x200x128.size (k0_off4_inb (grid0.coords t) hc5)).toLoadRect (harg14.unread xs3)
      = Ab m c (pt (99 - t.val) (by omega)) := by
    funext x
    rw [load_apply arg14 harg14 xs3]
    have hx0 : (x 0).val < 1 := (x 0).isLt
    have ho := off4_eq t h50
    have q0 : k0_off4 (grid0.coords t) 0 = 99 - t.val := congrFun ho 0
    have q1 : k0_off4 (grid0.coords t) 1 = 0 := congrFun ho 1
    have q2 : k0_off4 (grid0.coords t) 2 = 0 := congrFun ho 2
    exact hI.ha (pt (99 - t.val) (by omega)) (by simp only [pt_val]; omega) (by simp only [pt_val]; omega) _ x
      (by show k0_off4 (grid0.coords t) 0 + 1 * (x 0).val = 99 - t.val; omega)
      (by show k0_off4 (grid0.coords t) 1 + 1 * (x 1).val = (x 1).val; omega)
      (by show k0_off4 (grid0.coords t) 2 + 1 * (x 2).val = (x 2).val; omega)
  rw [e2, e3]

theorem outF (t : Fin cfg0.N) (h94 : 94 ≤ t.val) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S200x128 .f32) (harg10 : arg10.IsWhole) (arg11 : Memref sig .tc .vmem S10000x128 .bf16) (harg11 : arg11.IsWhole) (arg12 : Memref sig .tc .vmem S10000x128 .f32) (harg12 : arg12.IsWhole) (arg13 : Memref sig .tc .vmem S10000x128 .bf16) (harg13 : arg13.IsWhole) (arg14 : Memref sig .tc .vmem S50x200x128 .bf16) (harg14 : arg14.IsWhole) (arg15 : Memref sig .tc .vmem S6x200x10000 .bf16) (harg15 : arg15.IsWhole) (hc1 : ¬cond1 (grid0.coords t)) (hc2 : ¬cond2 (grid0.coords t)) (hc3 : ¬cond3 (grid0.coords t)) (hc4 : ¬cond4 (grid0.coords t)) (hc5 : ¬cond5 (grid0.coords t)) (hc6 : cond6 (grid0.coords t)) (xs0 : Vec F S10000x128 .bf16) (xs1 : Vec F S10000x128 .f32) (xs2 : Vec F S10000x128 .bf16) (xs3 : Vec F S50x200x128 .bf16) (xs4 : Vec F S6x200x10000 .bf16)
    (hI : Inv m c t.val xs0 xs1 xs2 xs3 xs4) (f : arg10.view.ty.Contents (Elt F)) :
    arg10.view.read (Elt F) (arg10.view.writes (Elt F) f (runF c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4).1) = outAt m c t := by
  rw [runF_out c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 (iblk m c 0 t) (iblk m c 1 t) (iblk m c 2 t) (iblk m c 3 t) (iblk m c 4 t) (iblk m c 5 t) (iblk m c 6 t) (iblk m c 7 t) (iblk m c 8 t) xs0 xs1 xs2 xs3 xs4, read_one_whole arg10 z2]
  unfold outAt; rw [dif_pos h94]
  have ht := lt100 t
  have e2 := hI.zbf_eq m c (by omega : 50 ≤ t.val)
  have e3 : View.readAt (Elt F) arg14.view (Rect.unit (s := S50x200x128) (k0_off6 (grid0.coords t)) S1x200x128.size (k0_off6_inb (grid0.coords t) hc6)).toLoadRect (harg14.unread xs3)
      = Ab m c (pt (t.val - 94) (by omega)) := by
    funext x
    rw [load_apply arg14 harg14 xs3]
    have hx0 : (x 0).val < 1 := (x 0).isLt
    have ho := off6_eq t h94
    have q0 : k0_off6 (grid0.coords t) 0 = t.val - 94 := congrFun ho 0
    have q1 : k0_off6 (grid0.coords t) 1 = 0 := congrFun ho 1
    have q2 : k0_off6 (grid0.coords t) 2 = 0 := congrFun ho 2
    exact hI.ha (pt (t.val - 94) (by omega)) (by simp only [pt_val]; omega) (by simp only [pt_val]; omega) _ x
      (by show k0_off6 (grid0.coords t) 0 + 1 * (x 0).val = t.val - 94; omega)
      (by show k0_off6 (grid0.coords t) 1 + 1 * (x 1).val = (x 1).val; omega)
      (by show k0_off6 (grid0.coords t) 2 + 1 * (x 2).val = (x 2).val; omega)
  have e4 : View.readAt (Elt F) arg15.view (Rect.unit (s := S6x200x10000) (k0_off5 (grid0.coords t)) S1x200x10000.size (k0_off5_inb (grid0.coords t) hc6)).toLoadRect (harg15.unread xs4)
      = Cb m c (pt (t.val - 94) (by omega)) := by
    funext x
    rw [load_apply arg15 harg15 xs4]
    have hx0 : (x 0).val < 1 := (x 0).isLt
    have ho := off5_eq t h94
    have q0 : k0_off5 (grid0.coords t) 0 = t.val - 94 := congrFun ho 0
    have q1 : k0_off5 (grid0.coords t) 1 = 0 := congrFun ho 1
    have q2 : k0_off5 (grid0.coords t) 2 = 0 := congrFun ho 2
    exact hI.hc (pt (t.val - 94) (by omega)) (by simp only [pt_val]; omega) (by simp only [pt_val]; omega) _ x
      (by show k0_off5 (grid0.coords t) 0 + 1 * (x 0).val = t.val - 94; omega)
      (by show k0_off5 (grid0.coords t) 1 + 1 * (x 1).val = (x 1).val; omega)
      (by show k0_off5 (grid0.coords t) 2 + 1 * (x 2).val = (x 2).val; omega)
  rw [e2, e3, e4]

end Cert.KernelIdeal.Hand

end
-- ==== Proof.KI.Dat.lean ====
/-
  The proof data of the one pipeline: the arrays as the region finds them; after the body at point t each input's
  staging buffer at its block and, at the points of the second layer, the output's at the block the point stores;
  the invariant before point n the five scratch buffers at some contents that satisfy the scratch invariant after
  n points, and the generator register at some state. The body at every point, by cases on the point: the case's
  run applies, the invariant hands it the scratch contents and takes back the contents the case leaves. During the
  first layer the output window is idle and not written back, so its buffer is handed back as found.
-/
import proofs.«159059_g88923002896512_cont_sun_m_248_23_alg».proof.Proof.KI.Steps

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the region invariant before point n -/
def PhiS (c : Dev nD) (n : ℕ) : sProp 𝕄 :=
  iprop(iprop(∃ xs0 : Vec F S10000x128 .bf16, ∃ xs1 : Vec F S10000x128 .f32, ∃ xs2 : Vec F S10000x128 .bf16,
      ∃ xs3 : Vec F S50x200x128 .bf16, ∃ xs4 : Vec F S6x200x10000 .bf16,
      ⌜Inv m c n xs0 xs1 xs2 xs3 xs4⌝ ∗ owns (c : Thread nD τ) sc0 fullShare xs0 ∗ owns (c : Thread nD τ) sc1 fullShare xs1
        ∗ owns (c : Thread nD τ) sc2 fullShare xs2 ∗ owns (c : Thread nD τ) sc3 fullShare xs3 ∗ owns (c : Thread nD τ) sc4 fullShare xs4)
    ∗ (∃ r, prngReg c r))

/-- the proof data -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- what the body is called with at point t -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- the body at any point -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from by
      unfold Dat.leavesExact; rw [liveAt_in 0 (by decide) t], after_0]
  rw [show (dats m 0 c).leavesExact 1 t = owns (c : Thread nD τ) (ms1 t) fullShare ((dats m 0 c).after 1 t) from by
      unfold Dat.leavesExact; rw [liveAt_in 1 (by decide) t], after_1]
  rw [show (dats m 0 c).leavesExact 2 t = owns (c : Thread nD τ) (ms2 t) fullShare ((dats m 0 c).after 2 t) from by
      unfold Dat.leavesExact; rw [liveAt_in 2 (by decide) t], after_2]
  rw [show (dats m 0 c).leavesExact 3 t = owns (c : Thread nD τ) (ms3 t) fullShare ((dats m 0 c).after 3 t) from by
      unfold Dat.leavesExact; rw [liveAt_in 3 (by decide) t], after_3]
  rw [show (dats m 0 c).leavesExact 4 t = owns (c : Thread nD τ) (ms4 t) fullShare ((dats m 0 c).after 4 t) from by
      unfold Dat.leavesExact; rw [liveAt_in 4 (by decide) t], after_4]
  rw [show (dats m 0 c).leavesExact 5 t = owns (c : Thread nD τ) (ms5 t) fullShare ((dats m 0 c).after 5 t) from by
      unfold Dat.leavesExact; rw [liveAt_in 5 (by decide) t], after_5]
  rw [show (dats m 0 c).leavesExact 6 t = owns (c : Thread nD τ) (ms6 t) fullShare ((dats m 0 c).after 6 t) from by
      unfold Dat.leavesExact; rw [liveAt_in 6 (by decide) t], after_6]
  rw [show (dats m 0 c).leavesExact 7 t = owns (c : Thread nD τ) (ms7 t) fullShare ((dats m 0 c).after 7 t) from by
      unfold Dat.leavesExact; rw [liveAt_in 7 (by decide) t], after_7]
  rw [show (dats m 0 c).leavesExact 8 t = owns (c : Thread nD τ) (ms8 t) fullShare ((dats m 0 c).after 8 t) from by
      unfold Dat.leavesExact; rw [liveAt_in 8 (by decide) t], after_8]
  have hN := lt100 t
  unfold PhiS
  by_cases h0 : t.val = 0
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) ((hcond1 t).mpr (by omega)) ((hcond2 t).mpr (by omega)) ((hcond3 t).mpr (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepA m c t (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) ((hcond1 t).mpr (by omega)) ((hcond2 t).mpr (by omega)) ((hcond3 t).mpr (by omega)) (fun h => absurd ((hcond4 t).mp h) (by omega)) (fun h => absurd ((hcond5 t).mp h) (by omega)) (fun h => absurd ((hcond6 t).mp h) (by omega)) xs0 xs1 xs2 xs3 xs4 hI
        isplitl [HS0]
        · unfold owns; iexists _; isplitr
          swap; · iexact HS0
          ipureintro; rfl
        isplitl [HS1]
        · unfold owns; iexists _; isplitr
          swap; · iexact HS1
          ipureintro; rfl
        isplitl [HS2]
        · iexact HS2
        isplitl [HS3]
        · unfold owns; iexists _; isplitr
          swap; · iexact HS3
          ipureintro; rfl
        unfold owns; iexists _; isplitr
        swap; · iexact HS4
        ipureintro; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h6 : t.val < 6
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) ((hcond3 t).mpr (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepB m c t (by omega) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) ((hcond3 t).mpr (by omega)) (fun h => absurd ((hcond4 t).mp h) (by omega)) (fun h => absurd ((hcond5 t).mp h) (by omega)) (fun h => absurd ((hcond6 t).mp h) (by omega)) xs0 xs1 xs2 xs3 xs4 hI
        isplitl [HS0]
        · iexact HS0
        isplitl [HS1]
        · unfold owns; iexists _; isplitr
          swap; · iexact HS1
          ipureintro; rfl
        isplitl [HS2]
        · iexact HS2
        isplitl [HS3]
        · unfold owns; iexists _; isplitr
          swap; · iexact HS3
          ipureintro; rfl
        unfold owns; iexists _; isplitr
        swap; · iexact HS4
        ipureintro; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h49 : t.val < 49
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepC m c t (by omega) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) (fun h => absurd ((hcond4 t).mp h) (by omega)) (fun h => absurd ((hcond5 t).mp h) (by omega)) (fun h => absurd ((hcond6 t).mp h) (by omega)) xs0 xs1 xs2 xs3 xs4 hI
        isplitl [HS0]
        · iexact HS0
        isplitl [HS1]
        · unfold owns; iexists _; isplitr
          swap; · iexact HS1
          ipureintro; rfl
        isplitl [HS2]
        · iexact HS2
        isplitl [HS3]
        · unfold owns; iexists _; isplitr
          swap; · iexact HS3
          ipureintro; rfl
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h49e : t.val = 49
  · rw [Dat.leavesExact_idle (dats m 0 c) 9 t (idleAt9 t (by omega)) (noFlush9 t (by omega))]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) ((hcond4 t).mpr (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact stepD m c t (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) ((hcond2 t).mpr (by omega)) (fun h => absurd ((hcond3 t).mp h) (by omega)) ((hcond4 t).mpr (by omega)) (fun h => absurd ((hcond5 t).mp h) (by omega)) (fun h => absurd ((hcond6 t).mp h) (by omega)) xs0 xs1 xs2 xs3 xs4 hI
        isplitl [HS0]
        · iexact HS0
        isplitl [HS1]
        · unfold owns; iexists _; isplitr
          swap; · iexact HS1
          ipureintro; rfl
        isplitl [HS2]
        · unfold owns; iexists _; isplitr
          swap; · iexact HS2
          ipureintro; rfl
        isplitl [HS3]
        · unfold owns; iexists _; isplitr
          swap; · iexact HS3
          ipureintro; rfl
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h94 : t.val < 94
  · rw [show (dats m 0 c).leavesExact 9 t = owns (c : Thread nD τ) (ms9 t) fullShare ((dats m 0 c).after 9 t) from by
          unfold Dat.leavesExact; rw [liveAt9 t (by omega)], after_9]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) ((hcond5 t).mpr (by omega)) (fun h => absurd ((hcond6 t).mp h) (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, ⟨%f9, H9⟩, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact hI.succ_of_ge m c (by omega)
        isplitl [HS0]
        · iexact HS0
        isplitl [HS1]
        · iexact HS1
        isplitl [HS2]
        · iexact HS2
        isplitl [HS3]
        · iexact HS3
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact outE m c t (by omega) (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) ((hcond5 t).mpr (by omega)) (fun h => absurd ((hcond6 t).mp h) (by omega)) xs0 xs1 xs2 xs3 xs4 hI f9
  · rw [show (dats m 0 c).leavesExact 9 t = owns (c : Thread nD τ) (ms9 t) fullShare ((dats m 0 c).after 9 t) from by
          unfold Dat.leavesExact; rw [liveAt9 t (by omega)], after_9]
    iintro ⟨⟨⟨%xs0, %xs1, %xs2, %xs3, %xs4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) (fun h => absurd ((hcond5 t).mp h) (by omega)) ((hcond6 t).mpr (by omega)) (iblk m c 0 t) (iblk m c 1 t) (iblk m c 2 t) (iblk m c 3 t) (iblk m c 4 t) (iblk m c 5 t) (iblk m c 6 t) (iblk m c 7 t) (iblk m c 8 t) xs0 xs1 xs2 xs3 xs4).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, ⟨%f9, H9⟩, HS0, HS1, HS2, HS3, HS4⟩
    isplitl [HS0 HS1 HS2 HS3 HS4 Hg]
    · isplitr [Hg]
      · iexists _; iexists _; iexists _; iexists _; iexists _
        isplitr [HS0 HS1 HS2 HS3 HS4]
        · ipureintro; exact hI.succ_of_ge m c (by omega)
        isplitl [HS0]
        · iexact HS0
        isplitl [HS1]
        · iexact HS1
        isplitl [HS2]
        · iexact HS2
        isplitl [HS3]
        · iexact HS3
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact outF m c t (by omega) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (fun h => absurd ((hcond1 t).mp h) (by omega)) (fun h => absurd ((hcond2 t).mp h) (by omega)) (fun h => absurd ((hcond3 t).mp h) (by omega)) (fun h => absurd ((hcond4 t).mp h) (by omega)) (fun h => absurd ((hcond5 t).mp h) (by omega)) ((hcond6 t).mpr (by omega)) xs0 xs1 xs2 xs3 xs4 hI f9

/-- the library's body obligation, at every point -/
theorem body_obligation (c : Dev nD) : BodyObligation (dats (F := F) m 0 c) (defs₀ (F := F)) Variants.none () Set.univ := fun t => by
  rw [bigSep_W0, bigSep_W0]
  exact sound_body m c t

/-- what the launch hands the region is the invariant before the first point: any scratch contents satisfy the invariant after no point -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d0, HS0⟩, ⟨%d1, HS1⟩, ⟨%d2, HS2⟩, ⟨%d3, HS3⟩, ⟨%d4, HS4⟩⟩, Hg⟩
  isplitr [Hg]
  · iexists d0; iexists d1; iexists d2; iexists d3; iexists d4
    isplitr [HS0 HS1 HS2 HS3 HS4]
    · ipureintro; exact Inv.zero m c d0 d1 d2 d3 d4
    isplitl [HS0]; · iexact HS0
    isplitl [HS1]; · iexact HS1
    isplitl [HS2]; · iexact HS2
    isplitl [HS3]; · iexact HS3
    iexact HS4
  · iexact Hg

/-- after the last point the invariant gives the class invariant back: the scratch contents are forgotten -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%xs0, %xs1, %xs2, %xs3, %xs4, %hI, HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

set_option backward.isDefEq.respectTransparency.types false in
/-- every weakly fair execution of @main terminates, and every final state has every array of the pipeline at what the
    library computes from the proof data and every other unscoped buffer as the region found it -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- the frame: the program runs to the end, nothing faults, and its argument arrays end unchanged -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.KI.Blocks.lean ====
/-
  Which entries of which argument array each window's block holds at a grid point.

  The adjacency window (window 0) holds 200 full rows: rows 200·t … 200·t + 199 at a point t < 50 and rows
  200·(99 - t) … 200·(99 - t) + 199 at a point 50 ≤ t < 94.  The feature matrix and the two layers' weights
  (windows 1, 2, 4) are whole arrays.  The three bias windows (3, 5, 8) are the rank-1 biases viewed as one row
  of 128.  The output projection's two windows (6, 7) are rows 0 … 127 and rows 128 … 255 of the [256,128] matrix.
  The output window (9) is written back exactly at the points t ≥ 50: row block 99 - t at 50 ≤ t < 94 and row block
  t - 94 at t ≥ 94, so that every row block b < 50 is written (at point 99 - b if b ≥ 6, at point 94 + b if b < 6).
-/
import proofs.«159059_g88923002896512_cont_sun_m_248_23_alg».proof.Proof.KI.Base
import Idealize.ShloMosaic.Lib.Pipeline.Value
import Idealize.ShloMosaic.Lib.ValueIdx
import Idealize.ShloMosaic.Lib.ValueIdxCoords

set_option maxRecDepth 16384

noncomputable section

namespace Cert.KernelIdeal.Blocks

open Idealize.ShloMosaic Idealize.ShloMosaic.TcCoe Idealize.ShloMosaic.Tactic
open Idealize.ShloMosaic.ValueIdx
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (c : Dev nD)

/-! ## The index maps, decided over the grid -/

/-- The whole-array windows and the one-block windows sit at block index 0 on both axes at every point. -/
theorem idx_const : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The adjacency window's row block: t during the first layer, 99 - t on the streamed part of the second. -/
theorem idx0_lo : ∀ t : Fin cfg0.N, t.val < 50 → win0_0.index t (0 : Fin 2) = t.val ∧ win0_0.index t (1 : Fin 2) = 0 :=
  (by decide +kernel : ∀ t : Fin grid0.N, t.val < 50 → win0_0.index t (0 : Fin 2) = t.val ∧ win0_0.index t (1 : Fin 2) = 0)
theorem idx0_hi : ∀ t : Fin cfg0.N, 50 ≤ t.val → t.val < 94 → win0_0.index t (0 : Fin 2) = 99 - t.val ∧ win0_0.index t (1 : Fin 2) = 0 :=
  (by decide +kernel : ∀ t : Fin grid0.N, 50 ≤ t.val → t.val < 94 → win0_0.index t (0 : Fin 2) = 99 - t.val ∧ win0_0.index t (1 : Fin 2) = 0)

/-- The output window's row block: 99 - t on the streamed part of the second layer, t - 94 on the kept part. -/
theorem idx9_mid : ∀ t : Fin cfg0.N, 50 ≤ t.val → t.val < 94 → win0_9.index t (0 : Fin 2) = 99 - t.val ∧ win0_9.index t (1 : Fin 2) = 0 :=
  (by decide +kernel : ∀ t : Fin grid0.N, 50 ≤ t.val → t.val < 94 → win0_9.index t (0 : Fin 2) = 99 - t.val ∧ win0_9.index t (1 : Fin 2) = 0)
theorem idx9_top : ∀ t : Fin cfg0.N, 94 ≤ t.val → win0_9.index t (0 : Fin 2) = t.val - 94 ∧ win0_9.index t (1 : Fin 2) = 0 :=
  (by decide +kernel : ∀ t : Fin grid0.N, 94 ≤ t.val → win0_9.index t (0 : Fin 2) = t.val - 94 ∧ win0_9.index t (1 : Fin 2) = 0)

/-! ## The whole-array windows -/

/-- Window 1's block is the feature matrix. -/
theorem blk1 (t : Fin cfg0.N) (y : S10000x128.Idx) :
    (iblk m c 1 t : S10000x128.Idx → Elt F .f32) y = (m ((c.tc : Thread nD τ).loc main_arg0) : S10000x128.Idx → Elt F .f32) y := by
  obtain ⟨e10, e11, -⟩ := idx_const t
  unfold iblk
  rw [View.read_apply]
  show V m c main_arg0 _ = m (c.tc.loc main_arg0) _
  rw [V_main_arg0]
  congr 1
  funext a
  apply Fin.ext
  match a with
  | ⟨0, _⟩ => show win0_1.index t (0 : Fin 2) * 10000 + 1 * (y 0).val = (y 0).val; rw [e10]; omega
  | ⟨1, _⟩ => show win0_1.index t (1 : Fin 2) * 128 + 1 * (y 1).val = (y 1).val; rw [e11]; omega

/-- Window 2's block is the first layer's weight matrix. -/
theorem blk2 (t : Fin cfg0.N) (y : S128x128.Idx) :
    (iblk m c 2 t : S128x128.Idx → Elt F .f32) y = (m ((c.tc : Thread nD τ).loc main_arg2) : S128x128.Idx → Elt F .f32) y := by
  obtain ⟨-, -, e0, e1, -⟩ := idx_const t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 4's block is the second layer's weight matrix. -/
theorem blk4 (t : Fin cfg0.N) (y : S128x128.Idx) :
    (iblk m c 4 t : S128x128.Idx → Elt F .f32) y = (m ((c.tc : Thread nD τ).loc main_arg4) : S128x128.Idx → Elt F .f32) y := by
  obtain ⟨-, -, -, -, -, -, e0, e1, -⟩ := idx_const t
  unfold iblk
  rw [View.read_apply]
  show V m c main_arg4 _ = m (c.tc.loc main_arg4) _
  rw [V_main_arg4]
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! ## The adjacency window -/

/-- The adjacency window's block at a point whose row block is `b`: rows 200·b … 200·b + 199, all columns. -/
theorem blk0_at (t : Fin cfg0.N) (b : Nat) (hb : b < 50) (h0 : win0_0.index t (0 : Fin 2) = b) (h1 : win0_0.index t (1 : Fin 2) = 0)
    (p : Fin 200) (j : Fin 10000) :
    (iblk m c 0 t : S200x10000.Idx → Elt F .f32) (ix2 p j)
      = (m ((c.tc : Thread nD τ).loc main_arg1) : S10000x10000.Idx → Elt F .f32) (ix2 (⟨200 * b + p.val, by omega⟩ : Fin 10000) j) := by
  unfold iblk
  rw [View.read_apply]
  show V m c main_arg1 _ = m (c.tc.loc main_arg1) _
  rw [V_main_arg1]
  congr 1
  funext a
  apply Fin.ext
  match a with
  | ⟨0, _⟩ => show win0_0.index t (0 : Fin 2) * 200 + 1 * p.val = 200 * b + p.val; rw [h0]; omega
  | ⟨1, _⟩ => show win0_0.index t (1 : Fin 2) * 10000 + 1 * j.val = j.val; rw [h1]; omega

/-- During the first layer (t < 50) the adjacency block is row block t. -/
theorem blk0_lo (t : Fin cfg0.N) (ht : t.val < 50) (p : Fin 200) (j : Fin 10000) :
    (iblk m c 0 t : S200x10000.Idx → Elt F .f32) (ix2 p j)
      = (m ((c.tc : Thread nD τ).loc main_arg1) : S10000x10000.Idx → Elt F .f32) (ix2 (⟨200 * t.val + p.val, by omega⟩ : Fin 10000) j) :=
  blk0_at m c t t.val ht (idx0_lo t ht).1 (idx0_lo t ht).2 p j

/-- On the streamed part of the second layer (50 ≤ t < 94) the adjacency block is row block 99 - t. -/
theorem blk0_hi (t : Fin cfg0.N) (h50 : 50 ≤ t.val) (h94 : t.val < 94) (p : Fin 200) (j : Fin 10000) :
    (iblk m c 0 t : S200x10000.Idx → Elt F .f32) (ix2 p j)
      = (m ((c.tc : Thread nD τ).loc main_arg1) : S10000x10000.Idx → Elt F .f32) (ix2 (⟨200 * (99 - t.val) + p.val, by omega⟩ : Fin 10000) j) :=
  blk0_at m c t (99 - t.val) (by omega) (idx0_hi t h50 h94).1 (idx0_hi t h50 h94).2 p j

/-! ## The windows a host operation wrote -/

/-- A rank-1 array of 128 viewed as one row reads, at column k of its row, entry k. -/
theorem row_read {α : Type} (x : S128.Idx → α) (k : Fin 128) :
    shapeCast S1x128 x shapeCasts_S128_S1x128 (ix2 (0 : Fin 1) k) = x (ix1 k) := by
  refine shapeCast_apply x _ (ix2 (0 : Fin 1) k) (ix1 k) ?_
  rw [Shape.rowMajor_val_one, Shape.rowMajor_val_two]
  show k.val = (0 : Fin 1).val * 128 + k.val
  simp

/-- The first layer's bias as the region finds it: the rank-1 argument viewed as one row. -/
theorem V3_eq : (V m c main_call0_v0 : S1x128.Idx → Elt F .f32)
    = shapeCast S1x128 (m ((c.tc : Thread nD τ).loc main_arg3) : S128.Idx → Elt F .f32) shapeCasts_S128_S1x128 := by
  dsimp only [Gen.V, Gen.hostOps0]
  after_results
  rfl
/-- The second layer's bias as the region finds it. -/
theorem V5_eq : (V m c main_call0_v1 : S1x128.Idx → Elt F .f32)
    = shapeCast S1x128 (m ((c.tc : Thread nD τ).loc main_arg5) : S128.Idx → Elt F .f32) shapeCasts_S128_S1x128 := by
  dsimp only [Gen.V, Gen.hostOps0]
  after_results
  rfl
/-- The output projection's bias as the region finds it. -/
theorem V8_eq : (V m c main_call0_v4 : S1x128.Idx → Elt F .f32)
    = shapeCast S1x128 (m ((c.tc : Thread nD τ).loc main_arg7) : S128.Idx → Elt F .f32) shapeCasts_S128_S1x128 := by
  dsimp only [Gen.V, Gen.hostOps0]
  after_results
  rfl

/-- Window 3's block is the first layer's bias as one row. -/
theorem blk3 (t : Fin cfg0.N) (k : Fin 128) :
    (iblk m c 3 t : S1x128.Idx → Elt F .f32) (ix2 (0 : Fin 1) k) = (m ((c.tc : Thread nD τ).loc main_arg3) : S128.Idx → Elt F .f32) (ix1 k) := by
  obtain ⟨-, -, -, -, e0, e1, -⟩ := idx_const t
  unfold iblk
  rw [View.read_apply]
  show V m c main_call0_v0 _ = _
  have h : (((cfg0.win 3).blk t).view.emb (ix2 (0 : Fin 1) k) : S1x128.Idx) = ix2 (0 : Fin 1) k := by
    funext a
    apply Fin.ext
    match a with
    | ⟨0, _⟩ => show win0_3.index t (0 : Fin 2) * 1 + 1 * (0 : Fin 1).val = (0 : Fin 1).val; rw [e0]; omega
    | ⟨1, _⟩ => show win0_3.index t (1 : Fin 2) * 128 + 1 * k.val = k.val; rw [e1]; omega
  rw [h, V3_eq, row_read]

/-- Window 5's block is the second layer's bias as one row. -/
theorem blk5 (t : Fin cfg0.N) (k : Fin 128) :
    (iblk m c 5 t : S1x128.Idx → Elt F .f32) (ix2 (0 : Fin 1) k) = (m ((c.tc : Thread nD τ).loc main_arg5) : S128.Idx → Elt F .f32) (ix1 k) := by
  obtain ⟨-, -, -, -, -, -, -, -, e0, e1, -⟩ := idx_const t
  unfold iblk
  rw [View.read_apply]
  show V m c main_call0_v1 _ = _
  have h : (((cfg0.win 5).blk t).view.emb (ix2 (0 : Fin 1) k) : S1x128.Idx) = ix2 (0 : Fin 1) k := by
    funext a
    apply Fin.ext
    match a with
    | ⟨0, _⟩ => show win0_5.index t (0 : Fin 2) * 1 + 1 * (0 : Fin 1).val = (0 : Fin 1).val; rw [e0]; omega
    | ⟨1, _⟩ => show win0_5.index t (1 : Fin 2) * 128 + 1 * k.val = k.val; rw [e1]; omega
  rw [h, V5_eq, row_read]

/-- Window 8's block is the output projection's bias as one row. -/
theorem blk8 (t : Fin cfg0.N) (k : Fin 128) :
    (iblk m c 8 t : S1x128.Idx → Elt F .f32) (ix2 (0 : Fin 1) k) = (m ((c.tc : Thread nD τ).loc main_arg7) : S128.Idx → Elt F .f32) (ix1 k) := by
  obtain ⟨-, -, -, -, -, -, -, -, -, -, -, -, -, -, e0, e1⟩ := idx_const t
  unfold iblk
  rw [View.read_apply]
  show V m c main_call0_v4 _ = _
  have h : (((cfg0.win 8).blk t).view.emb (ix2 (0 : Fin 1) k) : S1x128.Idx) = ix2 (0 : Fin 1) k := by
    funext a
    apply Fin.ext
    match a with
    | ⟨0, _⟩ => show win0_8.index t (0 : Fin 2) * 1 + 1 * (0 : Fin 1).val = (0 : Fin 1).val; rw [e0]; omega
    | ⟨1, _⟩ => show win0_8.index t (1 : Fin 2) * 128 + 1 * k.val = k.val; rw [e1]; omega
  rw [h, V8_eq, row_read]

/-- Rows 0 … 127 of the output projection's matrix as the region finds them. -/
theorem V6_eq : (V m c main_call0_v2 : S128x128.Idx → Elt F .f32)
    = extractStridedSlice S128x128 ![0, 0] (m ((c.tc : Thread nD τ).loc main_arg6) : S256x128.Idx → Elt F .f32) slices_S256x128_S128x128_0_0 := by
  dsimp only [Gen.V, Gen.hostOps0]
  after_results
  rfl
/-- Rows 128 … 255 of the output projection's matrix as the region finds them. -/
theorem V7_eq : (V m c main_call0_v3 : S128x128.Idx → Elt F .f32)
    = extractStridedSlice S128x128 ![128, 0] (m ((c.tc : Thread nD τ).loc main_arg6) : S256x128.Idx → Elt F .f32) slices_S256x128_S128x128_128_0 := by
  dsimp only [Gen.V, Gen.hostOps0]
  after_results
  rfl

/-- The slice of rows r … r + 127 read at (l, k) is the matrix at (r + l, k). -/
theorem slice_read {α : Type} (r : Nat) (hr : r + 128 ≤ 256) (x : S256x128.Idx → α) (h : S256x128.Slices ![r, 0] S128x128) (l k : Fin 128) :
    extractStridedSlice S128x128 ![r, 0] x h (ix2 l k) = x (ix2 (⟨r + l.val, by omega⟩ : Fin 256) k) := by
  refine extractStridedSlice_apply ![r, 0] x h (ix2 l k) _ fun a => ?_
  match a with
  | ⟨0, _⟩ => rfl
  | ⟨1, _⟩ => show k.val = 0 + k.val; omega

/-- Window 6's block is rows 0 … 127 of the output projection's matrix. -/
theorem blk6 (t : Fin cfg0.N) (l k : Fin 128) :
    (iblk m c 6 t : S128x128.Idx → Elt F .f32) (ix2 l k) = (m ((c.tc : Thread nD τ).loc main_arg6) : S256x128.Idx → Elt F .f32) (ix2 (⟨l.val, by omega⟩ : Fin 256) k) := by
  obtain ⟨-, -, -, -, -, -, -, -, -, -, e0, e1, -⟩ := idx_const t
  unfold iblk
  rw [View.read_apply]
  show V m c main_call0_v2 _ = _
  have h : (((cfg0.win 6).blk t).view.emb (ix2 l k) : S128x128.Idx) = ix2 l k := by
    funext a
    apply Fin.ext
    match a with
    | ⟨0, _⟩ => show win0_6.index t (0 : Fin 2) * 128 + 1 * l.val = l.val; rw [e0]; omega
    | ⟨1, _⟩ => show win0_6.index t (1 : Fin 2) * 128 + 1 * k.val = k.val; rw [e1]; omega
  rw [h, V6_eq, slice_read 0 (by omega)]
  congr 1
  funext a
  apply Fin.ext
  match a with
  | ⟨0, _⟩ => show 0 + l.val = l.val; omega
  | ⟨1, _⟩ => rfl

/-- Window 7's block is rows 128 … 255 of the output projection's matrix. -/
theorem blk7 (t : Fin cfg0.N) (l k : Fin 128) :
    (iblk m c 7 t : S128x128.Idx → Elt F .f32) (ix2 l k) = (m ((c.tc : Thread nD τ).loc main_arg6) : S256x128.Idx → Elt F .f32) (ix2 (⟨128 + l.val, by omega⟩ : Fin 256) k) := by
  obtain ⟨-, -, -, -, -, -, -, -, -, -, -, -, e0, e1, -⟩ := idx_const t
  unfold iblk
  rw [View.read_apply]
  show V m c main_call0_v3 _ = _
  have h : (((cfg0.win 7).blk t).view.emb (ix2 l k) : S128x128.Idx) = ix2 l k := by
    funext a
    apply Fin.ext
    match a with
    | ⟨0, _⟩ => show win0_7.index t (0 : Fin 2) * 128 + 1 * l.val = l.val; rw [e0]; omega
    | ⟨1, _⟩ => show win0_7.index t (1 : Fin 2) * 128 + 1 * k.val = k.val; rw [e1]; omega
  rw [h, V7_eq, slice_read 128 (by omega)]

/-! ## The output window -/

/-- The output is written back exactly at the second layer's points. -/
theorem flush9_iff : ∀ t : Fin cfg0.N, (cfg0.win 9).flush t = true ↔ 50 ≤ t.val :=
  (by decide +kernel : ∀ t : Fin grid0.N, (cfg0.win 9).flush t = true ↔ 50 ≤ t.val)

/-- The output window's block at a point whose row block is `b`, read off any contents `G` of the output array:
    rows 200·b … 200·b + 199. -/
theorem out_read_at (G : Buf (Elt F) ((cfg0.win 9).arr.view.loc (c.tc : Thread nD τ))) (t : Fin cfg0.N) (b : Nat) (hb : b < 50)
    (h0 : win0_9.index t (0 : Fin 2) = b) (h1 : win0_9.index t (1 : Fin 2) = 0) (p : Fin 200) (k : Fin 128) :
    (((cfg0.win 9).blk t).view.read (Elt F) G : S200x128.Idx → Elt F .f32) (ix2 p k)
      = (G : S10000x128.Idx → Elt F .f32) (ix2 (⟨200 * b + p.val, by omega⟩ : Fin 10000) k) := by
  rw [View.read_apply]
  show (G : S10000x128.Idx → Elt F .f32) _ = (G : S10000x128.Idx → Elt F .f32) _
  congr 1
  funext a
  apply Fin.ext
  match a with
  | ⟨0, _⟩ => show win0_9.index t (0 : Fin 2) * 200 + 1 * p.val = 200 * b + p.val; rw [h0]; omega
  | ⟨1, _⟩ => show win0_9.index t (1 : Fin 2) * 128 + 1 * k.val = k.val; rw [h1]; omega

/-- On the streamed part of the second layer (50 ≤ t < 94) the output block is row block 99 - t. -/
theorem out_read_mid (G : Buf (Elt F) ((cfg0.win 9).arr.view.loc (c.tc : Thread nD τ))) (t : Fin cfg0.N) (h50 : 50 ≤ t.val) (h94 : t.val < 94)
    (p : Fin 200) (k : Fin 128) :
    (((cfg0.win 9).blk t).view.read (Elt F) G : S200x128.Idx → Elt F .f32) (ix2 p k)
      = (G : S10000x128.Idx → Elt F .f32) (ix2 (⟨200 * (99 - t.val) + p.val, by omega⟩ : Fin 10000) k) :=
  out_read_at c G t (99 - t.val) (by omega) (idx9_mid t h50 h94).1 (idx9_mid t h50 h94).2 p k

/-- On the kept part (t ≥ 94) the output block is row block t - 94. -/
theorem out_read_top (G : Buf (Elt F) ((cfg0.win 9).arr.view.loc (c.tc : Thread nD τ))) (t : Fin cfg0.N) (h94 : 94 ≤ t.val)
    (p : Fin 200) (k : Fin 128) :
    (((cfg0.win 9).blk t).view.read (Elt F) G : S200x128.Idx → Elt F .f32) (ix2 p k)
      = (G : S10000x128.Idx → Elt F .f32) (ix2 (⟨200 * (t.val - 94) + p.val, by have := lt_of_lt_of_eq t.isLt N_0; omega⟩ : Fin 10000) k) :=
  out_read_at c G t (t.val - 94) (by have := lt_of_lt_of_eq t.isLt N_0; omega) (idx9_top t h94).1 (idx9_top t h94).2 p k

/-- The row block the output window holds at a point of the second layer. -/
def outBlock (t : Nat) : Nat := if t < 94 then 99 - t else t - 94

theorem outBlock_lt (t : Nat) (h50 : 50 ≤ t) (h100 : t < 100) : outBlock t < 50 := by
  unfold outBlock; split_ifs <;> omega

/-- Both ranges at once: at a point t ≥ 50 the output block is row block `outBlock t`. -/
theorem out_read (G : Buf (Elt F) ((cfg0.win 9).arr.view.loc (c.tc : Thread nD τ))) (t : Fin cfg0.N) (h50 : 50 ≤ t.val)
    (p : Fin 200) (k : Fin 128) :
    (((cfg0.win 9).blk t).view.read (Elt F) G : S200x128.Idx → Elt F .f32) (ix2 p k)
      = (G : S10000x128.Idx → Elt F .f32) (ix2 (⟨200 * outBlock t.val + p.val,
          by have := outBlock_lt t.val h50 (lt_of_lt_of_eq t.isLt N_0); omega⟩ : Fin 10000) k) := by
  have h100 : t.val < 100 := lt_of_lt_of_eq t.isLt N_0
  by_cases h94 : t.val < 94
  · exact out_read_at c G t (outBlock t.val) (outBlock_lt t.val h50 h100)
      ((idx9_mid t h50 h94).1.trans (by unfold outBlock; rw [if_pos h94])) (idx9_mid t h50 h94).2 p k
  · exact out_read_at c G t (outBlock t.val) (outBlock_lt t.val h50 h100)
      ((idx9_top t (by omega)).1.trans (by unfold outBlock; rw [if_neg h94])) (idx9_top t (by omega)).2 p k

/-- An index of the output array is in point t's block iff each coordinate is in the block's range on its axis. -/
theorem mem_blk9 (t : Fin cfg0.N) (i : S10000x128.Idx) :
    i ∈ ((cfg0.win 9).blk t).view.set ↔ ∀ a : Fin 2, win0_9.index t a * S200x128.size a ≤ (i a).val ∧ (i a).val < win0_9.index t a * S200x128.size a + S200x128.size a := by
  show i ∈ ((View.whole main_v0).slice (win0_9.rect t)).set ↔ _
  rw [View.set_slice_whole, Rect.mem_set_unit]
  exact Iff.rfl

/-- Every row of the output lies in a block that is written back: row r lies in row block b = r / 200, written at
    point 99 - b if b ≥ 6 and at point 94 + b if b < 6. -/
theorem out_cover' (i : S10000x128.Idx) : ∃ t : Fin cfg0.N, (cfg0.win 9).flush t = true ∧ i ∈ ((cfg0.win 9).blk t).view.set := by
  have hi0 : (i 0).val < 10000 := (i 0).isLt
  have hi1 : (i 1).val < 128 := (i 1).isLt
  by_cases hb : (i 0).val / 200 < 6
  · obtain ⟨t, ht⟩ : ∃ t : Fin cfg0.N, t.val = 94 + (i 0).val / 200 :=
      ⟨⟨94 + (i 0).val / 200, lt_of_lt_of_eq (by omega : 94 + (i 0).val / 200 < 100) N_0.symm⟩, rfl⟩
    obtain ⟨e0, e1⟩ := idx9_top t (by omega)
    refine ⟨t, (flush9_iff t).mpr (by omega), ?_⟩
    rw [mem_blk9]
    intro a
    match a with
    | ⟨0, _⟩ => show win0_9.index t (0 : Fin 2) * 200 ≤ (i 0).val ∧ (i 0).val < win0_9.index t (0 : Fin 2) * 200 + 200; rw [e0]; omega
    | ⟨1, _⟩ => show win0_9.index t (1 : Fin 2) * 128 ≤ (i 1).val ∧ (i 1).val < win0_9.index t (1 : Fin 2) * 128 + 128; rw [e1]; omega
  · obtain ⟨t, ht⟩ : ∃ t : Fin cfg0.N, t.val = 99 - (i 0).val / 200 :=
      ⟨⟨99 - (i 0).val / 200, lt_of_lt_of_eq (by omega : 99 - (i 0).val / 200 < 100) N_0.symm⟩, rfl⟩
    obtain ⟨e0, e1⟩ := idx9_mid t (by omega) (by omega)
    refine ⟨t, (flush9_iff t).mpr (by omega), ?_⟩
    rw [mem_blk9]
    intro a
    match a with
    | ⟨0, _⟩ => show win0_9.index t (0 : Fin 2) * 200 ≤ (i 0).val ∧ (i 0).val < win0_9.index t (0 : Fin 2) * 200 + 200; rw [e0]; omega
    | ⟨1, _⟩ => show win0_9.index t (1 : Fin 2) * 128 ≤ (i 1).val ∧ (i 1).val < win0_9.index t (1 : Fin 2) * 128 + 128; rw [e1]; omega

/-- The same, over the output array's own index type. -/
theorem out_cover : ∀ i : ((cfg0.win 9).arr.view.loc (c.tc : Thread nD τ)).2.ty.Idx,
    ∃ t : Fin cfg0.N, (cfg0.win 9).flush t = true ∧ i ∈ ((cfg0.win 9).blk t).view.set :=
  fun i => out_cover' i

end Cert.KernelIdeal.Blocks

end
-- ==== Proof.KI.PayIdx.lean ====
/-
  The payloads of the kernel's body at an index, over the extended reals.
  A matrix product into a zero accumulator is, entry by entry, the sum over the contracted positions of the products
  of the operands' entries; a change of float format is the identity; a cast to the same shape is the identity; a
  cast between [a, b] and [1, a, b] keeps the two coordinates; a row [1, b] broadcast to [a, b] reads its one row; the
  zero literal is 0 and the maximum with it is max · 0. So:
    payload 1 = feats · W                                   payload 2 = max (A · B + bias) 0
    payload 3 = payload 2 · W                               payload 4 = payload 2 · W + bias (stored as one [1, 200, 128] block)
    payload 5 = A (stored as one [1, 200, 10000] block)      payload 6 = its operand
    payloads 7, 8 = max (A · B + bias) 0 · W + the carried block.
-/
import proofs.«159059_g88923002896512_cont_sun_m_248_23_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayIdx

open Cert.KernelIdeal Cert.KernelIdeal.Gen Idealize.ShloMosaic Idealize.ShloMosaic.ValueIdx
open scoped BigOperators

/-- Row of the left operand index of the 10000×128 by 128×128 product: the result's row. -/
theorem lhsRow_A (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- Column of the right operand index of the 10000×128 by 128×128 product: the result's column. -/
theorem rhsCol_A (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The 10000×128 by 128×128 product into a zero accumulator, at (r, c): the sum over the 128 contracted positions. -/
theorem matmul_A {φ₁ φ₂ : FTy} (L : FVec Ideal S10000x128 φ₁) (R : FVec Ideal S128x128 φ₂) (r : Fin 10000) (c : Fin 128) :
    matmul dot_S10000x128_S128x128_S10000x128_1_0_0_1_n_n none L R (constant (F := Ideal) S10000x128 .f32 0x00000000#32) (ix2 r c)
      = ∑ l : Fin 128, L (ix2 r l) * R (ix2 l c) := by
  refine (Ideal.matmul_constant_zero_apply dot_S10000x128_S128x128_S10000x128_1_0_0_1_n_n none L R (ix2 r c)).trans ?_
  rw [← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 r c) ((contrEquiv1 dot_S10000x128_S128x128_S10000x128_1_0_0_1_n_n 128 rfl rfl).symm l) = ix2 r l :=
    funext fun a => Fin.ext (by
      match a with
      | ⟨0, _⟩ => exact lhsRow_A _ _
      | ⟨1, _⟩ => exact (dot_S10000x128_S128x128_S10000x128_1_0_0_1_n_n.lhsIdx_val_of_single rfl _ _).trans hl)
  have er : dot_S10000x128_S128x128_S10000x128_1_0_0_1_n_n.rhsIdx (ix2 r c) ((contrEquiv1 dot_S10000x128_S128x128_S10000x128_1_0_0_1_n_n 128 rfl rfl).symm l) = ix2 l c :=
    funext fun a => Fin.ext (by
      match a with
      | ⟨0, _⟩ => exact (dot_S10000x128_S128x128_S10000x128_1_0_0_1_n_n.rhsIdx_val_of_single rfl _ _).trans hl
      | ⟨1, _⟩ => exact rhsCol_A _ _)
  rw [el, er]

/-- Row of the left operand index of the 200×10000 by 10000×128 product: the result's row. -/
theorem lhsRow_B (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl

/-- Column of the right operand index of the 200×10000 by 10000×128 product: the result's column. -/
theorem rhsCol_B (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- The 200×10000 by 10000×128 product into a zero accumulator, at (r, c): the sum over the 10000 contracted positions. -/
theorem matmul_B {φ₁ φ₂ : FTy} (L : FVec Ideal S200x10000 φ₁) (R : FVec Ideal S10000x128 φ₂) (r : Fin 200) (c : Fin 128) :
    matmul dot_S200x10000_S10000x128_S200x128_1_0_0_1_n_n none L R (constant (F := Ideal) S200x128 .f32 0x00000000#32) (ix2 r c)
      = ∑ l : Fin 10000, L (ix2 r l) * R (ix2 l c) := by
  refine (Ideal.matmul_constant_zero_apply dot_S200x10000_S10000x128_S200x128_1_0_0_1_n_n none L R (ix2 r c)).trans ?_
  rw [← Equiv.sum_comp (contrEquiv1 dot_S200x10000_S10000x128_S200x128_1_0_0_1_n_n 10000 rfl rfl).symm]
  refine Finset.sum_congr rfl fun l _ => ?_
  have hl := contrEquiv1_symm_val dot_S200x10000_S10000x128_S200x128_1_0_0_1_n_n 10000 rfl rfl l
  have el : dot_S200x10000_S10000x128_S200x128_1_0_0_1_n_n.lhsIdx (ix2 r c) ((contrEquiv1 dot_S200x10000_S10000x128_S200x128_1_0_0_1_n_n 10000 rfl rfl).symm l) = ix2 r l :=
    funext fun a => Fin.ext (by
      match a with
      | ⟨0, _⟩ => exact lhsRow_B _ _
      | ⟨1, _⟩ => exact (dot_S200x10000_S10000x128_S200x128_1_0_0_1_n_n.lhsIdx_val_of_single rfl _ _).trans hl)
  have er : dot_S200x10000_S10000x128_S200x128_1_0_0_1_n_n.rhsIdx (ix2 r c) ((contrEquiv1 dot_S200x10000_S10000x128_S200x128_1_0_0_1_n_n 10000 rfl rfl).symm l) = ix2 l c :=
    funext fun a => Fin.ext (by
      match a with
      | ⟨0, _⟩ => exact (dot_S200x10000_S10000x128_S200x128_1_0_0_1_n_n.rhsIdx_val_of_single rfl _ _).trans hl
      | ⟨1, _⟩ => exact rhsCol_B _ _)
  rw [el, er]

/-- Row of the left operand index of the 200×128 by 128×128 product: the result's row. -/
theorem lhsRow_C (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide),
    dif_pos (show (0 : Fin S200x128.rank) ∈ dot_S200x128_S128x128_S200x128_1_0_0_1_n_n.lhsNonContracting by decide)]
  rfl

/-- Column of the right operand index of the 200×128 by 128×128 product: the result's column. -/
theorem rhsCol_C (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide),
    dif_pos (show (1 : Fin S128x128.rank) ∈ dot_S200x128_S128x128_S200x128_1_0_0_1_n_n.rhsNonContracting by decide)]
  rfl

/-- The 200×128 by 128×128 product into a zero accumulator, at (r, c): the sum over the 128 contracted positions. -/
theorem matmul_C {φ₁ φ₂ : FTy} (L : FVec Ideal S200x128 φ₁) (R : FVec Ideal S128x128 φ₂) (r : Fin 200) (c : Fin 128) :
    matmul dot_S200x128_S128x128_S200x128_1_0_0_1_n_n none L R (constant (F := Ideal) S200x128 .f32 0x00000000#32) (ix2 r c)
      = ∑ l : Fin 128, L (ix2 r l) * R (ix2 l c) := by
  refine (Ideal.matmul_constant_zero_apply dot_S200x128_S128x128_S200x128_1_0_0_1_n_n none L R (ix2 r c)).trans ?_
  rw [← Equiv.sum_comp (contrEquiv1 dot_S200x128_S128x128_S200x128_1_0_0_1_n_n 128 rfl rfl).symm]
  refine Finset.sum_congr rfl fun l _ => ?_
  have hl := contrEquiv1_symm_val dot_S200x128_S128x128_S200x128_1_0_0_1_n_n 128 rfl rfl l
  have el : dot_S200x128_S128x128_S200x128_1_0_0_1_n_n.lhsIdx (ix2 r c) ((contrEquiv1 dot_S200x128_S128x128_S200x128_1_0_0_1_n_n 128 rfl rfl).symm l) = ix2 r l :=
    funext fun a => Fin.ext (by
      match a with
      | ⟨0, _⟩ => exact lhsRow_C _ _
      | ⟨1, _⟩ => exact (dot_S200x128_S128x128_S200x128_1_0_0_1_n_n.lhsIdx_val_of_single rfl _ _).trans hl)
  have er : dot_S200x128_S128x128_S200x128_1_0_0_1_n_n.rhsIdx (ix2 r c) ((contrEquiv1 dot_S200x128_S128x128_S200x128_1_0_0_1_n_n 128 rfl rfl).symm l) = ix2 l c :=
    funext fun a => Fin.ext (by
      match a with
      | ⟨0, _⟩ => exact (dot_S200x128_S128x128_S200x128_1_0_0_1_n_n.rhsIdx_val_of_single rfl _ _).trans hl
      | ⟨1, _⟩ => exact rhsCol_C _ _)
  rw [el, er]

/-- One layer at (p, k): max (A · B + bias) 0, the bias row read at its column. -/
theorem layer_at {φ₁ φ₂ : FTy} (A : FVec Ideal S200x10000 φ₁) (B : FVec Ideal S10000x128 φ₂) (b : FVec Ideal S1x128 .f32)
    (p : Fin 200) (k : Fin 128) :
    maximumf (addf (matmul dot_S200x10000_S10000x128_S200x128_1_0_0_1_n_n none A B (constant (F := Ideal) S200x128 .f32 0x00000000#32))
        (broadcastTo S200x128 (shapeCast S1x128 b shapeCasts_S1x128_S1x128) broadcasts_S1x128_S200x128))
      (broadcast S200x128 (Scalar.ofBits (F := Ideal) .f32 0x00000000#32)) (ix2 p k)
      = max ((∑ j : Fin 10000, A (ix2 p j) * B (ix2 j k)) + b (ix2 (0 : Fin 1) k)) 0 := by
  rw [maximumf_apply, addf_apply, matmul_B, shapeCast_self, broadcastTo_1b_ab_apply]
  show max _ (Ideal.ofBits .f32 0x00000000#32) = _
  rw [Ideal.ofBits_zero_f32]

/-- Payload 1 at (j, k): the product feats · W, a sum over the 128 contracted positions. -/
theorem pay1_at (v20 : Vec Ideal S10000x128 .f32) (v21 : Vec Ideal S128x128 .f32) (j : Fin 10000) (k : Fin 128) :
    k0_pay1 (F := Ideal) v20 v21 (ix2 j k) = ∑ l : Fin 128, v20 (ix2 j l) * v21 (ix2 l k) := by
  unfold k0_pay1
  rw [shapeCast_self]
  exact matmul_A (φ₁ := .f32) (φ₂ := .f32) v20 v21 j k

/-- Payload 2 at (p, k): one layer, max (A · B + bias) 0, a sum over the 10000 contracted positions. -/
theorem pay2_at (v20 : Vec Ideal S200x10000 .f32) (v22 : Vec Ideal S10000x128 .bf16) (v24 : Vec Ideal S1x128 .f32)
    (p : Fin 200) (k : Fin 128) :
    k0_pay2 (F := Ideal) v20 v22 v24 (ix2 p k)
      = max ((∑ j : Fin 10000, v20 (ix2 p j) * v22 (ix2 j k)) + v24 (ix2 (0 : Fin 1) k)) 0 := by
  unfold k0_pay2
  exact layer_at (φ₁ := .bf16) (φ₂ := .bf16) (truncf .bf16 v20 bitsLt_bf16_f32) v22 v24 p k

/-- Payload 3 at (p, k): payload 2 times W, a sum over the 128 contracted positions. -/
theorem pay3_at (v20 : Vec Ideal S200x10000 .f32) (v22 : Vec Ideal S10000x128 .bf16) (v24 : Vec Ideal S1x128 .f32)
    (v30 : Vec Ideal S128x128 .f32) (p : Fin 200) (k : Fin 128) :
    k0_pay3 (F := Ideal) v20 v22 v24 v30 (ix2 p k)
      = ∑ l : Fin 128, k0_pay2 (F := Ideal) v20 v22 v24 (ix2 p l) * v30 (ix2 l k) := by
  unfold k0_pay3
  rw [shapeCast_self]
  exact matmul_C (φ₁ := .f32) (φ₂ := .f32) (k0_pay2 (F := Ideal) v20 v22 v24) v30 p k

/-- Payload 4 at (0, p, k): payload 2 times W plus the bias row, stored as one [1, 200, 128] block. -/
theorem pay4_at (v20 : Vec Ideal S200x10000 .f32) (v22 : Vec Ideal S10000x128 .bf16) (v24 : Vec Ideal S1x128 .f32)
    (v37 : Vec Ideal S128x128 .f32) (v40 : Vec Ideal S1x128 .f32) (p : Fin 200) (k : Fin 128) :
    k0_pay4 (F := Ideal) v20 v22 v24 v37 v40 (ix3 (0 : Fin 1) p k)
      = (∑ l : Fin 128, k0_pay2 (F := Ideal) v20 v22 v24 (ix2 p l) * v37 (ix2 l k)) + v40 (ix2 (0 : Fin 1) k) := by
  unfold k0_pay4
  rw [shapeCast_ab_1ab_apply, truncf_apply, addf_apply, shapeCast_self, shapeCast_self, broadcastTo_1b_ab_apply]
  exact congrArg (· + v40 (ix2 (0 : Fin 1) k))
    (matmul_C (φ₁ := .f32) (φ₂ := .f32) (k0_pay2 (F := Ideal) v20 v22 v24) v37 p k)

/-- Payload 5 at (0, p, j): its operand at (p, j), stored as one [1, 200, 10000] block. -/
theorem pay5_at (v20 : Vec Ideal S200x10000 .f32) (p : Fin 200) (j : Fin 10000) :
    k0_pay5 (F := Ideal) v20 (ix3 (0 : Fin 1) p j) = v20 (ix2 p j) := by
  unfold k0_pay5
  rw [shapeCast_ab_1ab_apply]
  rfl

/-- Payload 6 is its operand: a change of format and a cast to the same shape change no value. -/
theorem pay6_eq (v20 : Vec Ideal S10000x128 .f32) : k0_pay6 (F := Ideal) v20 = v20 := by
  unfold k0_pay6
  dsimp only
  rw [shapeCast_self]
  rfl

/-- Payload 7 at (p, k): one layer times W, plus the carried [1, 200, 128] block at (0, p, k). -/
theorem pay7_at (v21 : Vec Ideal S200x10000 .f32) (v23 : Vec Ideal S10000x128 .bf16) (v25 : Vec Ideal S1x128 .f32)
    (v31 : Vec Ideal S128x128 .f32) (v35 : Vec Ideal S1x200x128 .bf16) (p : Fin 200) (k : Fin 128) :
    k0_pay7 (F := Ideal) v21 v23 v25 v31 v35 (ix2 p k)
      = (∑ l : Fin 128, (max ((∑ j : Fin 10000, v21 (ix2 p j) * v23 (ix2 j l)) + v25 (ix2 (0 : Fin 1) l)) 0) * v31 (ix2 l k))
        + v35 (ix3 (0 : Fin 1) p k) := by
  unfold k0_pay7
  rw [addf_apply, extf_apply, shapeCast_1ab_ab_apply, matmul_C]
  refine congrArg (· + v35 (ix3 (0 : Fin 1) p k)) (Finset.sum_congr rfl fun l _ => ?_)
  rw [layer_at, shapeCast_self]
  rfl

/-- Payload 8 at (p, k): as payload 7, the left operand read from its [1, 200, 10000] block at (0, p, j). -/
theorem pay8_at (v22 : Vec Ideal S1x200x10000 .bf16) (v24 : Vec Ideal S10000x128 .bf16) (v26 : Vec Ideal S1x128 .f32)
    (v32 : Vec Ideal S128x128 .f32) (v36 : Vec Ideal S1x200x128 .bf16) (p : Fin 200) (k : Fin 128) :
    k0_pay8 (F := Ideal) v22 v24 v26 v32 v36 (ix2 p k)
      = (∑ l : Fin 128, (max ((∑ j : Fin 10000, v22 (ix3 (0 : Fin 1) p j) * v24 (ix2 j l)) + v26 (ix2 (0 : Fin 1) l)) 0) * v32 (ix2 l k))
        + v36 (ix3 (0 : Fin 1) p k) := by
  unfold k0_pay8
  rw [addf_apply, extf_apply, shapeCast_1ab_ab_apply, matmul_C]
  refine congrArg (· + v36 (ix3 (0 : Fin 1) p k)) (Finset.sum_congr rfl fun l _ => ?_)
  rw [layer_at, shapeCast_self]
  simp only [shapeCast_1ab_ab_apply]

end Cert.KernelIdeal.PayIdx

end
-- ==== Proof.Spec.lean ====
/-
  The two-layer graph convolution with concatenated layer outputs, as one function of the argument arrays on the
  extended reals, index by index:
    XW  = feats · W1                          H1 = max (adj · XW + b1) 0
    HW  = H1 · W2                             H2 = max (adj · HW + b2) 0
    out = H2 · Wout[128:] + (H1 · Wout[:128] + bout)
  The last line is the result [H1 | H2] · Wout + bout with the sum over the 256 joined columns split into its two
  halves of 128 and regrouped; only commutativity and associativity of addition separate the two forms.
-/
import Idealize.ShloMosaic.PureOps.Ideal
import Idealize.ShloMosaic.Lib.ValueIdx

noncomputable section

namespace Cert.Spec

open Idealize.ShloMosaic Idealize.ShloMosaic.ValueIdx
open scoped BigOperators

/-- a matrix of extended reals over a literal shape -/
abbrev Mat (a b : ℕ) : Type := (⟨2, ![a, b]⟩ : Shape).Idx → EReal
/-- a vector of extended reals over a literal shape -/
abbrev Row (a : ℕ) : Type := (⟨1, ![a]⟩ : Shape).Idx → EReal

variable (feats : Mat 10000 128) (adj : Mat 10000 10000) (W1 : Mat 128 128) (b1 : Row 128) (W2 : Mat 128 128)
  (b2 : Row 128) (Wout : Mat 256 128) (bout : Row 128)

/-- feats · W1 -/
def xw (j : Fin 10000) (k : Fin 128) : EReal := ∑ l : Fin 128, feats (ix2 j l) * W1 (ix2 l k)
/-- the first layer: max (adj · (feats · W1) + b1) 0 -/
def h1 (r : Fin 10000) (k : Fin 128) : EReal :=
  max ((∑ j : Fin 10000, adj (ix2 r j) * xw feats W1 j k) + b1 (ix1 k)) 0
/-- H1 · W2 -/
def hw (j : Fin 10000) (k : Fin 128) : EReal := ∑ l : Fin 128, h1 feats adj W1 b1 j l * W2 (ix2 l k)
/-- the second layer: max (adj · (H1 · W2) + b2) 0 -/
def h2 (r : Fin 10000) (k : Fin 128) : EReal :=
  max ((∑ j : Fin 10000, adj (ix2 r j) * hw feats adj W1 b1 W2 j k) + b2 (ix1 k)) 0
/-- column k of the first half of the 256 joined columns -/
def lo (k : Fin 128) : Fin 256 := ⟨k.val, by omega⟩
/-- column k of the second half of the 256 joined columns -/
def hi (k : Fin 128) : Fin 256 := ⟨128 + k.val, by omega⟩
/-- H2 · Wout[128:] + (H1 · Wout[:128] + bout) -/
def out (r : Fin 10000) (c : Fin 128) : EReal :=
  (∑ k : Fin 128, h2 feats adj W1 b1 W2 b2 r k * Wout (ix2 (hi k) c))
    + ((∑ k : Fin 128, h1 feats adj W1 b1 r k * Wout (ix2 (lo k) c)) + bout (ix1 c))
/-- the result array -/
def G : Mat 10000 128 := fun i => out feats adj W1 b1 W2 b2 Wout bout (i 0) (i 1)

end Cert.Spec

end
-- ==== Proof.KI.ValueChain.lean ====
/-
  What the kernel's grid points compute, in the specification's terms, given what the input windows' blocks read.
  With feats, adj, W1, b1, W2, b2, Wout, bout the argument arrays: point 0 computes XW = feats · W1; point b < 50 reads
  rows 200 b .. 200 b + 199 of adj and computes that band of H1 = max (adj · XW + b1) 0, of HW = H1 · W2, and of
  H1 · Wout[:128] + bout (and keeps the band of adj for b < 6); the snapshot taken after point 49 is the whole HW;
  point t ≥ 50 handles the band of rows 200 r .. 200 r + 199 with r = 99 - t for t < 94 (the band of adj streamed in
  again) and r = t - 94 for t ≥ 94 (the kept band of adj), and stores
    max (adj · HW + b2) 0 · Wout[128:] + (H1 · Wout[:128] + bout),
  which is the specification's result on that band, in the specification's own grouping: every step is a rewriting
  of a sum's terms, and row 200 (r / 200) + r % 200 is row r.
-/
import proofs.«159059_g88923002896512_cont_sun_m_248_23_alg».proof.Proof.KI.Inv
import proofs.«159059_g88923002896512_cont_sun_m_248_23_alg».proof.Proof.KI.PayIdx
import proofs.«159059_g88923002896512_cont_sun_m_248_23_alg».proof.Proof.Spec

set_option maxRecDepth 16384

noncomputable section

namespace Cert.KernelIdeal.ValueChain

open Idealize.ShloMosaic Idealize.ShloMosaic.TcCoe Idealize.ShloMosaic.ValueIdx Idealize.SL.Sem
open Cert.KernelIdeal Cert.KernelIdeal.Gen Cert.KernelIdeal.Hand Cert.KernelIdeal.PayIdx
open scoped BigOperators

variable (m : (ℓ : Loc nD τ sig) → Buf (Elt Ideal) ℓ) (c : Dev nD)

/-! ## The argument arrays as functions on their literal index types -/

/-- the node features -/
abbrev feats : Cert.Spec.Mat 10000 128 := m ((c : Thread nD τ).loc main_arg0)
/-- the adjacency matrix -/
abbrev adj : Cert.Spec.Mat 10000 10000 := m ((c : Thread nD τ).loc main_arg1)
/-- the first layer's weights -/
abbrev W1 : Cert.Spec.Mat 128 128 := m ((c : Thread nD τ).loc main_arg2)
/-- the first layer's bias -/
abbrev b1 : Cert.Spec.Row 128 := m ((c : Thread nD τ).loc main_arg3)
/-- the second layer's weights -/
abbrev W2 : Cert.Spec.Mat 128 128 := m ((c : Thread nD τ).loc main_arg4)
/-- the second layer's bias -/
abbrev b2 : Cert.Spec.Row 128 := m ((c : Thread nD τ).loc main_arg5)
/-- the output weights, 256 rows -/
abbrev Wout : Cert.Spec.Mat 256 128 := m ((c : Thread nD τ).loc main_arg6)
/-- the output bias -/
abbrev bout : Cert.Spec.Row 128 := m ((c : Thread nD τ).loc main_arg7)

/-- What each input window's block reads, entry by entry: the whole array for feats, W1, W2; the band of 200 rows
    of adj at the point's row block; the bias vectors as one row; the two halves of Wout. -/
structure BlockFacts : Prop where
  blk1 : ∀ (t : Fin cfg0.N) (y : S10000x128.Idx), (iblk m c 1 t : Vec Ideal S10000x128 .f32) y = feats m c y
  blk2 : ∀ (t : Fin cfg0.N) (y : S128x128.Idx), (iblk m c 2 t : Vec Ideal S128x128 .f32) y = W1 m c y
  blk4 : ∀ (t : Fin cfg0.N) (y : S128x128.Idx), (iblk m c 4 t : Vec Ideal S128x128 .f32) y = W2 m c y
  blk0_lo : ∀ (t : Fin cfg0.N) (ht : t.val < 50) (p : Fin 200) (j : Fin 10000),
    (iblk m c 0 t : Vec Ideal S200x10000 .f32) (ix2 p j)
      = adj m c (ix2 (⟨200 * t.val + p.val, by have := p.isLt; omega⟩ : Fin 10000) j)
  blk0_hi : ∀ (t : Fin cfg0.N) (h50 : 50 ≤ t.val) (h94 : t.val < 94) (p : Fin 200) (j : Fin 10000),
    (iblk m c 0 t : Vec Ideal S200x10000 .f32) (ix2 p j)
      = adj m c (ix2 (⟨200 * (99 - t.val) + p.val, by have := p.isLt; omega⟩ : Fin 10000) j)
  blk3 : ∀ (t : Fin cfg0.N) (k : Fin 128), (iblk m c 3 t : Vec Ideal S1x128 .f32) (ix2 (0 : Fin 1) k) = b1 m c (ix1 k)
  blk5 : ∀ (t : Fin cfg0.N) (k : Fin 128), (iblk m c 5 t : Vec Ideal S1x128 .f32) (ix2 (0 : Fin 1) k) = b2 m c (ix1 k)
  blk8 : ∀ (t : Fin cfg0.N) (k : Fin 128), (iblk m c 8 t : Vec Ideal S1x128 .f32) (ix2 (0 : Fin 1) k) = bout m c (ix1 k)
  blk6 : ∀ (t : Fin cfg0.N) (l k : Fin 128),
    (iblk m c 6 t : Vec Ideal S128x128 .f32) (ix2 l k) = Wout m c (ix2 (⟨l.val, by have := l.isLt; omega⟩ : Fin 256) k)
  blk7 : ∀ (t : Fin cfg0.N) (l k : Fin 128),
    (iblk m c 7 t : Vec Ideal S128x128 .f32) (ix2 l k) = Wout m c (ix2 (⟨128 + l.val, by have := l.isLt; omega⟩ : Fin 256) k)

variable {m c}
variable (hB : BlockFacts m c)
include hB

/-- Point 0's product is feats · W1. -/
theorem Y1_at (j : Fin 10000) (k : Fin 128) :
    Y1 (F := Ideal) m c (ix2 j k) = Cert.Spec.xw (feats m c) (W1 m c) j k := by
  unfold Y1
  refine (pay1_at (iblk m c 1 p0) (iblk m c 2 p0) j k).trans ?_
  unfold Cert.Spec.xw
  refine Finset.sum_congr rfl fun l _ => ?_
  rw [hB.blk1 p0 (ix2 j l), hB.blk2 p0 (ix2 l k)]

/-- The first layer on row block b: H1 on rows 200 b .. 200 b + 199. -/
theorem h1_at (b : Fin cfg0.N) (hb : b.val < 50) (p : Fin 200) (l : Fin 128) :
    k0_pay2 (F := Ideal) (iblk m c 0 b) (Y1 m c) (iblk m c 3 b) (ix2 p l)
      = Cert.Spec.h1 (feats m c) (adj m c) (W1 m c) (b1 m c) (⟨200 * b.val + p.val, by have := p.isLt; omega⟩ : Fin 10000) l := by
  refine (pay2_at (iblk m c 0 b) (Y1 m c) (iblk m c 3 b) p l).trans ?_
  unfold Cert.Spec.h1
  rw [hB.blk3 b l]
  refine congrArg (fun s => max (s + b1 m c (ix1 l)) 0) (Finset.sum_congr rfl fun j _ => ?_)
  rw [hB.blk0_lo b hb p j, Y1_at hB j l]

/-- Block b of H1 · W2. -/
theorem Zb_at (b : Fin cfg0.N) (hb : b.val < 50) (p : Fin 200) (l : Fin 128) :
    Zb (F := Ideal) m c b (ix2 p l)
      = Cert.Spec.hw (feats m c) (adj m c) (W1 m c) (b1 m c) (W2 m c) (⟨200 * b.val + p.val, by have := p.isLt; omega⟩ : Fin 10000) l := by
  unfold Zb
  refine (pay3_at (iblk m c 0 b) (Y1 m c) (iblk m c 3 b) (iblk m c 4 b) p l).trans ?_
  unfold Cert.Spec.hw
  refine Finset.sum_congr rfl fun l' _ => ?_
  rw [h1_at hB b hb p l', hB.blk4 b (ix2 l' l)]

/-- Block b of H1 · Wout[:128] + bout. -/
theorem Ab_at (b : Fin cfg0.N) (hb : b.val < 50) (p : Fin 200) (k : Fin 128) :
    Ab (F := Ideal) m c b (ix3 (0 : Fin 1) p k)
      = (∑ l : Fin 128, Cert.Spec.h1 (feats m c) (adj m c) (W1 m c) (b1 m c) (⟨200 * b.val + p.val, by have := p.isLt; omega⟩ : Fin 10000) l
            * Wout m c (ix2 (Cert.Spec.lo l) k))
        + bout m c (ix1 k) := by
  unfold Ab
  refine (pay4_at (iblk m c 0 b) (Y1 m c) (iblk m c 3 b) (iblk m c 6 b) (iblk m c 8 b) p k).trans ?_
  rw [hB.blk8 b k]
  refine congrArg (· + bout m c (ix1 k)) (Finset.sum_congr rfl fun l _ => ?_)
  rw [h1_at hB b hb p l, hB.blk6 b l k]
  rfl

/-- The kept band b of adj. -/
theorem Cb_at (b : Fin cfg0.N) (hb6 : b.val < 6) (p : Fin 200) (j : Fin 10000) :
    Cb (F := Ideal) m c b (ix3 (0 : Fin 1) p j)
      = adj m c (ix2 (⟨200 * b.val + p.val, by have := p.isLt; omega⟩ : Fin 10000) j) := by
  unfold Cb
  exact (pay5_at (iblk m c 0 b) p j).trans (hB.blk0_lo b (by omega) p j)

/-- The snapshot is the whole H1 · W2: row j lies in block j / 200 at row j % 200. -/
theorem ZBF_at (j : Fin 10000) (l : Fin 128) :
    ZBF (F := Ideal) m c (ix2 j l) = Cert.Spec.hw (feats m c) (adj m c) (W1 m c) (b1 m c) (W2 m c) j l := by
  have hj := j.isLt
  unfold ZBF
  refine (congrFun (pay6_eq (Zfull m c)) (ix2 j l)).trans ?_
  unfold Zfull
  refine (Zb_at hB (pt (j.val / 200) (by omega)) (by simp only [pt_val]; omega)
    (⟨j.val % 200, Nat.mod_lt _ (by omega)⟩ : Fin 200) (⟨l.val, l.isLt⟩ : Fin 128)).trans ?_
  have e : (⟨200 * (pt (j.val / 200) (by omega)).val + j.val % 200, by simp only [pt_val]; omega⟩ : Fin 10000) = j :=
    Fin.ext (by simp only [pt_val]; omega)
  rw [e]

/-- A point 50 ≤ t < 94 stores the result on the band of rows 200 (99 - t) .. 200 (99 - t) + 199. -/
theorem out_at_streamed (t : Fin cfg0.N) (h50 : 50 ≤ t.val) (h94 : t.val < 94) (p : Fin 200) (k : Fin 128) :
    outAt (F := Ideal) m c t (ix2 p k)
      = Cert.Spec.out (feats m c) (adj m c) (W1 m c) (b1 m c) (W2 m c) (b2 m c) (Wout m c) (bout m c)
          (⟨200 * (99 - t.val) + p.val, by have := p.isLt; omega⟩ : Fin 10000) k := by
  unfold outAt
  rw [dif_neg (by omega : ¬ 94 ≤ t.val)]
  refine (pay7_at (iblk m c 0 t) (ZBF m c) (iblk m c 5 t) (iblk m c 7 t) (Ab m c (pt (99 - t.val) (by omega))) p k).trans ?_
  unfold Cert.Spec.out
  rw [Ab_at hB (pt (99 - t.val) (by omega)) (by simp only [pt_val]; omega) p k]
  refine congrArg₂ (· + ·) (Finset.sum_congr rfl fun l _ => ?_) rfl
  unfold Cert.Spec.h2
  rw [hB.blk5 t l, hB.blk7 t l k]
  refine congrArg₂ (· * ·) (congrArg (fun s => max (s + b2 m c (ix1 l)) 0) (Finset.sum_congr rfl fun j _ => ?_)) rfl
  rw [hB.blk0_hi t h50 h94 p j, ZBF_at hB j l]

/-- A point t ≥ 94 stores the result on the band of rows 200 (t - 94) .. 200 (t - 94) + 199. -/
theorem out_at_kept (t : Fin cfg0.N) (h94 : 94 ≤ t.val) (p : Fin 200) (k : Fin 128) :
    outAt (F := Ideal) m c t (ix2 p k)
      = Cert.Spec.out (feats m c) (adj m c) (W1 m c) (b1 m c) (W2 m c) (b2 m c) (Wout m c) (bout m c)
          (⟨200 * (t.val - 94) + p.val, by have := p.isLt; have := lt100 t; omega⟩ : Fin 10000) k := by
  have ht := lt100 t
  unfold outAt
  rw [dif_pos h94]
  refine (pay8_at (Cb m c (pt (t.val - 94) (by omega))) (ZBF m c) (iblk m c 5 t) (iblk m c 7 t)
    (Ab m c (pt (t.val - 94) (by omega))) p k).trans ?_
  unfold Cert.Spec.out
  rw [Ab_at hB (pt (t.val - 94) (by omega)) (by simp only [pt_val]; omega) p k]
  refine congrArg₂ (· + ·) (Finset.sum_congr rfl fun l _ => ?_) rfl
  unfold Cert.Spec.h2
  rw [hB.blk5 t l, hB.blk7 t l k]
  refine congrArg₂ (· * ·) (congrArg (fun s => max (s + b2 m c (ix1 l)) 0) (Finset.sum_congr rfl fun j _ => ?_)) rfl
  rw [Cb_at hB (pt (t.val - 94) (by omega)) (by simp only [pt_val]; omega) p j, ZBF_at hB j l]
  rfl

/-- A point t ≥ 50 stores the result on the band of rows it handles. -/
theorem out_at (t : Fin cfg0.N) (h50 : 50 ≤ t.val) (p : Fin 200) (k : Fin 128) :
    outAt (F := Ideal) m c t (ix2 p k)
      = Cert.Spec.out (feats m c) (adj m c) (W1 m c) (b1 m c) (W2 m c) (b2 m c) (Wout m c) (bout m c)
          (⟨200 * (if t.val < 94 then 99 - t.val else t.val - 94) + p.val,
            by have := p.isLt; have := lt100 t; split <;> omega⟩ : Fin 10000) k := by
  have ht := lt100 t
  have hp := p.isLt
  by_cases h : t.val < 94
  · have e : (⟨200 * (if t.val < 94 then 99 - t.val else t.val - 94) + p.val, by split <;> omega⟩ : Fin 10000)
        = ⟨200 * (99 - t.val) + p.val, by omega⟩ := Fin.ext (by show 200 * (if t.val < 94 then _ else _) + _ = _; rw [if_pos h])
    rw [e]
    exact out_at_streamed hB t h50 h p k
  · have e : (⟨200 * (if t.val < 94 then 99 - t.val else t.val - 94) + p.val, by split <;> omega⟩ : Fin 10000)
        = ⟨200 * (t.val - 94) + p.val, by omega⟩ := Fin.ext (by show 200 * (if t.val < 94 then _ else _) + _ = _; rw [if_neg h])
    rw [e]
    exact out_at_kept hB t (by omega) p k

end Cert.KernelIdeal.ValueChain

end
-- ==== Proof.KI.Final.lean ====
/-
  The kernel's result array after the run is the specification's function of the argument arrays. Every block the
  second layer writes back is its block of that one function (the payloads read at an index through the scratch
  invariant), and the blocks written back at points 50 to 99 cover all 10000 rows: block b at point 99 - b for
  b ≥ 6, at point 94 + b for b < 6. So the run ends with the result array at the specification and the arguments
  unchanged.
-/
import proofs.«159059_g88923002896512_cont_sun_m_248_23_alg».proof.Proof.KI.Dat
import proofs.«159059_g88923002896512_cont_sun_m_248_23_alg».proof.Proof.KI.Blocks
import proofs.«159059_g88923002896512_cont_sun_m_248_23_alg».proof.Proof.KI.ValueChain
import proofs.«159059_g88923002896512_cont_sun_m_248_23_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- the specification at the kernel's argument arrays -/
def GG (c : Dev nD) : Buf (Elt Ideal) ((cfg0.win 9).arr.view.loc (c.tc : Thread nD τ)) :=
  Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- each window's block is the rows of its array the index map names -/
theorem blockFacts (c : Dev nD) : Cert.KernelIdeal.ValueChain.BlockFacts m c :=
  ⟨Cert.KernelIdeal.Blocks.blk1 m c, Cert.KernelIdeal.Blocks.blk2 m c, Cert.KernelIdeal.Blocks.blk4 m c,
   Cert.KernelIdeal.Blocks.blk0_lo m c, Cert.KernelIdeal.Blocks.blk0_hi m c,
   Cert.KernelIdeal.Blocks.blk3 m c, Cert.KernelIdeal.Blocks.blk5 m c, Cert.KernelIdeal.Blocks.blk8 m c,
   Cert.KernelIdeal.Blocks.blk6 m c, Cert.KernelIdeal.Blocks.blk7 m c⟩

/-- what a point of the second layer writes back is its block of the specification -/
theorem flushed_eq (c : Dev nD) (t : Fin cfg0.N) (hf : (cfg0.win 9).flush t = true) :
    (dats m 0 c).flushed 9 t = ((cfg0.win 9).blk t).view.read (Elt Ideal) (GG m c) := by
  have h50 : 50 ≤ t.val := (Cert.KernelIdeal.Blocks.flush9_iff t).mp hf
  show (cfg0.win 9).cut (grid0.coords t) ((dats m 0 c).after 9 t) = _
  rw [after_9]
  funext y
  obtain ⟨p, k, rfl⟩ : ∃ (p : Fin 200) (k : Fin 128), y = ix2 p k := ⟨y 0, y 1, eq_ix2 y⟩
  rw [Cert.KernelIdeal.Blocks.out_read c (GG m c) t h50 p k]
  exact Cert.KernelIdeal.ValueChain.out_at (blockFacts m c) t h50 p k

/-- the result array after the run -/
theorem final (c : Dev nD) : (dats m 0 c).arrAt 9 cfg0.N = GG m c :=
  (dats m 0 c).arrAt_eq_of_cover 9 (GG m c) (flushed_eq m c) (Cert.KernelIdeal.Blocks.out_cover c)

/-- the kernel's run: the result array at the specification, the arguments unchanged -/
theorem kernel_run : θ_run defs (onTc (τ := τ) (main (F := Ideal))) ⟨m, fun _ => 0, ρ⟩ (fun r => ∀ c : Dev nD,
      r.2.mem ((c.tc : Thread nD τ).loc main_v0) = GG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 9).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Hand

end
-- ==== Proof.RefSpec.lean ====
/-
  The reference program is the specification's function, index by index.
  The reference computes XW = feats · W1, H1 = max (adj · XW + b1) 0, HW = H1 · W2, H2 = max (adj · HW + b2) 0, joins
  H1 and H2 side by side into one array of 256 columns, and multiplies the joined array by Wout with ONE sum over the
  256 joined columns before adding bout. Column k < 128 of the joined array is column k of H1, column 128 + k is
  column k of H2; so the sum over 256 columns is the sum of its two halves of 128 (a sum over Fin (128 + 128) split at
  128), and (a + b) + c = b + (a + c) brings it to the specification's grouping. Only commutativity and associativity
  of addition on the extended reals are used: no distributivity, no cancellation, no finiteness.
-/
import proofs.«159059_g88923002896512_cont_sun_m_248_23_alg».proof.Proof.Gen.ReferenceIdeal.Read
import proofs.«159059_g88923002896512_cont_sun_m_248_23_alg».proof.Proof.Spec

noncomputable section

namespace Cert.RefSpec

open Cert.ReferenceIdeal Cert.ReferenceIdeal.Gen Cert.ReferenceIdeal.Read Idealize.ShloMosaic Idealize.ShloMosaic.ValueIdx
open scoped BigOperators

/-- Two indices of a matrix with the same row and the same column are the same index. -/
theorem ext2 {n0 n1 : Nat} {f g : (⟨2, ![n0, n1]⟩ : Shape).Idx} (h0 : f 0 = g 0) (h1 : f 1 = g 1) : f = g :=
  funext fun a => match a with | ⟨0, _⟩ => h0 | ⟨1, _⟩ => h1

/-- Two indices of a vector with the same coordinate are the same index. -/
theorem ext1 {n : Nat} {f g : (⟨1, ![n]⟩ : Shape).Idx} (h0 : f 0 = g 0) : f = g :=
  funext fun a => match a with | ⟨0, _⟩ => h0

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))

/-- feats · W1 at an index. -/
theorem xw_at (i : S10000x128.Idx) :
    val_main_v0 (F := Ideal) x0 x2 i = Cert.Spec.xw x0 x2 (i 0) (i 1) := by
  have el : ∀ l : Fin 128, lidx_main_v0 i l = ix2 (i 0) l := fun l => ext2 rfl rfl
  have er : ∀ l : Fin 128, ridx_main_v0 i l = ix2 l (i 1) := fun l => ext2 rfl rfl
  rw [val_main_v0_apply]
  simp only [el, er]
  rfl

/-- The first layer at an index: the zero literal is 0, the maximum is max, the bias is read at the column. -/
theorem h1_at (i : S10000x128.Idx) :
    val_main_v5 (F := Ideal) x0 x1 x2 x3 i = Cert.Spec.h1 x0 x1 x2 x3 (i 0) (i 1) := by
  have el : ∀ j : Fin 10000, lidx_main_v1 i j = ix2 (i 0) j := fun j => ext2 rfl rfl
  have eb : idx_main_v2 (idx_main_v3 i) = ix1 (i 1) := ext1 rfl
  rw [val_main_v5_apply, val_main_v4_apply, val_main_v1_apply, val_main_v3_apply, val_main_v2_apply,
    val_main_call0_v0_apply, val_main_call0_cst_apply]
  simp only [el, eb, xw_at, Ideal.maximumf_def, Ideal.addf_def, Ideal.ofBits_def, Ideal.ofBits_zero_f32]
  rfl

/-- H1 · W2 at an index. -/
theorem hw_at (i : S10000x128.Idx) :
    val_main_v6 (F := Ideal) x0 x1 x2 x3 x4 i = Cert.Spec.hw x0 x1 x2 x3 x4 (i 0) (i 1) := by
  have er : ∀ l : Fin 128, ridx_main_v6 i l = ix2 l (i 1) := fun l => ext2 rfl rfl
  rw [val_main_v6_apply]
  simp only [er, h1_at]
  rfl

/-- The second layer at an index. -/
theorem h2_at (i : S10000x128.Idx) :
    val_main_v11 (F := Ideal) x0 x1 x2 x3 x4 x5 i = Cert.Spec.h2 x0 x1 x2 x3 x4 x5 (i 0) (i 1) := by
  have el : ∀ j : Fin 10000, lidx_main_v7 i j = ix2 (i 0) j := fun j => ext2 rfl rfl
  have eb : idx_main_v8 (idx_main_v9 i) = ix1 (i 1) := ext1 rfl
  rw [val_main_v11_apply, val_main_v10_apply, val_main_v7_apply, val_main_v9_apply, val_main_v8_apply,
    val_main_call1_v0_apply, val_main_call1_cst_apply]
  simp only [el, eb, hw_at, Ideal.maximumf_def, Ideal.addf_def, Ideal.ofBits_def, Ideal.ofBits_zero_f32]
  rfl

/-- Column k of the first half of the joined array is column k of H1. -/
theorem joined_lo (r : Fin 10000) (k : Fin 128) :
    val_main_v12 (F := Ideal) x0 x1 x2 x3 x4 x5 (ix2 r (Cert.Spec.lo k)) = Cert.Spec.h1 x0 x1 x2 x3 r k := by
  unfold val_main_v12
  rw [concatenate_pair_apply_left (1 : Fin S10000x256.rank) (val_main_v5 (F := Ideal) x0 x1 x2 x3)
    (val_main_v11 (F := Ideal) x0 x1 x2 x3 x4 x5) concatenates_S10000x128_S10000x128_S10000x256_d1
    (ix2 r (Cert.Spec.lo k)) rfl (ix2 r k)
    (fun b => match b with | ⟨0, _⟩ => rfl | ⟨1, _⟩ => rfl), h1_at]

/-- Column 128 + k of the joined array is column k of H2. -/
theorem joined_hi (r : Fin 10000) (k : Fin 128) :
    val_main_v12 (F := Ideal) x0 x1 x2 x3 x4 x5 (ix2 r (Cert.Spec.hi k)) = Cert.Spec.h2 x0 x1 x2 x3 x4 x5 r k := by
  unfold val_main_v12
  rw [concatenate_pair_apply_right (1 : Fin S10000x256.rank) (val_main_v5 (F := Ideal) x0 x1 x2 x3)
    (val_main_v11 (F := Ideal) x0 x1 x2 x3 x4 x5) concatenates_S10000x128_S10000x128_S10000x256_d1
    (ix2 r (Cert.Spec.hi k)) rfl rfl (ix2 r k)
    (fun b => match b with | ⟨0, _⟩ => fun _ => rfl | ⟨1, _⟩ => fun h => absurd rfl h)
    (show k.val + 128 = 128 + k.val from Nat.add_comm _ _), h2_at]

/-- A sum over the 256 joined columns is the sum over the first 128 plus the sum over the last 128. -/
theorem sum_joined (f : Fin 256 → EReal) :
    ∑ k : Fin 256, f k = (∑ k : Fin 128, f (Cert.Spec.lo k)) + ∑ k : Fin 128, f (Cert.Spec.hi k) :=
  Fin.sum_univ_add (M := EReal) (a := 128) (b := 128) f

/-- [H1 | H2] · Wout at an index: the two halves of the one sum. -/
theorem joined_dot_at (i : S10000x128.Idx) :
    val_main_v13 (F := Ideal) x0 x1 x2 x3 x4 x5 x6 i
      = (∑ k : Fin 128, Cert.Spec.h1 x0 x1 x2 x3 (i 0) k * x6 (ix2 (n1 := 128) (Cert.Spec.lo k) (i 1)))
        + ∑ k : Fin 128, Cert.Spec.h2 x0 x1 x2 x3 x4 x5 (i 0) k * x6 (ix2 (n1 := 128) (Cert.Spec.hi k) (i 1)) := by
  have el : ∀ k : Fin 256, lidx_main_v13 i k = ix2 (n0 := 10000) (i 0) k := fun k => ext2 rfl rfl
  have er : ∀ k : Fin 256, ridx_main_v13 i k = ix2 (n1 := 128) k (i 1) := fun k => ext2 rfl rfl
  rw [val_main_v13_apply, sum_joined]
  refine congrArg₂ (· + ·) (Finset.sum_congr rfl fun k _ => ?_) (Finset.sum_congr rfl fun k _ => ?_)
  · rw [el, er, joined_lo x0 x1 x2 x3 x4 x5 (i 0) k]
  · rw [el, er, joined_hi x0 x1 x2 x3 x4 x5 (i 0) k]

/-- The reference's result is the specification's function. -/
theorem ref_eq_G :
    Cert.ReferenceIdeal.Read.val_main_v16 (F := Ideal) x0 x1 x2 x3 x4 x5 x6 x7 = Cert.Spec.G x0 x1 x2 x3 x4 x5 x6 x7 := by
  funext i
  have eb : idx_main_v14 (idx_main_v15 i) = ix1 (i 1) := ext1 rfl
  rw [val_main_v16_apply, joined_dot_at, val_main_v15_apply, val_main_v14_apply, eb, Ideal.addf_def, add_assoc,
    add_left_comm]
  rfl

end Cert.RefSpec

end
-- ==== Proof.lean ====
/-
  The certificate of the fused two-layer graph convolution against its reference.
  Both programs compute  out = [H1 | H2] · Wout + bout  with  H1 = max (adj · (feats · W1) + b1) 0  and
  H2 = max (adj · (H1 · W2) + b2) 0.  The kernel streams the adjacency matrix in 50 blocks of 200 rows twice over a
  grid of 100 points: the first sweep computes H1 block by block and keeps Z = H1 · W2 and H1 · Wout[:128] + bout in
  scratch; the second sweep computes H2 block by block from Z and adds H2 · Wout[128:]. At the ideal instance every
  change of float format is the identity, so the kernel's result is the reference's with the sum over the 256 joined
  columns split in its two halves and regrouped: commutativity and associativity of addition on the extended reals,
  no finiteness needed. The three frames: each kernel program by the body's run in each of its six control cases
  under an invariant that tracks the five scratch buffers; the reference by its run. The idealization rewrote no
  operation, so there is nothing to preserve.
-/
import proofs.«159059_g88923002896512_cont_sun_m_248_23_alg».proof.Defs
import proofs.«159059_g88923002896512_cont_sun_m_248_23_alg».proof.Proof.Gen.Kernel
import proofs.«159059_g88923002896512_cont_sun_m_248_23_alg».proof.Proof.Gen.KernelIdeal
import proofs.«159059_g88923002896512_cont_sun_m_248_23_alg».proof.Proof.Gen.ReferenceIdeal
import proofs.«159059_g88923002896512_cont_sun_m_248_23_alg».proof.Proof.Gen.ReferenceIdeal.Run
import proofs.«159059_g88923002896512_cont_sun_m_248_23_alg».proof.Proof.Gen.ReferenceIdeal.Read
import proofs.«159059_g88923002896512_cont_sun_m_248_23_alg».proof.Proof.Gen.Pre_finite_inputs
import proofs.«159059_g88923002896512_cont_sun_m_248_23_alg».proof.Proof.K.Dat
import proofs.«159059_g88923002896512_cont_sun_m_248_23_alg».proof.Proof.KI.Final
import proofs.«159059_g88923002896512_cont_sun_m_248_23_alg».proof.Proof.RefSpec
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- both idealized programs end with the specification's function of arguments that agree -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.GG m c, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefSpec.ref_eq_G,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
